-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩
abbrev S8192x8192 : Shape := ⟨2, ![8192, 8192]⟩

abbrev nBuf : Space → Nat
  | .hbm => 15
  | .vmem => 20
  | .smem => 0
  | _ => 0

abbrev bufTy : (tb : Table) → Fin (tcTables nBuf tb) → BufTy
  | .hbm, ⟨0, _⟩ => ⟨S8192x128, .f32⟩
  | .hbm, ⟨1, _⟩ => ⟨S8192x128, .bf16⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S1x8192, .f32⟩
  | .hbm, ⟨14, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S8192x128, .f32⟩
  | .local _ .vmem, ⟨3, _⟩ => ⟨S1024x1, .f32⟩
  | .local _ .vmem, ⟨4, _⟩ => ⟨S1024x1, .f32⟩
  | .local _ .vmem, ⟨5, _⟩ => ⟨S1x8192, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x128, .f32⟩
  | .local _ .vmem, ⟨10, _⟩ => ⟨S1024x128, .f32⟩
  | .local _ .vmem, ⟨11, _⟩ => ⟨S8192x128, .f32⟩
  | .local _ .vmem, ⟨12, _⟩ => ⟨S1024x1, .f32⟩
  | .local _ .vmem, ⟨13, _⟩ => ⟨S1024x1, .f32⟩
  | .local _ .vmem, ⟨14, _⟩ => ⟨S1x8192, .f32⟩
  | .local _ .vmem, ⟨15, _⟩ => ⟨S1024x1, .f32⟩
  | .local _ .vmem, ⟨16, _⟩ => ⟨S1024x1, .f32⟩
  | .local _ .vmem, ⟨17, _⟩ => ⟨S1x8192, .f32⟩
  | .local _ .vmem, ⟨18, _⟩ => ⟨S1024x1024, .f32⟩
  | .local _ .vmem, ⟨19, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_mult2 (i : grid0.Coords) : BitVec 32 :=
  let arg1 : BitVec 32 := BitVec.ofNat 32 (i 1).val
  let c1024_i32_1 : BitVec 32 := 1024#32
  let v5 : BitVec 32 := Scalar.muli arg1 c1024_i32_1
  v5
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v9 : Index := Scalar.indexCast v4
  let c0_3 : Index := 0#32
  ![v9.toNat, 0]
def k0_off2 (i : grid0.Coords) : Fin 2 → Nat :=
  let c0_4 : Index := 0#32
  let arg1 : BitVec 32 := BitVec.ofNat 32 (i 1).val
  let c1024_i32_1 : BitVec 32 := 1024#32
  let v5 : BitVec 32 := Scalar.muli arg1 c1024_i32_1
  let v6 : BitVec 32 := v5
  let v12 : Index := Scalar.indexCast v6
  ![0, v12.toNat]
def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v0 : BitVec 32 := Scalar.muli arg1 c1024_i32
  v0
def k1_mult2 (i : grid1.Coords) : BitVec 32 :=
  let arg1 : BitVec 32 := BitVec.ofNat 32 (i 1).val
  let c1024_i32_0 : BitVec 32 := 1024#32
  let v2 : BitVec 32 := Scalar.muli arg1 c1024_i32_0
  v2
def k1_off1 (i : grid1.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v6 : Index := Scalar.indexCast v1
  let c0_2 : Index := 0#32
  ![v6.toNat, 0]
def k1_off2 (i : grid1.Coords) : Fin 2 → Nat :=
  let c0_3 : Index := 0#32
  let arg1 : BitVec 32 := BitVec.ofNat 32 (i 1).val
  let c1024_i32_0 : BitVec 32 := 1024#32
  let v2 : BitVec 32 := Scalar.muli arg1 c1024_i32_0
  let v3 : BitVec 32 := v2
  let v9 : Index := Scalar.indexCast v3
  ![0, v9.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x8192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  bitsLt_bf16_f32 : FTy.bits .bf16 < FTy.bits .f32
  reducesTo_S8192x128_S8192_d1 : S8192x128.ReducesTo [1] S8192
  h_S_ : 0 < S_.numel
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  h_S1x1024 : 0 < S1x1024.numel
  shapeCasts_S1x1024_S1x1024 : S1x1024.ShapeCasts S1x1024
  transposes_S1024x128_p1_0_S128x1024 : S1024x128.Transposes [1, 0] S128x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  bcast_S_S8192x1 : S_.BroadcastsInDim S8192x1 (![] : Fin 0 → Fin S8192x1.rank)
  shapeCasts_S8192x1_S1x8192 : S8192x1.ShapeCasts S1x8192
  inb_S1024x1024_S1024x1024_0_0 : ∀ a, (![0, 0] : Fin 2 → Nat) a + S1024x1024.size a ≤ S1024x1024.size a
  h_S1024x1024 : 0 < S1024x1024.numel
  dot_S1024x128_S128x1024_S1024x1024_1_0_0_1_n_n_wf : DotDims.WF S1024x128 S128x1024 S1024x1024 [1] [0] [0] [1] [] []
  hrank0 : 0 < grid0.rank
  k0_mult1_dvd : ∀ i : grid0.Coords, 8 ∣ (k0_mult1 i).toNat
  k0_mult2_dvd : ∀ i : grid0.Coords, 128 ∣ (k0_mult2 i).toNat
  k0_off1_inb : ∀ i : grid0.Coords, ∀ a, (k0_off1 i) a + S1024x128.size a ≤ S8192x128.size a
  k0_off2_inb : ∀ i : grid0.Coords, ∀ a, (k0_off2 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hrank1 : 0 < grid1.rank
  k1_mult1_dvd : ∀ i : grid1.Coords, 8 ∣ (k1_mult1 i).toNat
  k1_mult2_dvd : ∀ i : grid1.Coords, 128 ∣ (k1_mult2 i).toNat
  k1_off1_inb : ∀ i : grid1.Coords, ∀ a, (k1_off1 i) a + S1024x128.size a ≤ S8192x128.size a
  k1_off2_inb : ∀ i : grid1.Coords, ∀ a, (k1_off2 i) a + S1x1024.size a ≤ S1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .f32 = 32 ∨ (Rect.block (s := S1x8192) S1x8192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x8192.size a ≤ S1x8192.size a
  hwx1_5 : ∀ i : grid1.Coords, EltTy.bits .f32 = 32 ∨ (Rect.block (s := S1x8192) S1x8192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S8192x8192.size a
  hwx1_6 : ∀ i : grid1.Coords, EltTy.bits .f32 = 32 ∨ (Rect.block (s := S8192x8192) S1024x1024.size (cc1_transform_6 i) (hinb1_6 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x8192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1024x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S128x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S1x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d0 : S8192x8192.ReducesTo [0] S8192
  bcast_S_S8192 : S_.BroadcastsInDim S8192 (![] : Fin 0 → Fin S8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KDegreeBody.lean ====
/-
  Region 0 of the kernel program: the degree kernel's body, at a parameter `V` (the TensorCore's buffer contents when the
  region is entered). The kernel at grid point (row block, column block): in the first column block it zeroes the
  scratch accumulator; in every column block it adds to the accumulator the row sums of the point's 1024×1024 tile
  exp(-max(|x_i|² + |x_j|² - 2 x_i·x_j, 0) / 512); in the last column block it copies the accumulator into the output
  window. Hence three control cases, an accumulator carried between points (`sacc`), and an output window idle except
  in the last column block. Stated here: the blocks (`iblk0`), the accumulator by recursion on the point (`sacc`,
  `sacc_succ_zero`, `sacc_succ_pos`), the proof data (`dat0`), its projections (`A_eq0`, `after0_W`, `before0_W`,
  `after0_4_flush`), the body obligation (`body_obligation0`) and the invariant's ends (`hin0`, `hout0`).
-/
import proofs.«143705_j41875931136544_2_alg».proof.Proof.Gen.Kernel.Launch
import proofs.«143705_j41875931136544_2_alg».proof.Proof.Gen.Kernel.Skeleton
import proofs.«143705_j41875931136544_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the point -/

/-- The first conditional's guard (the column block is the first one), from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)
/-- The second conditional's guard (the column block is the last one). -/
abbrev cond0_1 (i : grid0.Coords) : Prop := k0_cond2 i = 1#1
/-- It holds exactly at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## The body's rectangles and what one point computes -/

theorem zero2 : (![0, 0] : Fin 2 → Nat) = fun _ => 0 := by funext a; fin_cases a <;> rfl

/-- The 1024 rows of the resident array that the point's column block names. -/
abbrev rOff1 (i : grid0.Coords) : Rect S8192x128 := Rect.unit (s := S8192x128) (k0_off1 i) S1024x128.size (k0_off1_inb i)
/-- The 1024 lanes of the resident row that the point's column block names. -/
abbrev rOff2 (i : grid0.Coords) : Rect S1x8192 := Rect.unit (s := S1x8192) (k0_off2 i) S1x1024.size (k0_off2_inb i)

/-- One point's new accumulator: the old one plus the row sums of the point's 1024×1024 tile, from the row block
    `x0`, the whole resident array `x1` (read at the column block's rows), the row block's squared norms `x2` and the
    whole resident row of squared norms `x3` (read at the column block's lanes). -/
def sstepI (i : grid0.Coords) (x0 : Vec F S1024x128 .f32) (x1 : Vec F S8192x128 .f32) (x2 : Vec F S1024x1 .f32) (x3 : Vec F S1x8192 .f32)
    (acc : Vec F S1024x1 .f32) : Vec F S1024x1 .f32 :=
  k0_pay2 x0 (View.ld x1 (rOff1 i)) (View.ld x3 (rOff2 i)) x2 acc

/-- A load through a rectangle of a whole memref held at read contents `x` reads `x` at the rectangle. -/
theorem readAt_unread_ld {S : Shape} (m : Memref sig .tc .vmem S .f32) (hm : m.IsWhole) (r : Rect S) (x : Vec F S .f32) :
    View.readAt (Elt F) m.view r.toLoadRect (hm.unread x) = View.ld x r := by
  rw [View.readAt_eq_ld, hm.read_unread]

/-- Through the whole-shape rectangle it reads `x`. -/
theorem readAt_unread_whole {S : Shape} (m : Memref sig .tc .vmem S .f32) (hm : m.IsWhole) {off : Fin S.rank → Nat} (h : off = fun _ => 0)
    (inb : ∀ a, off a + S.size a ≤ S.size a) (x : Vec F S .f32) :
    View.readAt (Elt F) m.view (Rect.unit off S.size inb).toLoadRect (hm.unread x) = x := by
  rw [readAt_unread_ld, View.ld_unit_zero h inb]

/-! ## The kernel body on whole memrefs, case by case -/

set_option maxHeartbeats 1000000 in
/-- CASE A (the first column block): the scratch, at anything, is zeroed and then takes the tile's row sums; the output
    window, idle, is handed back as found. -/
theorem run0_A (c : Dev nD) (i : grid0.Coords)
    (arg2 : Memref sig .tc .vmem S1024x128 .f32) (harg2 : arg2.IsWhole) (arg3 : Memref sig .tc .vmem S8192x128 .f32) (harg3 : arg3.IsWhole)
    (arg4 : Memref sig .tc .vmem S1024x1 .f32) (harg4 : arg4.IsWhole) (arg5 : Memref sig .tc .vmem S1x8192 .f32) (harg5 : arg5.IsWhole)
    (arg6 : Memref sig .tc .vmem S1024x1 .f32) (harg6 : arg6.IsWhole) (arg7 : Memref sig .tc .vmem S1024x1 .f32) (harg7 : arg7.IsWhole)
    (hc0 : cond0_0 i) (hc1 : ¬cond0_1 i)
    (x0 : Vec F S1024x128 .f32) (x1 : Vec F S8192x128 .f32) (x2 : Vec F S1024x1 .f32) (x3 : Vec F S1x8192 .f32) (xi4 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (sstepI i x0 x1 x2 x3 k0_pay1)) -∗ K ⟨⟩))
      ⊢ wp frame (wpE (defs₀ (F := F)) Variants.none c none) E (cc0__degree_kernel i arg2 harg2 arg3 harg3 arg4 harg4 arg5 harg5 arg6 harg6 arg7 harg7) K := by
  simp only [cc0__degree_kernel_eq_skeleton]; unfold cc0__degree_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_run_names
  rw [View.read_writes_eq_canon _ _ _ (fun y => ⟨_, List.mem_cons_self, View.mem_set_unit_zero zero2 inb_S1024x1_S1024x1_0_0 y⟩), View.canon_cons_unit_zero zero2]
  unfold sstepI
  rw [View.readCov_unit_zero _ zero2, readAt_unread_whole arg2 harg2 zero2, readAt_unread_ld arg3 harg3, readAt_unread_ld arg5 harg5, readAt_unread_whole arg4 harg4 zero2]

set_option maxHeartbeats 1000000 in
/-- CASE B (a column block that is neither the first nor the last): the scratch, at what the point before left, takes the
    tile's row sums; the output window, idle, is handed back as found. -/
theorem run0_B (c : Dev nD) (i : grid0.Coords)
    (arg2 : Memref sig .tc .vmem S1024x128 .f32) (harg2 : arg2.IsWhole) (arg3 : Memref sig .tc .vmem S8192x128 .f32) (harg3 : arg3.IsWhole)
    (arg4 : Memref sig .tc .vmem S1024x1 .f32) (harg4 : arg4.IsWhole) (arg5 : Memref sig .tc .vmem S1x8192 .f32) (harg5 : arg5.IsWhole)
    (arg6 : Memref sig .tc .vmem S1024x1 .f32) (harg6 : arg6.IsWhole) (arg7 : Memref sig .tc .vmem S1024x1 .f32) (harg7 : arg7.IsWhole)
    (hc0 : ¬cond0_0 i) (hc1 : ¬cond0_1 i)
    (x0 : Vec F S1024x128 .f32) (x1 : Vec F S8192x128 .f32) (x2 : Vec F S1024x1 .f32) (x3 : Vec F S1x8192 .f32) (xi4 : Vec F S1024x1 .f32) (xs : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (sstepI i x0 x1 x2 x3 xs)) -∗ K ⟨⟩))
      ⊢ wp frame (wpE (defs₀ (F := F)) Variants.none c none) E (cc0__degree_kernel i arg2 harg2 arg3 harg3 arg4 harg4 arg5 harg5 arg6 harg6 arg7 harg7) K := by
  simp only [cc0__degree_kernel_eq_skeleton]; unfold cc0__degree_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  rw [View.read_writes_eq_canon _ _ _ (fun y => ⟨_, List.mem_cons_self, View.mem_set_unit_zero zero2 inb_S1024x1_S1024x1_0_0 y⟩), View.canon_cons_unit_zero zero2]
  unfold sstepI
  rw [readAt_unread_whole arg2 harg2 zero2, readAt_unread_ld arg3 harg3, readAt_unread_ld arg5 harg5, readAt_unread_whole arg4 harg4 zero2, readAt_unread_whole arg7 harg7 zero2]

set_option maxHeartbeats 1000000 in
/-- CASE C (the last column block): the scratch, at what the point before left, takes the tile's row sums and is then
    copied into the output window's buffer. -/
theorem run0_C (c : Dev nD) (i : grid0.Coords)
    (arg2 : Memref sig .tc .vmem S1024x128 .f32) (harg2 : arg2.IsWhole) (arg3 : Memref sig .tc .vmem S8192x128 .f32) (harg3 : arg3.IsWhole)
    (arg4 : Memref sig .tc .vmem S1024x1 .f32) (harg4 : arg4.IsWhole) (arg5 : Memref sig .tc .vmem S1x8192 .f32) (harg5 : arg5.IsWhole)
    (arg6 : Memref sig .tc .vmem S1024x1 .f32) (harg6 : arg6.IsWhole) (arg7 : Memref sig .tc .vmem S1024x1 .f32) (harg7 : arg7.IsWhole)
    (hc0 : ¬cond0_0 i) (hc1 : cond0_1 i)
    (x0 : Vec F S1024x128 .f32) (x1 : Vec F S8192x128 .f32) (x2 : Vec F S1024x1 .f32) (x3 : Vec F S1x8192 .f32) (xs : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (sstepI i x0 x1 x2 x3 xs) ∗ owns (c : Thread nD τ) arg7 fullShare (sstepI i x0 x1 x2 x3 xs)) -∗ K ⟨⟩))
      ⊢ wp frame (wpE (defs₀ (F := F)) Variants.none c none) E (cc0__degree_kernel i arg2 harg2 arg3 harg3 arg4 harg4 arg5 harg5 arg6 harg6 arg7 harg7) K := by
  simp only [cc0__degree_kernel_eq_skeleton]; unfold cc0__degree_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3
  obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [View.read_writes_eq_canon _ _ _ (fun y => ⟨_, List.mem_cons_self, View.mem_set_unit_zero zero2 inb_S1024x1_S1024x1_0_0 y⟩), View.canon_cons_unit_zero zero2, View.readCov_unit_zero _ zero2]
    unfold sstepI
    rw [readAt_unread_whole arg2 harg2 zero2, readAt_unread_ld arg3 harg3, readAt_unread_ld arg5 harg5, readAt_unread_whole arg4 harg4 zero2, readAt_unread_whole arg7 harg7 zero2]
  iexists _; isplitr
  swap; · iexact HS
  ipureintro
  sl_unfold_run_names
  rw [View.read_writes_eq_canon _ _ _ (fun y => ⟨_, List.mem_cons_self, View.mem_set_unit_zero zero2 inb_S1024x1_S1024x1_0_0 y⟩), View.canon_cons_unit_zero zero2]
  unfold sstepI
  rw [readAt_unread_whole arg2 harg2 zero2, readAt_unread_ld arg3 harg3, readAt_unread_ld arg5 harg5, readAt_unread_whole arg4 harg4 zero2, readAt_unread_whole arg7 harg7 zero2]

/-! ## The staging memrefs at a point, and the scratch -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The scratch accumulator: a whole scoped buffer of the kernel's own, passed beside the windows. -/
abbrev scM0 : Memref sig .tc .vmem S1024x1 .f32 := Memref.whole cc0_scratch0

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Where the last column block is not reached the output window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last column block the output window is live. -/
theorem liveAt0_4 : ∀ t : Fin cfg0.N, cond0_1 (grid0.coords t) → cfg0.idle 4 (grid0.coords t) = false := by decide +kernel

/-! ## The scoped rest with the scratch pulled out -/

/-- The core's scoped buffers that are neither a staging buffer of this call nor its scratch (the other call's
    staging buffers), each whole at some contents. -/
def restBut0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The scoped rest is the scratch at some contents beside the others. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ restBut0 (F := F) c) := by
  rw [scopedRest0_eq]; unfold restBut0; simp only [scM0, owns_whole]; rfl

section Region0
-- the TensorCore's buffer contents when the region is entered, and the shares of the input arrays
variable (V : (c : Dev nD) → (b : Ref sig .tc) → Buf (Elt F) ((c : Thread nD τ).loc b))
variable (q : Fin cfg0.W → PosShare TreeShare)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- One point's new accumulator from the old one, at the point's blocks. -/
def sstep (c : Dev nD) (t : Fin cfg0.N) (acc : Vec F S1024x1 .f32) : Vec F S1024x1 .f32 :=
  sstepI (grid0.coords t) (iblk0 V c 0 t) (iblk0 V c 1 t) (iblk0 V c 2 t) (iblk0 V c 3 t) acc

theorem sstep_eq (c : Dev nD) (t : Fin cfg0.N) (acc : Vec F S1024x1 .f32) :
    sstep V c t acc = k0_pay2 (iblk0 V c 0 t) (View.ld (iblk0 V c 1 t) (rOff1 (grid0.coords t)))
      (View.ld (iblk0 V c 3 t) (rOff2 (grid0.coords t))) (iblk0 V c 2 t) acc := rfl

/-- What the scratch holds BEFORE point `n` (after point `n - 1`): a point in the first column block starts from
    zeros, any other from what the point before left. (Before the first point the scratch holds anything: the value
    at `0` is a placeholder no one reads.) -/
def sacc (c : Dev nD) : ℕ → Vec F S1024x1 .f32
  | 0 => k0_pay1
  | n + 1 => if hn : n < cfg0.N then sstep V c ⟨n, hn⟩ (if n % 8 = 0 then k0_pay1 else sacc c n) else k0_pay1

theorem sacc_succ (c : Dev nD) (t : Fin cfg0.N) :
    sacc V c (t.val + 1) = sstep V c t (if t.val % 8 = 0 then k0_pay1 else sacc V c t.val) := by
  obtain ⟨n, hn⟩ := t
  show sacc V c (n + 1) = _
  rw [sacc]; exact dif_pos hn

/-- After a point of the first column block: the zeros plus the tile's row sums. -/
theorem sacc_succ_zero (c : Dev nD) (t : Fin cfg0.N) (h : t.val % 8 = 0) :
    sacc V c (t.val + 1) = sstep V c t k0_pay1 := by rw [sacc_succ, if_pos h]

/-- After any other point: what the point before left plus the tile's row sums. -/
theorem sacc_succ_pos (c : Dev nD) (t : Fin cfg0.N) (h : ¬t.val % 8 = 0) :
    sacc V c (t.val + 1) = sstep V c t (sacc V c t.val) := by rw [sacc_succ, if_neg h]

/-! ## The invariant -/

/-- The region invariant before position `n`: before the first point the generator register and the scoped rest, the
    scratch among it at anything; afterwards the scratch at what the point before left, the generator register, and
    the other scoped buffers. -/
def Phi0 (c : Dev nD) : ℕ → sProp 𝕄
  | 0 => iprop((∃ r, prngReg c r) ∗ Pipeline.scopedRest (Ix := Unit) (Name := ℕ) (U := UR sig nD τ) (Lvl := ℕ) (Val := Elt F) spec0 c)
  | n + 1 => iprop(owns (c : Thread nD τ) scM0 fullShare (sacc V c (n + 1)) ∗ (∃ r, prngReg c r) ∗ restBut0 (F := F) c)

theorem Phi0_zero (c : Dev nD) (n : ℕ) (hz : n = 0) :
    Phi0 V c n = iprop((∃ r, prngReg c r) ∗ (∃ d, owns (c : Thread nD τ) scM0 fullShare d) ∗ restBut0 (F := F) c) := by
  subst hz; show iprop((∃ r, prngReg c r) ∗ Pipeline.scopedRest (Ix := Unit) (Name := ℕ) (U := UR sig nD τ) (Lvl := ℕ) (Val := Elt F) spec0 c) = _; rw [scopedRest0_split]

theorem Phi0_pos (c : Dev nD) (n : ℕ) (hz : n ≠ 0) :
    Phi0 V c n = iprop(owns (c : Thread nD τ) scM0 fullShare (sacc V c n) ∗ (∃ r, prngReg c r) ∗ restBut0 (F := F) c) := by
  cases n with
  | zero => exact absurd rfl hz
  | succ n => rfl

/-! ## The pipeline's proof data -/

/-- The proof data of pipeline 0 on core `c`: the arrays as the region finds them; after the body at point `t` each
    input's buffer at its block and the output's at the accumulator after the point (read only where the last
    column block stores it); the invariant `Phi0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => sacc V c (t.val + 1)
  Φ t := Phi0 V c t.val
  q := q
  owed _ := 0

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = iblk0 V c 3 t := by dsimp only [dat0]
theorem after0_4 (c : Dev nD) (t : Fin cfg0.N) : (dat0 V q c).after 4 t = sacc V c (t.val + 1) := by dsimp only [dat0]

/-- Where the output is written back (the last column block) the body leaves in it the accumulator after the point:
    what the point before left plus the tile's row sums. -/
theorem after0_4_flush (c : Dev nD) (t : Fin cfg0.N) (h : t.val % 8 = 7) :
    (dat0 V q c).after 4 t = sstep V c t (sacc V c t.val) := by
  rw [after0_4, sacc_succ_pos V c t (by omega)]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d
theorem before0_3 (c : Dev nD) (t : Fin cfg0.N) (d) : (dat0 V q c).before 3 t d = iblk0 V c 3 t :=
  before0_3_of V (dat0 V q c) (A_eq0 V q c 3) (after0_3 V q c) t d

theorem Phi_castSucc (c : Dev nD) (t : Fin cfg0.N) : (dat0 V q c).Φ t.castSucc = Phi0 V c t.val := by
  dsimp only [dat0]; simp only [Fin.coe_castSucc]

theorem Phi_succ (c : Dev nD) (t : Fin cfg0.N) :
    (dat0 V q c).Φ t.succ = iprop(owns (c : Thread nD τ) scM0 fullShare (sacc V c (t.val + 1)) ∗ (∃ r, prngReg c r) ∗ restBut0 (F := F) c) := rfl

/-! ## The body obligation, at a generic point -/

/-- What the body is called with at point `t` (the library's precondition, the windows one by one), -/
def bodyPre0 (c : Dev nD) (t : Fin cfg0.N) : sProp 𝕄 :=
  iprop((dat0 V q c).Φ t.castSucc ∗ (dat0 V q c).owesAt () t.castSucc
    ∗ (∃ d, owns (c : Thread nD τ) (ms0_0 t) fullShare ((dat0 V q c).before 0 t d))
    ∗ (∃ d, owns (c : Thread nD τ) (ms0_1 t) fullShare ((dat0 V q c).before 1 t d))
    ∗ (∃ d, owns (c : Thread nD τ) (ms0_2 t) fullShare ((dat0 V q c).before 2 t d))
    ∗ (∃ d, owns (c : Thread nD τ) (ms0_3 t) fullShare ((dat0 V q c).before 3 t d))
    ∗ (∃ d, owns (c : Thread nD τ) (ms0_4 t) fullShare ((dat0 V q c).before 4 t d)))

/-- and what it returns. -/
def bodyPost0 (c : Dev nD) (t : Fin cfg0.N) : sProp 𝕄 :=
  iprop((dat0 V q c).Φ t.succ ∗ (dat0 V q c).owesAt () t.succ
    ∗ (dat0 V q c).leavesExact 0 t
    ∗ (dat0 V q c).leavesExact 1 t
    ∗ (dat0 V q c).leavesExact 2 t
    ∗ (dat0 V q c).leavesExact 3 t
    ∗ (dat0 V q c).leavesExact 4 t)

theorem leaves0_0 (c : Dev nD) (t : Fin cfg0.N) : (dat0 V q c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V q c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V q c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V q c).leavesExact 3 t = owns (c : Thread nD τ) (ms0_3 t) fullShare (iblk0 V c 3 t) := by
  unfold Dat.leavesExact; rw [liveAt0_3 t, after0_3]
theorem leaves0_4_live (c : Dev nD) (t : Fin cfg0.N) (h : cond0_1 (grid0.coords t)) :
    (dat0 V q c).leavesExact 4 t = owns (c : Thread nD τ) (ms0_4 t) fullShare (sacc V c (t.val + 1)) := by
  unfold Dat.leavesExact; rw [liveAt0_4 t h, after0_4]

set_option maxHeartbeats 4800000 in
/-- The body at any point: the inputs' memrefs hold their blocks; the closed forms say which case the point is in; the
    invariant hands the body the scratch at what the point before left (at anything before the first point) and takes
    it back at what this point leaves; the core owes nothing throughout. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3]
  rw [show (dat0 V q c).owesAt () t.succ = (dat0 V q c).owesAt () t.castSucc from rfl]
  rw [Phi_succ, Phi_castSucc, leaves0_0, leaves0_1, leaves0_2, leaves0_3]
  have hN : t.val < 64 := lt_of_lt_of_eq t.isLt (show cfg0.N = 64 from N_0)
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V q c) 4 t (idleAt0_4 t hc1) (noFlush0_4 t hc1)]
    rw [sacc_succ_zero V c t h0]; unfold sstep
    by_cases hz : t.val = 0
    · rw [Phi0_zero V c _ hz]
      iintro ⟨⟨Hg, HS, Hr⟩, Ho, ⟨%d0, H0⟩, ⟨%d1, H1⟩, ⟨%d2, H2⟩, ⟨%d3, H3⟩, ⟨%d4, H4⟩⟩
      iapply (run0_A c (grid0.coords t) _ _ _ _ _ _ _ _ _ _ _ _ hc0 hc1 (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg Hr]
      · isplitl [HS]; · iexact HS
        isplitl [Hg]; · iexact Hg
        iexact Hr
      isplitl [Ho]; · iexact Ho
      isplitl [H0]; · iexact H0
      isplitl [H1]; · iexact H1
      isplitl [H2]; · iexact H2
      isplitl [H3]; · iexact H3
      iexists _; iexact H4
    · rw [Phi0_pos V c _ hz]
      iintro ⟨⟨HS, Hg, Hr⟩, Ho, ⟨%d0, H0⟩, ⟨%d1, H1⟩, ⟨%d2, H2⟩, ⟨%d3, H3⟩, ⟨%d4, H4⟩⟩
      iapply (run0_A c (grid0.coords t) _ _ _ _ _ _ _ _ _ _ _ _ hc0 hc1 (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hg Hr]
      · isplitl [HS]; · iexact HS
        isplitl [Hg]; · iexact Hg
        iexact Hr
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond0_0 (grid0.coords t) := fun h => h0 ((hcond0_0 t).mp h)
    rw [Phi0_pos V c _ hz, sacc_succ_pos V c t h0]; unfold sstep
    by_cases h1 : t.val % 8 = 7
    · have hc1 : cond0_1 (grid0.coords t) := (hcond0_1 t).mpr h1
      rw [leaves0_4_live V q c t hc1, sacc_succ_pos V c t h0]; unfold sstep
      iintro ⟨⟨HS, Hg, Hr⟩, Ho, ⟨%d0, H0⟩, ⟨%d1, H1⟩, ⟨%d2, H2⟩, ⟨%d3, H3⟩, ⟨%d4, H4⟩⟩
      iapply (run0_C c (grid0.coords t) _ _ _ _ _ _ _ _ _ _ _ _ hc0 hc1 (iblk0 V c 0 t) (iblk0 V c 1 t) (iblk0 V c 2 t) (iblk0 V c 3 t) (sacc V c t.val) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg Hr]
      · isplitl [HS]; · iexact HS
        isplitl [Hg]; · iexact Hg
        iexact Hr
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dat0 V q c) 4 t (idleAt0_4 t hc1) (noFlush0_4 t hc1)]
      iintro ⟨⟨HS, Hg, Hr⟩, Ho, ⟨%d0, H0⟩, ⟨%d1, H1⟩, ⟨%d2, H2⟩, ⟨%d3, H3⟩, ⟨%d4, H4⟩⟩
      iapply (run0_B c (grid0.coords t) _ _ _ _ _ _ _ _ _ _ _ _ hc0 hc1 (iblk0 V c 0 t) (iblk0 V c 1 t) (iblk0 V c 2 t) (iblk0 V c 3 t) _ (sacc V c t.val) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg Hr]
      · isplitl [HS]; · iexact HS
        isplitl [Hg]; · iexact Hg
        iexact Hr
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V q c) (defs₀ (F := F)) Variants.none () Set.univ := fun t => by
  rw [bigSep_W0, bigSep_W0]
  exact sound_body0 V q c t

/-! ## Into and out of the invariant -/

/-- What the region is entered with (the generator register and the scoped rest) is the invariant before the first point. -/
theorem hin0 (c : Dev nD) :
    iprop((∃ r, prngReg c r) ∗ Pipeline.scopedRest (Ix := Unit) (Name := ℕ) (U := UR sig nD τ) (Lvl := ℕ) (Val := Elt F) spec0 c)
      ⊢ (dat0 V q c).Φ 0 := by
  rw [show (dat0 V q c).Φ 0 = Phi0 V c 0 from rfl]
  exact Idealize.SL.BI.Entails.refl _

/-- After the last point the invariant gives them back: the scratch's named contents are forgotten. -/
theorem hout0 (c : Dev nD) :
    (dat0 V q c).Φ (Fin.last cfg0.N)
      ⊢ iprop((∃ r, prngReg c r) ∗ Pipeline.scopedRest (Ix := Unit) (Name := ℕ) (U := UR sig nD τ) (Lvl := ℕ) (Val := Elt F) spec0 c) := by
  rw [show (dat0 V q c).Φ (Fin.last cfg0.N) = Phi0 V c (Fin.last cfg0.N).val from rfl,
    Phi0_pos V c _ (by rw [Fin.val_last]; have : cfg0.N = 64 := N_0; omega), scopedRest0_split]
  iintro ⟨HS, Hg, Hr⟩
  isplitl [Hg]; · iexact Hg
  isplitl [HS]; · iexists _; iexact HS
  iexact Hr

end Region0

end Cert.Kernel.Hand
end
-- ==== Proof.KNormBody.lean ====
import proofs.«143705_j41875931136544_2_alg».proof.Proof.Gen.Kernel.Launch
import proofs.«143705_j41875931136544_2_alg».proof.Proof.Gen.Kernel.Skeleton
import proofs.«143705_j41875931136544_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # The second kernel's body, at any entry contents

The normalising kernel runs on an 8 × 8 grid over seven windows: six inputs and the 1024 × 1024 output
block. At each point it reads a row block of the points (window 0), a column block of the same points
(cut out of the whole array, window 1, at a row offset the point's second coordinate fixes), the row
block's squared norms and inverse root degrees (windows 2, 4), and the column block's (cut out of the
whole row vectors, windows 3, 5, at a column offset the same coordinate fixes), and stores
`exp(-γ · max(‖x‖² + ‖y‖² − 2 x·y, 0)) · d⁻¹ᐟ²(x) · d⁻¹ᐟ²(y)` over the whole output block.

This module states, for ANY contents `V` of the core's buffers when the pipeline is entered, what each
window's staging buffer holds after the body at each point, and proves the body's triple against it. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pipeline finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the window is not fetched its block
    index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where the window is not fetched its block
    index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where the window is not fetched its block
    index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: where the window is not fetched its block
    index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: where the window is not fetched its block
    index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: where the window is not fetched its block
    index has not moved since the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole row block of points; -/
abbrev rX : Rect S1024x128 := Rect.unit (s := S1024x128) ![0, 0] S1024x128.size inb_S1024x128_S1024x128_0_0
/-- the column block of points, cut out of the whole array at the point's row offset; -/
abbrev rY (i : grid1.Coords) : Rect S8192x128 := Rect.unit (s := S8192x128) (k1_off1 i) S1024x128.size (k1_off1_inb i)
/-- a whole per-row column vector; -/
abbrev rR : Rect S1024x1 := Rect.unit (s := S1024x1) ![0, 0] S1024x1.size inb_S1024x1_S1024x1_0_0
/-- the column block's part of a whole row vector, at the point's column offset; -/
abbrev rC (i : grid1.Coords) : Rect S1x8192 := Rect.unit (s := S1x8192) (k1_off2 i) S1x1024.size (k1_off2_inb i)
/-- the whole output block. -/
abbrev rO : Rect S1024x1024 := Rect.unit (s := S1024x1024) ![0, 0] S1024x1024.size inb_S1024x1024_S1024x1024_0_0

/-! ## What the body leaves in the output window's buffer -/

/-- Window 6's staging buffer after the body at the point of coordinates `i`, from the input windows' staging
    contents: its one store, over the whole block, of the kernel's value on what the six loads read. -/
def out1_6 (i : grid1.Coords) (x0 : Vec F S1024x128 .f32) (x1 : Vec F S8192x128 .f32) (x2 : Vec F S1024x1 .f32)
    (x3 : Vec F S1x8192 .f32) (x4 : Vec F S1024x1 .f32) (x5 : Vec F S1x8192 .f32) : Vec F S1024x1024 .f32 :=
  View.canon [⟨rO, k1_pay1 (View.ld x0 rX) (View.ld x1 (rY i)) (View.ld x3 (rC i)) (View.ld x5 (rC i)) (View.ld x2 rR) (View.ld x4 rR)⟩]

/-- The one store's rectangle is the whole block, so every index is in it. -/
theorem cover1_6 (p0 : Vec F S1024x1024 .f32) (y : S1024x1024.Idx) :
    ∃ pc ∈ ([⟨rO, p0⟩] : List (View.Piece (Elt F) S1024x1024 .f32)), y ∈ pc.1.set :=
  ⟨_, List.mem_singleton_self _, View.mem_set_unit_zero (by funext a; fin_cases a <;> rfl) inb_S1024x1024_S1024x1024_0_0 y⟩

/-! ## The body's triple -/

set_option maxHeartbeats 2000000 in
/-- The kernel body at the point of coordinates `i`, on whole staging memrefs, the inputs' at read contents `xW` and
    the output's at anything, runs to the continuation holding the inputs' as they were and the output's at
    `out1_6 i` of the inputs': the printed function is its sequence of six loads, a load of the output buffer and one
    store over named values, which is run operation by operation. -/
theorem sound_kernel1 (c : Dev nD) (E : Set ℕ) (i : grid1.Coords) (arg0 : Memref sig .tc .vmem S1024x128 .f32) (harg0 : arg0.IsWhole) (arg1 : Memref sig .tc .vmem S8192x128 .f32) (harg1 : arg1.IsWhole) (arg2 : Memref sig .tc .vmem S1024x1 .f32) (harg2 : arg2.IsWhole) (arg3 : Memref sig .tc .vmem S1x8192 .f32) (harg3 : arg3.IsWhole) (arg4 : Memref sig .tc .vmem S1024x1 .f32) (harg4 : arg4.IsWhole) (arg5 : Memref sig .tc .vmem S1x8192 .f32) (harg5 : arg5.IsWhole) (arg6 : Memref sig .tc .vmem S1024x1024 .f32) (harg6 : arg6.IsWhole)
    (x0 : Vec F S1024x128 .f32) (x1 : Vec F S8192x128 .f32) (x2 : Vec F S1024x1 .f32) (x3 : Vec F S1x8192 .f32) (x4 : Vec F S1024x1 .f32) (x5 : Vec F S1x8192 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 i x0 x1 x2 x3 x4 x5)) -∗ K ⟨⟩))
      ⊢ wp frame (wpE (defs₀ (F := F)) Variants.none c none) E (cc1__normalize_kernel i arg0 harg0 arg1 harg1 arg2 harg2 arg3 harg3 arg4 harg4 arg5 harg5 arg6 harg6) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the pipeline on core `c`: the arrays as the pipeline finds them (`V`); after the body at
    point `t` each input's buffer at its block and the output's at `out1_6` of the input blocks at the point's
    coordinates; as invariant the scoped rest and the generator register, untouched; nothing owed; the arrays'
    shares a parameter (two windows read one array, so it is not held whole per window). -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t) (iblk1 V c 4 t) (iblk1 V c 5 t)
  Φ _ := Pipeline.ΦA spec1 c
  q := q
  owed _ := 0

variable (q : Fin cfg1.W → PosShare TreeShare)

/-- The proof data's arrays are the entry contents. -/
theorem A_eq1 (c : Dev nD) (w : Fin cfg1.W) : (dat1 V q c).A w = V c (Pipeline.arrRef spec1 w) := by
  dsimp only [dat1]

/-- What the body leaves, window by window. -/
theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t = iblk1 V c 4 t := by dsimp only [dat1]
theorem after1_5 (c : Dev nD) (t : Fin cfg1.N) : (dat1 V q c).after 5 t = iblk1 V c 5 t := by dsimp only [dat1]
theorem after1_6 (c : Dev nD) (t : Fin cfg1.N) :
    (dat1 V q c).after 6 t = out1_6 (grid1.coords t) (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d
theorem before1_4 (c : Dev nD) (t : Fin cfg1.N) (d) : (dat1 V q c).before 4 t d = iblk1 V c 4 t :=
  before1_4_of V (dat1 V q c) (A_eq1 V q c 4) (after1_4 V q c) t d
theorem before1_5 (c : Dev nD) (t : Fin cfg1.N) (d) : (dat1 V q c).before 5 t d = iblk1 V c 5 t :=
  before1_5_of V (dat1 V q c) (A_eq1 V q c 5) (after1_5 V q c) t d

/-! ## The body obligation, at a generic point -/

/-- What the body is called with at point `t`, the windows one by one, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d))
    ∗ (∃ d, owns (c : Thread nD τ) (st1_5 t) fullShare ((dat1 V q c).before 5 t d))
    ∗ (∃ d, owns (c : Thread nD τ) (st1_6 t) fullShare ((dat1 V q c).before 6 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t)
    ∗ owns (c : Thread nD τ) (st1_5 t) fullShare ((dat1 V q c).after 5 t)
    ∗ owns (c : Thread nD τ) (st1_6 t) fullShare ((dat1 V q c).after 6 t))

/-- The body at any point: the inputs' memrefs hold their blocks, so the body's triple applies at the point's
    coordinates; the invariant and what the core owes pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5]
  rw [show (dat1 V q c).Φ t.succ = (dat1 V q c).Φ t.castSucc from rfl,
    show (dat1 V q c).owesAt () t.succ = (dat1 V q c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V q c) (defs₀ (F := F)) Variants.none () Set.univ := fun t => by
  rw [bigSep_W1, bigSep_W1]
  exact sound_body1 V q c t

end Cert.Kernel.Hand

end
-- ==== Proof.KSharedArrays.lean ====
/-
  Two windows of each kernel region read ONE array (the input `x`: a row tile of it, and all of it).
  A region is entered with every buffer held whole; the pipeline wants each window's array at that
  window's share. So the one buffer behind the two windows is split into two half shares on the way
  in, and the halves are joined again on the way out; the other arrays go in and out whole. This
  module states that for both regions: the distinct buffers behind the windows' arrays, at the full
  share, ARE the windows' arrays at the shares below, in both directions.
-/
import proofs.«143705_j41875931136544_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two halves of the full share. -/
abbrev qL : PosShare TreeShare := fullShare.left
abbrev qR : PosShare TreeShare := fullShare.right
theorem full_halves : fullShare ∈ PCS.op qL qR := PosShare.mem_left_op_right fullShare

/-- Region 0's shares: the row tile of `x` and the whole of `x` a half each, the rest whole. -/
def q0 : Fin cfg0.W → PosShare TreeShare := fun | ⟨0, _⟩ => qL | ⟨1, _⟩ => qR | _ => fullShare
/-- Region 1's shares, likewise. -/
def q1 : Fin cfg1.W → PosShare TreeShare := fun | ⟨0, _⟩ => qL | ⟨1, _⟩ => qR | _ => fullShare

/-- One whole buffer at the full share is two holders of it at the half shares, at the same contents. -/
theorem split_halves (c : Dev nD) (b : Ref sig .tc) (f : Buf (Elt F) ((c : Thread nD τ).loc b)) :
    ((((c : Thread nD τ).loc b) ↦{fullShare} f) : sProp 𝕄) ⊣⊢ iprop((((c : Thread nD τ).loc b) ↦{qL} f) ∗ (((c : Thread nD τ).loc b) ↦{qR} f)) :=
  pointsTo_share full_halves

section R0
variable {c : Dev nD} (d : Dat τ (Elt F) Unit ℕ (UR sig nD τ) ℕ cfg0 c) (hq : d.q = q0)
include hq

theorem share0_0 : d.share 0 = qL := by unfold Dat.share; rw [hq]; rfl
theorem share0_1 : d.share 1 = qR := by unfold Dat.share; rw [hq]; rfl
theorem share0_2 : d.share 2 = fullShare := by unfold Dat.share; rw [hq]; rfl
theorem share0_3 : d.share 3 = fullShare := by unfold Dat.share; rw [hq]; rfl
omit hq in
theorem share0_4 : d.share 4 = fullShare := by unfold Dat.share; rfl

/-- Region 0's arrays at contents `G`, window by window, each a whole buffer at its share. -/
theorem arrays0_eq (G : (w : Fin cfg0.W) → Buf (Elt F) ((cfg0.win w).arr.view.loc (c : Thread nD τ))) :
    (d.arrays G : sProp 𝕄) = iprop((((c : Thread nD τ).loc main_arg0) ↦{qL} G 0) ∗ (((c : Thread nD τ).loc main_arg0) ↦{qR} G 1)
      ∗ (((c : Thread nD τ).loc main_v4) ↦{fullShare} G 2) ∗ (((c : Thread nD τ).loc main_v5) ↦{fullShare} G 3)
      ∗ (((c : Thread nD τ).loc main_v6) ↦{fullShare} G 4)) := by
  unfold Dat.arrays
  rw [bigSep_W0, (arr_whole0 0).set_eq_univ, (arr_whole0 2).set_eq_univ, (arr_whole0 3).set_eq_univ,
    (arr_whole0 4).set_eq_univ, share0_0 d hq, share0_1 d hq, share0_2 d hq, share0_3 d hq, share0_4 d]

omit hq in
/-- The distinct buffers behind region 0's arrays, one by one. -/
theorem arrBufs0_eq (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v4) ↦{fullShare} V main_v4)
        ∗ (((c : Thread nD τ).loc main_v5) ↦{fullShare} V main_v5) ∗ (((c : Thread nD τ).loc main_v6) ↦{fullShare} V main_v6)) := by
  unfold Pipeline.arrBufs
  exact bigSep_eq_bigSepL_of_eq [main_arg0, main_v4, main_v5, main_v6] (by decide) (by decide) _

/-- ENTRY: the buffers behind the arrays, whole at `V`, are the arrays at any contents `G` read off `V`. -/
theorem arrays0_of_bufs (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs (Ix := Unit) (Name := ℕ) (U := UR sig nD τ) (Lvl := ℕ) spec0 c V : sProp 𝕄) ⊢ d.arrays G := by
  rw [arrBufs0_eq, arrays0_eq d hq, hG 0, hG 1, hG 2, hG 3, hG 4]
  iintro ⟨Hx, H4, H5, H6⟩
  ihave Hx' := (split_halves c main_arg0 _).1 $$ Hx
  icases Hx' with ⟨Hl, Hr⟩
  isplitl [Hl]; · iexact Hl
  isplitl [Hr]; · iexact Hr
  isplitl [H4]; · iexact H4
  isplitl [H5]; · iexact H5
  iexact H6

/-- EXIT: the arrays at contents `G`, the two holders of `x` at one contents, are the buffers behind them whole at any `V'`
    that has each array at its `G`. -/
theorem bufs_of_arrays0 (V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w)) :
    (d.arrays G : sProp 𝕄) ⊢ Pipeline.arrBufs (Ix := Unit) (Name := ℕ) (U := UR sig nD τ) (Lvl := ℕ) spec0 c V' := by
  rw [arrBufs0_eq, arrays0_eq d hq, hG 0, hG 1, hG 2, hG 3, hG 4]
  iintro ⟨Hl, Hr, H4, H5, H6⟩
  isplitl [Hl Hr]
  · iapply (split_halves c main_arg0 _).2
    isplitl [Hl]; · iexact Hl
    iexact Hr
  isplitl [H4]; · iexact H4
  isplitl [H5]; · iexact H5
  iexact H6
end R0

section R1
variable {c : Dev nD} (d : Dat τ (Elt F) Unit ℕ (UR sig nD τ) ℕ cfg1 c) (hq : d.q = q1)
include hq

theorem share1_0 : d.share 0 = qL := by unfold Dat.share; rw [hq]; rfl
theorem share1_1 : d.share 1 = qR := by unfold Dat.share; rw [hq]; rfl
theorem share1_2 : d.share 2 = fullShare := by unfold Dat.share; rw [hq]; rfl
theorem share1_3 : d.share 3 = fullShare := by unfold Dat.share; rw [hq]; rfl
theorem share1_4 : d.share 4 = fullShare := by unfold Dat.share; rw [hq]; rfl
theorem share1_5 : d.share 5 = fullShare := by unfold Dat.share; rw [hq]; rfl
omit hq in
theorem share1_6 : d.share 6 = fullShare := by unfold Dat.share; rfl

/-- Region 1's arrays at contents `G`, window by window, each a whole buffer at its share. -/
theorem arrays1_eq (G : (w : Fin cfg1.W) → Buf (Elt F) ((cfg1.win w).arr.view.loc (c : Thread nD τ))) :
    (d.arrays G : sProp 𝕄) = iprop((((c : Thread nD τ).loc main_arg0) ↦{qL} G 0) ∗ (((c : Thread nD τ).loc main_arg0) ↦{qR} G 1)
      ∗ (((c : Thread nD τ).loc main_v4) ↦{fullShare} G 2) ∗ (((c : Thread nD τ).loc main_v5) ↦{fullShare} G 3)
      ∗ (((c : Thread nD τ).loc main_v9) ↦{fullShare} G 4) ∗ (((c : Thread nD τ).loc main_v10) ↦{fullShare} G 5)
      ∗ (((c : Thread nD τ).loc main_v11) ↦{fullShare} G 6)) := by
  unfold Dat.arrays
  rw [bigSep_W1, (arr_whole1 0).set_eq_univ, (arr_whole1 2).set_eq_univ, (arr_whole1 3).set_eq_univ,
    (arr_whole1 4).set_eq_univ, (arr_whole1 5).set_eq_univ, (arr_whole1 6).set_eq_univ,
    share1_0 d hq, share1_1 d hq, share1_2 d hq, share1_3 d hq, share1_4 d hq, share1_5 d hq, share1_6 d]

omit hq in
/-- The distinct buffers behind region 1's arrays, one by one. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v4) ↦{fullShare} V main_v4)
        ∗ (((c : Thread nD τ).loc main_v5) ↦{fullShare} V main_v5) ∗ (((c : Thread nD τ).loc main_v9) ↦{fullShare} V main_v9)
        ∗ (((c : Thread nD τ).loc main_v10) ↦{fullShare} V main_v10) ∗ (((c : Thread nD τ).loc main_v11) ↦{fullShare} V main_v11)) := by
  unfold Pipeline.arrBufs
  exact bigSep_eq_bigSepL_of_eq [main_arg0, main_v4, main_v5, main_v9, main_v10, main_v11] (by decide) (by decide) _

/-- ENTRY: the buffers behind the arrays, whole at `V`, are the arrays at any contents `G` read off `V`. -/
theorem arrays1_of_bufs (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs (Ix := Unit) (Name := ℕ) (U := UR sig nD τ) (Lvl := ℕ) spec1 c V : sProp 𝕄) ⊢ d.arrays G := by
  rw [arrBufs1_eq, arrays1_eq d hq, hG 0, hG 1, hG 2, hG 3, hG 4, hG 5, hG 6]
  iintro ⟨Hx, H4, H5, H9, H10, H11⟩
  ihave Hx' := (split_halves c main_arg0 _).1 $$ Hx
  icases Hx' with ⟨Hl, Hr⟩
  isplitl [Hl]; · iexact Hl
  isplitl [Hr]; · iexact Hr
  isplitl [H4]; · iexact H4
  isplitl [H5]; · iexact H5
  isplitl [H9]; · iexact H9
  isplitl [H10]; · iexact H10
  iexact H11

/-- EXIT: the arrays at contents `G` are the buffers behind them whole at any `V'` that has each array at its `G`. -/
theorem bufs_of_arrays1 (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (d.arrays G : sProp 𝕄) ⊢ Pipeline.arrBufs (Ix := Unit) (Name := ℕ) (U := UR sig nD τ) (Lvl := ℕ) spec1 c V' := by
  rw [arrBufs1_eq, arrays1_eq d hq, hG 0, hG 1, hG 2, hG 3, hG 4, hG 5, hG 6]
  iintro ⟨Hl, Hr, H4, H5, H9, H10, H11⟩
  isplitl [Hl Hr]
  · iapply (split_halves c main_arg0 _).2
    isplitl [Hl]; · iexact Hl
    iexact Hr
  isplitl [H4]; · iexact H4
  isplitl [H5]; · iexact H5
  isplitl [H9]; · iexact H9
  isplitl [H10]; · iexact H10
  iexact H11
end R1

/-! ## A core's unscoped buffers in and out of a region -/

section Bufs
variable {c : Dev nD}

/-- ENTRY of region 0: the core's unscoped buffers at `V` are the region's arrays at the entry contents and the rest. -/
theorem entry0 (d : Dat τ (Elt F) Unit ℕ (UR sig nD τ) ℕ cfg0 c) (hq : d.q = q0)
    (V : (b : Ref sig .tc) → Buf (Elt F) ((c : Thread nD τ).loc b)) (hA : ∀ w, d.A w = V (Pipeline.arrRef spec0 w)) :
    (unscopedBufs c V : sProp 𝕄) ⊢ iprop(d.arrays (d.arrAt · 0) ∗ Pipeline.unscopedRest spec0 c V) := by
  rw [Pipeline.unscopedBufs_split₀ cfgs 0 winFacts₀0.arr_unscoped c V]
  exact sep_mono (arrays0_of_bufs d hq V _ fun w => (show d.arrAt w 0 = d.A w from rfl).trans (hA w)) .rfl

/-- EXIT of region 0: its arrays at contents `G` and the rest at `V` are the core's unscoped buffers at any `V'` that
    has the arrays at `G` and agrees with `V` off them. -/
theorem exit0 (d : Dat τ (Elt F) Unit ℕ (UR sig nD τ) ℕ cfg0 c) (hq : d.q = q0)
    (V V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w))
    (hrest : ∀ b, b ∉ Finset.univ.image (Pipeline.arrRef spec0) → V' b = V b) :
    iprop(d.arrays G ∗ Pipeline.unscopedRest spec0 c V) ⊢ (unscopedBufs c V' : sProp 𝕄) := by
  rw [Pipeline.unscopedBufs_split₀ cfgs 0 winFacts₀0.arr_unscoped c V']
  refine sep_mono (bufs_of_arrays0 d hq V' G hG) (Entails.of_eq ?_)
  unfold Pipeline.unscopedRest
  exact bigSep_congr fun b hb => by rw [hrest b (Finset.mem_sdiff.mp hb).2]

/-- ENTRY of region 1. -/
theorem entry1 (d : Dat τ (Elt F) Unit ℕ (UR sig nD τ) ℕ cfg1 c) (hq : d.q = q1)
    (V : (b : Ref sig .tc) → Buf (Elt F) ((c : Thread nD τ).loc b)) (hA : ∀ w, d.A w = V (Pipeline.arrRef spec1 w)) :
    (unscopedBufs c V : sProp 𝕄) ⊢ iprop(d.arrays (d.arrAt · 0) ∗ Pipeline.unscopedRest spec1 c V) := by
  rw [Pipeline.unscopedBufs_split₀ cfgs 1 winFacts₀1.arr_unscoped c V]
  exact sep_mono (arrays1_of_bufs d hq V _ fun w => (show d.arrAt w 0 = d.A w from rfl).trans (hA w)) .rfl

/-- EXIT of region 1. -/
theorem exit1 (d : Dat τ (Elt F) Unit ℕ (UR sig nD τ) ℕ cfg1 c) (hq : d.q = q1)
    (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(d.arrays G ∗ Pipeline.unscopedRest spec1 c V) ⊢ (unscopedBufs c V' : sProp 𝕄) := by
  rw [Pipeline.unscopedBufs_split₀ cfgs 1 winFacts₀1.arr_unscoped c V']
  refine sep_mono (bufs_of_arrays1 d hq V' G hG) (Entails.of_eq ?_)
  unfold Pipeline.unscopedRest
  exact bigSep_congr fun b hb => by rw [hrest b (Finset.mem_sdiff.mp hb).2]
end Bufs

end Cert.Kernel.Hand

end
-- ==== Proof.KRun.lean ====
/-
  The whole program as four segments — the host operations that form the rows' squared norms, the
  degree kernel, the host operations that turn degrees into inverse square roots, the normalising
  kernel — and its run: from any launch memory every weakly fair execution terminates, and the final
  memory holds, at every buffer no kernel scopes, the contents obtained by folding the segments over the
  launch memory. Each host stretch applies its operations; each kernel region changes exactly its one
  output array, to what its pipeline's write-backs leave.

  Both kernels read the input through two windows (a row tile, and the whole array), so on the way into a
  region the input's buffer is split into two half shares and on the way out joined again.
-/
import proofs.«143705_j41875931136544_2_alg».proof.Proof.Gen.Kernel.Launch
import proofs.«143705_j41875931136544_2_alg».proof.Proof.Gen.Kernel.Points
import proofs.«143705_j41875931136544_2_alg».proof.Proof.Gen.Kernel.Regions
import proofs.«143705_j41875931136544_2_alg».proof.Proof.KNormBody
import proofs.«143705_j41875931136544_2_alg».proof.Proof.KSharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The degree kernel's body half, as the run needs it: proof data at any entry contents `V` whose arrays are `V`'s,
    at the shares `q0`, owing nothing; the body obligation; the invariant entered from the generator register and the
    scoped buffers no window stages (the scratch accumulator among them) and giving them back. -/
structure Body0 where
  dat : ((c : Dev nD) → (b : Ref sig .tc) → Buf (Elt F) ((c : Thread nD τ).loc b)) → (c : Dev nD) → Dat τ (Elt F) Unit ℕ (UR sig nD τ) ℕ cfg0 c
  hA : ∀ V c w, (dat V c).A w = V c (Pipeline.arrRef spec0 w)
  hq : ∀ V c, (dat V c).q = q0
  howed : ∀ V c t, (dat V c).owed t = 0
  hrec : ∀ V c t, (dat V c).recorded t = Set.univ
  hbody : ∀ V c, BodyObligation (dat V c) (defs₀ (F := F)) Variants.none () Set.univ
  hin : ∀ V c, (iprop((∃ r, prngReg c r) ∗ Pipeline.scopedRest (Ix := Unit) (Name := ℕ) (U := UR sig nD τ) (Lvl := ℕ) (Val := Elt F) spec0 c) : sProp 𝕄) ⊢ (dat V c).Φ 0
  hout : ∀ V c, (dat V c).Φ (Fin.last cfg0.N) ⊢ (iprop((∃ r, prngReg c r) ∗ Pipeline.scopedRest (Ix := Unit) (Name := ℕ) (U := UR sig nD τ) (Lvl := ℕ) (Val := Elt F) spec0 c) : sProp 𝕄)

variable (m : (ℓ : Loc nD τ sig) → Buf (Elt F) ℓ) (ρ : Dev nD → PrngReg) (B0 : Body0 (F := F))

/-! ## The buffer contents at each segment boundary -/

/-- Core `c`'s buffers at launch. -/
abbrev W0 : Dev nD → Valuation τ sig (Elt F) := fun c b => m (c, b)
/-- After the first host stretch (the degree kernel's entry). -/
abbrev W1 : Dev nD → Valuation τ sig (Elt F) := fun c => StableHlo.after hostOps0 (W0 m c)
/-- The same read at the TensorCore's references. -/
abbrev T1 : (c : Dev nD) → (b : Ref sig .tc) → Buf (Elt F) ((c : Thread nD τ).loc b) := fun c b => W1 m c b
/-- The degrees' array as the degree kernel's write-backs leave it. -/
def X0 (c : Dev nD) : Buf (Elt F) ((c : Thread nD τ).loc main_v6) := (B0.dat (T1 m) c).arrAt 4 cfg0.N
/-- After the degree kernel: the degrees' array changed, nothing else. -/
def W2 (c : Dev nD) : Valuation τ sig (Elt F) := Function.update (W1 m c) main_v6 (X0 m B0 c)
abbrev T2 : (c : Dev nD) → (b : Ref sig .tc) → Buf (Elt F) ((c : Thread nD τ).loc b) := fun c b => W2 m B0 c b
/-- After the second host stretch (the normalising kernel's entry). -/
abbrev W3 : Dev nD → Valuation τ sig (Elt F) := fun c => StableHlo.after hostOps1 (W2 m B0 c)
abbrev T3 : (c : Dev nD) → (b : Ref sig .tc) → Buf (Elt F) ((c : Thread nD τ).loc b) := fun c b => W3 m B0 c b
/-- The result array as the normalising kernel's write-backs leave it. -/
def X1 (c : Dev nD) : Buf (Elt F) ((c : Thread nD τ).loc main_v11) := (dat1 (T3 m B0) q1 c).arrAt 6 cfg1.N
/-- After the normalising kernel: the result array changed, nothing else. -/
def W4 (c : Dev nD) : Valuation τ sig (Elt F) := Function.update (W3 m B0 c) main_v11 (X1 m B0 c)
abbrev T4 : (c : Dev nD) → (b : Ref sig .tc) → Buf (Elt F) ((c : Thread nD τ).loc b) := fun c b => W4 m B0 c b

theorem W2_v6 (c : Dev nD) : W2 m B0 c main_v6 = X0 m B0 c := by unfold W2; exact Function.update_self ..
theorem W2_of_ne (c : Dev nD) (b : Ref sig .tc) (h : b ≠ main_v6) : W2 m B0 c b = W1 m c b := by
  unfold W2; exact Function.update_of_ne (StableHlo.devRef_ne_of_ne h) ..
theorem W4_v11 (c : Dev nD) : W4 m B0 c main_v11 = X1 m B0 c := by unfold W4; exact Function.update_self ..
theorem W4_of_ne (c : Dev nD) (b : Ref sig .tc) (h : b ≠ main_v11) : W4 m B0 c b = W3 m B0 c b := by
  unfold W4; exact Function.update_of_ne (StableHlo.devRef_ne_of_ne h) ..

/-- At the degree kernel's exit each of its arrays holds what the pipeline leaves: the inputs as entered, the degrees'
    array at its write-backs. -/
theorem hF0 (c : Dev nD) (w : Fin cfg0.W) : (B0.dat (T1 m) c).arrAt w cfg0.N = T2 m B0 c (Pipeline.arrRef spec0 w) := by
  fin_cases w
  · exact (((B0.dat (T1 m) c).arrAt_in 0 rfl _).trans (B0.hA (T1 m) c 0)).trans (W2_of_ne m B0 c main_arg0 (by decide)).symm
  · exact (((B0.dat (T1 m) c).arrAt_in 1 rfl _).trans (B0.hA (T1 m) c 1)).trans (W2_of_ne m B0 c main_arg0 (by decide)).symm
  · exact (((B0.dat (T1 m) c).arrAt_in 2 rfl _).trans (B0.hA (T1 m) c 2)).trans (W2_of_ne m B0 c main_v4 (by decide)).symm
  · exact (((B0.dat (T1 m) c).arrAt_in 3 rfl _).trans (B0.hA (T1 m) c 3)).trans (W2_of_ne m B0 c main_v5 (by decide)).symm
  · exact (W2_v6 m B0 c).symm
theorem hrest0 (c : Dev nD) : ∀ b, b ∉ Finset.univ.image (Pipeline.arrRef spec0) → T2 m B0 c b = T1 m c b :=
  fun b hb => W2_of_ne m B0 c b fun h => hb (h ▸ Finset.mem_image.mpr ⟨4, Finset.mem_univ _, rfl⟩)

theorem hF1 (c : Dev nD) (w : Fin cfg1.W) : (dat1 (T3 m B0) q1 c).arrAt w cfg1.N = T4 m B0 c (Pipeline.arrRef spec1 w) := by
  fin_cases w
  · exact (((dat1 (T3 m B0) q1 c).arrAt_in 0 rfl _).trans (A_eq1 (T3 m B0) q1 c 0)).trans (W4_of_ne m B0 c main_arg0 (by decide)).symm
  · exact (((dat1 (T3 m B0) q1 c).arrAt_in 1 rfl _).trans (A_eq1 (T3 m B0) q1 c 1)).trans (W4_of_ne m B0 c main_arg0 (by decide)).symm
  · exact (((dat1 (T3 m B0) q1 c).arrAt_in 2 rfl _).trans (A_eq1 (T3 m B0) q1 c 2)).trans (W4_of_ne m B0 c main_v4 (by decide)).symm
  · exact (((dat1 (T3 m B0) q1 c).arrAt_in 3 rfl _).trans (A_eq1 (T3 m B0) q1 c 3)).trans (W4_of_ne m B0 c main_v5 (by decide)).symm
  · exact (((dat1 (T3 m B0) q1 c).arrAt_in 4 rfl _).trans (A_eq1 (T3 m B0) q1 c 4)).trans (W4_of_ne m B0 c main_v9 (by decide)).symm
  · exact (((dat1 (T3 m B0) q1 c).arrAt_in 5 rfl _).trans (A_eq1 (T3 m B0) q1 c 5)).trans (W4_of_ne m B0 c main_v10 (by decide)).symm
  · exact (W4_v11 m B0 c).symm
theorem hrest1 (c : Dev nD) : ∀ b, b ∉ Finset.univ.image (Pipeline.arrRef spec1) → T4 m B0 c b = T3 m B0 c b :=
  fun b hb => W4_of_ne m B0 c b fun h => hb (h ▸ Finset.mem_image.mpr ⟨6, Finset.mem_univ _, rfl⟩)

/-- The input array reaches the end as launched: no host operation writes it and no kernel's output is it. -/
theorem W4_main_arg0 (c : Dev nD) : W4 m B0 c main_arg0 = m ((c : Thread nD τ).loc main_arg0) :=
  calc W4 m B0 c main_arg0
    _ = W3 m B0 c main_arg0 := W4_of_ne m B0 c main_arg0 (by decide)
    _ = W2 m B0 c main_arg0 := StableHlo.after_of_writes_sub hostOps1 _ hostOps1_writes (by decide)
    _ = W1 m c main_arg0 := W2_of_ne m B0 c main_arg0 (by decide)
    _ = W0 m c main_arg0 := StableHlo.after_of_writes_sub hostOps0 _ hostOps0_writes (by decide)
    _ = m ((c : Thread nD τ).loc main_arg0) := rfl

/-! ## The proof data family and the thread state -/

/-- The prefetched tables' admissible contents: no pipeline has a table. -/
abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => B0.dat (T1 m) c
  | ⟨1, _⟩ => fun c => dat1 (T3 m B0) q1 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tₙ (c : Dev nD) : sProp 𝕄 := iprop(StableHlo.held (c : Thread nD τ) (Pipeline.ucRefs τ sig) (W4 m B0 c) ∗ ∃ r, prngReg c r)

/-! ## The regions as segments -/

set_option backward.isDefEq.respectTransparency.types false in
/-- The degree kernel over the thread state: entered from every unscoped buffer at `W1`, left at `W2`. Its arrays are
    split out of the unscoped buffers — the input's buffer into two halves — and joined back at the exit contents; the
    generator register and the scoped rest go into the body's invariant and come back; nothing is owed. -/
def reg0 : Pipeline.RegionSeg (pcfgs (F := F)) admH (pdats m B0) () defs₀ 𝒱₀ L lv 0 where
  win := winFacts₀0
  block_pos := block_pos0
  stage_whole := stage_whole0
  K := PEmpty
  osem k := k.elim
  ho := Pipeline.OwnSemFacts.none _
  hbody c := (B0.hbody (T1 m) c).loose
  hwaits := Pipeline.hwaits_of_owed_zero _ _ _ _ L lv 0 fun c t => B0.howed (T1 m) c t
  pre c := iprop(StableHlo.held (c : Thread nD τ) (Pipeline.ucRefs τ sig) (W1 m c) ∗ R c)
  post c := iprop(StableHlo.held (c : Thread nD τ) (Pipeline.ucRefs τ sig) (W2 m B0 c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := entry0 (c := c) (pdats m B0 0 c) (B0.hq (T1 m) c) (T1 m c) (B0.hA (T1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats m B0 0 c).recorded 0 = Set.univ from B0.hrec (T1 m) c 0]; trivial)
      rw [show (pdats m B0 0 c).owed 0 = 0 from B0.howed (T1 m) c 0]
      iexact HO
    isplitl [Hp]; · iexact Hp
    iexact Hrest
  hin c := by
    rw [show (pdats m B0 0 c).Φ 0 = (B0.dat (T1 m) c).Φ 0 from rfl]
    iintro ⟨Hp, -, Hr⟩
    iapply (B0.hin (T1 m) c)
    isplitl [Hp]; · iexact Hp
    iexact Hr
  hout c := by
    rw [Pipeline.ownSems0_none, show (pdats m B0 0 c).Φ (Fin.last _) = (B0.dat (T1 m) c).Φ (Fin.last cfg0.N) from rfl]
    iintro H
    ihave H' := (B0.hout (T1 m) c) $$ H
    icases H' with ⟨Hp, Hr⟩
    isplitl [Hp]; · iexact Hp
    isplitr; · iempintro
    iexact Hr
  hexit c := by
    have hjoin := exit0 (c := c) (pdats m B0 0 c) (B0.hq (T1 m) c) (T1 m c) (T2 m B0 c) ((pdats m B0 0 c).arrAt · cfg0.N) (hF0 m B0 c) (hrest0 m B0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m B0 0 c).owed (Fin.last _) = 0 from B0.howed (T1 m) c _]
    iexact HO

set_option backward.isDefEq.respectTransparency.types false in
/-- The normalising kernel over the thread state: entered from every unscoped buffer at `W3`, left at `W4`. -/
def reg1 : Pipeline.RegionSeg (pcfgs (F := F)) admH (pdats m B0) () defs₀ 𝒱₀ L lv 1 where
  win := winFacts₀1
  block_pos := block_pos1
  stage_whole := stage_whole1
  K := PEmpty
  osem k := k.elim
  ho := Pipeline.OwnSemFacts.none _
  hbody c := (body_obligation1 (T3 m B0) q1 c).loose
  hwaits := Pipeline.hwaits_of_owed_zero _ _ _ _ L lv 1 fun _ _ => rfl
  pre c := iprop(StableHlo.held (c : Thread nD τ) (Pipeline.ucRefs τ sig) (W3 m B0 c) ∗ R c)
  post c := iprop(Tₙ m B0 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (T3 m B0 c)
  hentry c := by
    rw [Pipeline.ownSems0_none]
    have hsplit := entry1 (c := c) (pdats m B0 1 c) rfl (T3 m B0 c) (A_eq1 (T3 m B0) q1 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m B0 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m B0 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (c := c) (pdats m B0 1 c) rfl (T3 m B0 c) (T4 m B0 c) ((pdats m B0 1 c).arrAt · cfg1.N) (hF1 m B0 c) (hrest1 m B0 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev segs : List (Pipeline.Seg (pcfgs (F := F)) admH (pdats m B0) () defs₀ 𝒱₀ L lv) :=
  [ .host (hseg hostOps0 hostOps0_sub hostOps0_fresh (W0 m)),
    .region (reg0 m B0),
    .host (hseg hostOps1 hostOps1_sub hostOps1_fresh (W2 m B0)),
    .region (reg1 m B0) ]
/-- The program IS the run of the segments. -/
theorem main_run (c : Dev nD) : main (F := F) c = Pipeline.Seg.run (segs m B0) := (main_chain c).trans (by chain_rfl)

set_option backward.isDefEq.respectTransparency.types false in
/-- THE RUN: from any memory with zero counters, every weakly fair execution of the program on the TensorCores
    terminates, nothing faulting, and every final state holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m B0 c b) :=
  Pipeline.θ_run_regions_kit (pcfgs (F := F)) admH (pdats m B0) () cellOf_inj emb₁ defs₀ 𝒱₀ L lv m ρ main (segs m B0)
    (fun c Q => by rw [main_run m B0 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m B0)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m B0 c b)
    (hfin := fun c s' => by
      iintro ⟨⟨Hh, -⟩, HSI⟩
      unfold StableHlo.held
      imodintro
      iapply (pointsTo_read_all (Pipeline.ucRefs τ sig) (fun b => (((c : Thread nD τ)).1, b)) (W4 m B0 c) s')
      isplitl [Hh] <;> iassumption)
    (hQ := fun s h c => h c)

include B0 in
/-- THE FRAME, at any `F`: the program runs and the input array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W4_main_arg0 m B0 c)) (run m ρ B0)

/-- The run with the result array named: it ends at what the normalising kernel's write-backs leave, the input as launched. -/
theorem run_result : θ_run defs (onTc (τ := τ) (main (F := F))) ⟨m, fun _ => 0, ρ⟩ (fun r => ∀ c : Dev nD,
      r.2.mem ((c.tc : Thread nD τ).loc main_v11) = X1 m B0 c
      ∧ r.2.mem ((c.tc : Thread nD τ).loc main_arg0) = m ((c.tc : Thread nD τ).loc main_arg0)) :=
  (θ_run defs _ _).mono (fun r h c => ⟨(h c _ (mem_uc main_v11 (by decide))).trans (W4_v11 m B0 c),
    (h c _ (mem_uc main_arg0 (by decide))).trans (W4_main_arg0 m B0 c)⟩) (run m ρ B0)

end Cert.Kernel.Hand

end
-- ==== Proof.KFrames.lean ====
/-
  The degree kernel's body half put in the form the run takes, and with it the program's run and frame at
  any reading of the floats: every weakly fair execution terminates, nothing faults, the input array ends as
  launched, and the result array ends at what the normalising kernel's write-backs leave.
-/
import proofs.«143705_j41875931136544_2_alg».proof.Proof.KDegreeBody
import proofs.«143705_j41875931136544_2_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The degree kernel's body half at the shares of the run: the row tile of the input and the whole input a half each. -/
def body0 : Body0 (F := F) where
  dat V c := dat0 V q0 c
  hA V c w := A_eq0 V q0 c w
  hq _ _ := rfl
  howed _ _ _ := rfl
  hrec _ _ _ := rfl
  hbody V c := body_obligation0 V q0 c
  hin V c := hin0 V q0 c
  hout V c := hout0 V q0 c

/-- The frame of the whole program, at any reading of the floats. -/
theorem frame_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame m ρ body0

end Cert.Kernel.Hand

end
-- ==== Proof.DegreeBody.lean ====
/-
  Region 0 of the kernel program: the degree kernel's body, at a parameter `V` (the TensorCore's buffer contents when the
  region is entered). The kernel at grid point (row block, column block): in the first column block it zeroes the
  scratch accumulator; in every column block it adds to the accumulator the row sums of the point's 1024×1024 tile
  exp(-max(|x_i|² + |x_j|² - 2 x_i·x_j, 0) / 512); in the last column block it copies the accumulator into the output
  window. Hence three control cases, an accumulator carried between points (`sacc`), and an output window idle except
  in the last column block. Stated here: the blocks (`iblk0`), the accumulator by recursion on the point (`sacc`,
  `sacc_succ_zero`, `sacc_succ_pos`), the proof data (`dat0`), its projections (`A_eq0`, `after0_W`, `before0_W`,
  `after0_4_flush`), the body obligation (`body_obligation0`) and the invariant's ends (`hin0`, `hout0`).
-/
import proofs.«143705_j41875931136544_2_alg».proof.Proof.Gen.KernelIdeal.Launch
import proofs.«143705_j41875931136544_2_alg».proof.Proof.Gen.KernelIdeal.Skeleton
import proofs.«143705_j41875931136544_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the point -/

/-- The first conditional's guard (the column block is the first one), from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)
/-- The second conditional's guard (the column block is the last one). -/
abbrev cond0_1 (i : grid0.Coords) : Prop := k0_cond2 i = 1#1
/-- It holds exactly at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## The body's rectangles and what one point computes -/

theorem zero2 : (![0, 0] : Fin 2 → Nat) = fun _ => 0 := by funext a; fin_cases a <;> rfl

/-- The 1024 rows of the resident array that the point's column block names. -/
abbrev rOff1 (i : grid0.Coords) : Rect S8192x128 := Rect.unit (s := S8192x128) (k0_off1 i) S1024x128.size (k0_off1_inb i)
/-- The 1024 lanes of the resident row that the point's column block names. -/
abbrev rOff2 (i : grid0.Coords) : Rect S1x8192 := Rect.unit (s := S1x8192) (k0_off2 i) S1x1024.size (k0_off2_inb i)

/-- One point's new accumulator: the old one plus the row sums of the point's 1024×1024 tile, from the row block
    `x0`, the whole resident array `x1` (read at the column block's rows), the row block's squared norms `x2` and the
    whole resident row of squared norms `x3` (read at the column block's lanes). -/
def sstepI (i : grid0.Coords) (x0 : Vec F S1024x128 .f32) (x1 : Vec F S8192x128 .f32) (x2 : Vec F S1024x1 .f32) (x3 : Vec F S1x8192 .f32)
    (acc : Vec F S1024x1 .f32) : Vec F S1024x1 .f32 :=
  k0_pay2 x0 (View.ld x1 (rOff1 i)) (View.ld x3 (rOff2 i)) x2 acc

/-- A load through a rectangle of a whole memref held at read contents `x` reads `x` at the rectangle. -/
theorem readAt_unread_ld {S : Shape} (m : Memref sig .tc .vmem S .f32) (hm : m.IsWhole) (r : Rect S) (x : Vec F S .f32) :
    View.readAt (Elt F) m.view r.toLoadRect (hm.unread x) = View.ld x r := by
  rw [View.readAt_eq_ld, hm.read_unread]

/-- Through the whole-shape rectangle it reads `x`. -/
theorem readAt_unread_whole {S : Shape} (m : Memref sig .tc .vmem S .f32) (hm : m.IsWhole) {off : Fin S.rank → Nat} (h : off = fun _ => 0)
    (inb : ∀ a, off a + S.size a ≤ S.size a) (x : Vec F S .f32) :
    View.readAt (Elt F) m.view (Rect.unit off S.size inb).toLoadRect (hm.unread x) = x := by
  rw [readAt_unread_ld, View.ld_unit_zero h inb]

/-! ## The kernel body on whole memrefs, case by case -/

set_option maxHeartbeats 1000000 in
/-- CASE A (the first column block): the scratch, at anything, is zeroed and then takes the tile's row sums; the output
    window, idle, is handed back as found. -/
theorem run0_A (c : Dev nD) (i : grid0.Coords)
    (arg2 : Memref sig .tc .vmem S1024x128 .f32) (harg2 : arg2.IsWhole) (arg3 : Memref sig .tc .vmem S8192x128 .f32) (harg3 : arg3.IsWhole)
    (arg4 : Memref sig .tc .vmem S1024x1 .f32) (harg4 : arg4.IsWhole) (arg5 : Memref sig .tc .vmem S1x8192 .f32) (harg5 : arg5.IsWhole)
    (arg6 : Memref sig .tc .vmem S1024x1 .f32) (harg6 : arg6.IsWhole) (arg7 : Memref sig .tc .vmem S1024x1 .f32) (harg7 : arg7.IsWhole)
    (hc0 : cond0_0 i) (hc1 : ¬cond0_1 i)
    (x0 : Vec F S1024x128 .f32) (x1 : Vec F S8192x128 .f32) (x2 : Vec F S1024x1 .f32) (x3 : Vec F S1x8192 .f32) (xi4 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (sstepI i x0 x1 x2 x3 k0_pay1)) -∗ K ⟨⟩))
      ⊢ wp frame (wpE (defs₀ (F := F)) Variants.none c none) E (cc0__degree_kernel i arg2 harg2 arg3 harg3 arg4 harg4 arg5 harg5 arg6 harg6 arg7 harg7) K := by
  simp only [cc0__degree_kernel_eq_skeleton]; unfold cc0__degree_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_run_names
  rw [View.read_writes_eq_canon _ _ _ (fun y => ⟨_, List.mem_cons_self, View.mem_set_unit_zero zero2 inb_S1024x1_S1024x1_0_0 y⟩), View.canon_cons_unit_zero zero2]
  unfold sstepI
  rw [View.readCov_unit_zero _ zero2, readAt_unread_whole arg2 harg2 zero2, readAt_unread_ld arg3 harg3, readAt_unread_ld arg5 harg5, readAt_unread_whole arg4 harg4 zero2]

set_option maxHeartbeats 1000000 in
/-- CASE B (a column block that is neither the first nor the last): the scratch, at what the point before left, takes the
    tile's row sums; the output window, idle, is handed back as found. -/
theorem run0_B (c : Dev nD) (i : grid0.Coords)
    (arg2 : Memref sig .tc .vmem S1024x128 .f32) (harg2 : arg2.IsWhole) (arg3 : Memref sig .tc .vmem S8192x128 .f32) (harg3 : arg3.IsWhole)
    (arg4 : Memref sig .tc .vmem S1024x1 .f32) (harg4 : arg4.IsWhole) (arg5 : Memref sig .tc .vmem S1x8192 .f32) (harg5 : arg5.IsWhole)
    (arg6 : Memref sig .tc .vmem S1024x1 .f32) (harg6 : arg6.IsWhole) (arg7 : Memref sig .tc .vmem S1024x1 .f32) (harg7 : arg7.IsWhole)
    (hc0 : ¬cond0_0 i) (hc1 : ¬cond0_1 i)
    (x0 : Vec F S1024x128 .f32) (x1 : Vec F S8192x128 .f32) (x2 : Vec F S1024x1 .f32) (x3 : Vec F S1x8192 .f32) (xi4 : Vec F S1024x1 .f32) (xs : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (sstepI i x0 x1 x2 x3 xs)) -∗ K ⟨⟩))
      ⊢ wp frame (wpE (defs₀ (F := F)) Variants.none c none) E (cc0__degree_kernel i arg2 harg2 arg3 harg3 arg4 harg4 arg5 harg5 arg6 harg6 arg7 harg7) K := by
  simp only [cc0__degree_kernel_eq_skeleton]; unfold cc0__degree_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  rw [View.read_writes_eq_canon _ _ _ (fun y => ⟨_, List.mem_cons_self, View.mem_set_unit_zero zero2 inb_S1024x1_S1024x1_0_0 y⟩), View.canon_cons_unit_zero zero2]
  unfold sstepI
  rw [readAt_unread_whole arg2 harg2 zero2, readAt_unread_ld arg3 harg3, readAt_unread_ld arg5 harg5, readAt_unread_whole arg4 harg4 zero2, readAt_unread_whole arg7 harg7 zero2]

set_option maxHeartbeats 1000000 in
/-- CASE C (the last column block): the scratch, at what the point before left, takes the tile's row sums and is then
    copied into the output window's buffer. -/
theorem run0_C (c : Dev nD) (i : grid0.Coords)
    (arg2 : Memref sig .tc .vmem S1024x128 .f32) (harg2 : arg2.IsWhole) (arg3 : Memref sig .tc .vmem S8192x128 .f32) (harg3 : arg3.IsWhole)
    (arg4 : Memref sig .tc .vmem S1024x1 .f32) (harg4 : arg4.IsWhole) (arg5 : Memref sig .tc .vmem S1x8192 .f32) (harg5 : arg5.IsWhole)
    (arg6 : Memref sig .tc .vmem S1024x1 .f32) (harg6 : arg6.IsWhole) (arg7 : Memref sig .tc .vmem S1024x1 .f32) (harg7 : arg7.IsWhole)
    (hc0 : ¬cond0_0 i) (hc1 : cond0_1 i)
    (x0 : Vec F S1024x128 .f32) (x1 : Vec F S8192x128 .f32) (x2 : Vec F S1024x1 .f32) (x3 : Vec F S1x8192 .f32) (xs : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (sstepI i x0 x1 x2 x3 xs) ∗ owns (c : Thread nD τ) arg7 fullShare (sstepI i x0 x1 x2 x3 xs)) -∗ K ⟨⟩))
      ⊢ wp frame (wpE (defs₀ (F := F)) Variants.none c none) E (cc0__degree_kernel i arg2 harg2 arg3 harg3 arg4 harg4 arg5 harg5 arg6 harg6 arg7 harg7) K := by
  simp only [cc0__degree_kernel_eq_skeleton]; unfold cc0__degree_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3
  obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [View.read_writes_eq_canon _ _ _ (fun y => ⟨_, List.mem_cons_self, View.mem_set_unit_zero zero2 inb_S1024x1_S1024x1_0_0 y⟩), View.canon_cons_unit_zero zero2, View.readCov_unit_zero _ zero2]
    unfold sstepI
    rw [readAt_unread_whole arg2 harg2 zero2, readAt_unread_ld arg3 harg3, readAt_unread_ld arg5 harg5, readAt_unread_whole arg4 harg4 zero2, readAt_unread_whole arg7 harg7 zero2]
  iexists _; isplitr
  swap; · iexact HS
  ipureintro
  sl_unfold_run_names
  rw [View.read_writes_eq_canon _ _ _ (fun y => ⟨_, List.mem_cons_self, View.mem_set_unit_zero zero2 inb_S1024x1_S1024x1_0_0 y⟩), View.canon_cons_unit_zero zero2]
  unfold sstepI
  rw [readAt_unread_whole arg2 harg2 zero2, readAt_unread_ld arg3 harg3, readAt_unread_ld arg5 harg5, readAt_unread_whole arg4 harg4 zero2, readAt_unread_whole arg7 harg7 zero2]

/-! ## The staging memrefs at a point, and the scratch -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The scratch accumulator: a whole scoped buffer of the kernel's own, passed beside the windows. -/
abbrev scM0 : Memref sig .tc .vmem S1024x1 .f32 := Memref.whole cc0_scratch0

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Where the last column block is not reached the output window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last column block the output window is live. -/
theorem liveAt0_4 : ∀ t : Fin cfg0.N, cond0_1 (grid0.coords t) → cfg0.idle 4 (grid0.coords t) = false := by decide +kernel

/-! ## The scoped rest with the scratch pulled out -/

/-- The core's scoped buffers that are neither a staging buffer of this call nor its scratch (the other call's
    staging buffers), each whole at some contents. -/
def restBut0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The scoped rest is the scratch at some contents beside the others. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ restBut0 (F := F) c) := by
  rw [scopedRest0_eq]; unfold restBut0; simp only [scM0, owns_whole]; rfl

section Region0
-- the TensorCore's buffer contents when the region is entered, and the shares of the input arrays
variable (V : (c : Dev nD) → (b : Ref sig .tc) → Buf (Elt F) ((c : Thread nD τ).loc b))
variable (q : Fin cfg0.W → PosShare TreeShare)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- One point's new accumulator from the old one, at the point's blocks. -/
def sstep (c : Dev nD) (t : Fin cfg0.N) (acc : Vec F S1024x1 .f32) : Vec F S1024x1 .f32 :=
  sstepI (grid0.coords t) (iblk0 V c 0 t) (iblk0 V c 1 t) (iblk0 V c 2 t) (iblk0 V c 3 t) acc

theorem sstep_eq (c : Dev nD) (t : Fin cfg0.N) (acc : Vec F S1024x1 .f32) :
    sstep V c t acc = k0_pay2 (iblk0 V c 0 t) (View.ld (iblk0 V c 1 t) (rOff1 (grid0.coords t)))
      (View.ld (iblk0 V c 3 t) (rOff2 (grid0.coords t))) (iblk0 V c 2 t) acc := rfl

/-- What the scratch holds BEFORE point `n` (after point `n - 1`): a point in the first column block starts from
    zeros, any other from what the point before left. (Before the first point the scratch holds anything: the value
    at `0` is a placeholder no one reads.) -/
def sacc (c : Dev nD) : ℕ → Vec F S1024x1 .f32
  | 0 => k0_pay1
  | n + 1 => if hn : n < cfg0.N then sstep V c ⟨n, hn⟩ (if n % 8 = 0 then k0_pay1 else sacc c n) else k0_pay1

theorem sacc_succ (c : Dev nD) (t : Fin cfg0.N) :
    sacc V c (t.val + 1) = sstep V c t (if t.val % 8 = 0 then k0_pay1 else sacc V c t.val) := by
  obtain ⟨n, hn⟩ := t
  show sacc V c (n + 1) = _
  rw [sacc]; exact dif_pos hn

/-- After a point of the first column block: the zeros plus the tile's row sums. -/
theorem sacc_succ_zero (c : Dev nD) (t : Fin cfg0.N) (h : t.val % 8 = 0) :
    sacc V c (t.val + 1) = sstep V c t k0_pay1 := by rw [sacc_succ, if_pos h]

/-- After any other point: what the point before left plus the tile's row sums. -/
theorem sacc_succ_pos (c : Dev nD) (t : Fin cfg0.N) (h : ¬t.val % 8 = 0) :
    sacc V c (t.val + 1) = sstep V c t (sacc V c t.val) := by rw [sacc_succ, if_neg h]

/-! ## The invariant -/

/-- The region invariant before position `n`: before the first point the generator register and the scoped rest, the
    scratch among it at anything; afterwards the scratch at what the point before left, the generator register, and
    the other scoped buffers. -/
def Phi0 (c : Dev nD) : ℕ → sProp 𝕄
  | 0 => iprop((∃ r, prngReg c r) ∗ Pipeline.scopedRest (Ix := Unit) (Name := ℕ) (U := UR sig nD τ) (Lvl := ℕ) (Val := Elt F) spec0 c)
  | n + 1 => iprop(owns (c : Thread nD τ) scM0 fullShare (sacc V c (n + 1)) ∗ (∃ r, prngReg c r) ∗ restBut0 (F := F) c)

theorem Phi0_zero (c : Dev nD) (n : ℕ) (hz : n = 0) :
    Phi0 V c n = iprop((∃ r, prngReg c r) ∗ (∃ d, owns (c : Thread nD τ) scM0 fullShare d) ∗ restBut0 (F := F) c) := by
  subst hz; show iprop((∃ r, prngReg c r) ∗ Pipeline.scopedRest (Ix := Unit) (Name := ℕ) (U := UR sig nD τ) (Lvl := ℕ) (Val := Elt F) spec0 c) = _; rw [scopedRest0_split]

theorem Phi0_pos (c : Dev nD) (n : ℕ) (hz : n ≠ 0) :
    Phi0 V c n = iprop(owns (c : Thread nD τ) scM0 fullShare (sacc V c n) ∗ (∃ r, prngReg c r) ∗ restBut0 (F := F) c) := by
  cases n with
  | zero => exact absurd rfl hz
  | succ n => rfl

/-! ## The pipeline's proof data -/

/-- The proof data of pipeline 0 on core `c`: the arrays as the region finds them; after the body at point `t` each
    input's buffer at its block and the output's at the accumulator after the point (read only where the last
    column block stores it); the invariant `Phi0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => sacc V c (t.val + 1)
  Φ t := Phi0 V c t.val
  q := q
  owed _ := 0

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = iblk0 V c 3 t := by dsimp only [dat0]
theorem after0_4 (c : Dev nD) (t : Fin cfg0.N) : (dat0 V q c).after 4 t = sacc V c (t.val + 1) := by dsimp only [dat0]

/-- Where the output is written back (the last column block) the body leaves in it the accumulator after the point:
    what the point before left plus the tile's row sums. -/
theorem after0_4_flush (c : Dev nD) (t : Fin cfg0.N) (h : t.val % 8 = 7) :
    (dat0 V q c).after 4 t = sstep V c t (sacc V c t.val) := by
  rw [after0_4, sacc_succ_pos V c t (by omega)]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d
theorem before0_3 (c : Dev nD) (t : Fin cfg0.N) (d) : (dat0 V q c).before 3 t d = iblk0 V c 3 t :=
  before0_3_of V (dat0 V q c) (A_eq0 V q c 3) (after0_3 V q c) t d

theorem Phi_castSucc (c : Dev nD) (t : Fin cfg0.N) : (dat0 V q c).Φ t.castSucc = Phi0 V c t.val := by
  dsimp only [dat0]; simp only [Fin.coe_castSucc]

theorem Phi_succ (c : Dev nD) (t : Fin cfg0.N) :
    (dat0 V q c).Φ t.succ = iprop(owns (c : Thread nD τ) scM0 fullShare (sacc V c (t.val + 1)) ∗ (∃ r, prngReg c r) ∗ restBut0 (F := F) c) := rfl

/-! ## The body obligation, at a generic point -/

/-- What the body is called with at point `t` (the library's precondition, the windows one by one), -/
def bodyPre0 (c : Dev nD) (t : Fin cfg0.N) : sProp 𝕄 :=
  iprop((dat0 V q c).Φ t.castSucc ∗ (dat0 V q c).owesAt () t.castSucc
    ∗ (∃ d, owns (c : Thread nD τ) (ms0_0 t) fullShare ((dat0 V q c).before 0 t d))
    ∗ (∃ d, owns (c : Thread nD τ) (ms0_1 t) fullShare ((dat0 V q c).before 1 t d))
    ∗ (∃ d, owns (c : Thread nD τ) (ms0_2 t) fullShare ((dat0 V q c).before 2 t d))
    ∗ (∃ d, owns (c : Thread nD τ) (ms0_3 t) fullShare ((dat0 V q c).before 3 t d))
    ∗ (∃ d, owns (c : Thread nD τ) (ms0_4 t) fullShare ((dat0 V q c).before 4 t d)))

/-- and what it returns. -/
def bodyPost0 (c : Dev nD) (t : Fin cfg0.N) : sProp 𝕄 :=
  iprop((dat0 V q c).Φ t.succ ∗ (dat0 V q c).owesAt () t.succ
    ∗ (dat0 V q c).leavesExact 0 t
    ∗ (dat0 V q c).leavesExact 1 t
    ∗ (dat0 V q c).leavesExact 2 t
    ∗ (dat0 V q c).leavesExact 3 t
    ∗ (dat0 V q c).leavesExact 4 t)

theorem leaves0_0 (c : Dev nD) (t : Fin cfg0.N) : (dat0 V q c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V q c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V q c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V q c).leavesExact 3 t = owns (c : Thread nD τ) (ms0_3 t) fullShare (iblk0 V c 3 t) := by
  unfold Dat.leavesExact; rw [liveAt0_3 t, after0_3]
theorem leaves0_4_live (c : Dev nD) (t : Fin cfg0.N) (h : cond0_1 (grid0.coords t)) :
    (dat0 V q c).leavesExact 4 t = owns (c : Thread nD τ) (ms0_4 t) fullShare (sacc V c (t.val + 1)) := by
  unfold Dat.leavesExact; rw [liveAt0_4 t h, after0_4]

set_option maxHeartbeats 4800000 in
/-- The body at any point: the inputs' memrefs hold their blocks; the closed forms say which case the point is in; the
    invariant hands the body the scratch at what the point before left (at anything before the first point) and takes
    it back at what this point leaves; the core owes nothing throughout. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3]
  rw [show (dat0 V q c).owesAt () t.succ = (dat0 V q c).owesAt () t.castSucc from rfl]
  rw [Phi_succ, Phi_castSucc, leaves0_0, leaves0_1, leaves0_2, leaves0_3]
  have hN : t.val < 64 := lt_of_lt_of_eq t.isLt (show cfg0.N = 64 from N_0)
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V q c) 4 t (idleAt0_4 t hc1) (noFlush0_4 t hc1)]
    rw [sacc_succ_zero V c t h0]; unfold sstep
    by_cases hz : t.val = 0
    · rw [Phi0_zero V c _ hz]
      iintro ⟨⟨Hg, HS, Hr⟩, Ho, ⟨%d0, H0⟩, ⟨%d1, H1⟩, ⟨%d2, H2⟩, ⟨%d3, H3⟩, ⟨%d4, H4⟩⟩
      iapply (run0_A c (grid0.coords t) _ _ _ _ _ _ _ _ _ _ _ _ hc0 hc1 (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg Hr]
      · isplitl [HS]; · iexact HS
        isplitl [Hg]; · iexact Hg
        iexact Hr
      isplitl [Ho]; · iexact Ho
      isplitl [H0]; · iexact H0
      isplitl [H1]; · iexact H1
      isplitl [H2]; · iexact H2
      isplitl [H3]; · iexact H3
      iexists _; iexact H4
    · rw [Phi0_pos V c _ hz]
      iintro ⟨⟨HS, Hg, Hr⟩, Ho, ⟨%d0, H0⟩, ⟨%d1, H1⟩, ⟨%d2, H2⟩, ⟨%d3, H3⟩, ⟨%d4, H4⟩⟩
      iapply (run0_A c (grid0.coords t) _ _ _ _ _ _ _ _ _ _ _ _ hc0 hc1 (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hg Hr]
      · isplitl [HS]; · iexact HS
        isplitl [Hg]; · iexact Hg
        iexact Hr
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond0_0 (grid0.coords t) := fun h => h0 ((hcond0_0 t).mp h)
    rw [Phi0_pos V c _ hz, sacc_succ_pos V c t h0]; unfold sstep
    by_cases h1 : t.val % 8 = 7
    · have hc1 : cond0_1 (grid0.coords t) := (hcond0_1 t).mpr h1
      rw [leaves0_4_live V q c t hc1, sacc_succ_pos V c t h0]; unfold sstep
      iintro ⟨⟨HS, Hg, Hr⟩, Ho, ⟨%d0, H0⟩, ⟨%d1, H1⟩, ⟨%d2, H2⟩, ⟨%d3, H3⟩, ⟨%d4, H4⟩⟩
      iapply (run0_C c (grid0.coords t) _ _ _ _ _ _ _ _ _ _ _ _ hc0 hc1 (iblk0 V c 0 t) (iblk0 V c 1 t) (iblk0 V c 2 t) (iblk0 V c 3 t) (sacc V c t.val) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg Hr]
      · isplitl [HS]; · iexact HS
        isplitl [Hg]; · iexact Hg
        iexact Hr
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dat0 V q c) 4 t (idleAt0_4 t hc1) (noFlush0_4 t hc1)]
      iintro ⟨⟨HS, Hg, Hr⟩, Ho, ⟨%d0, H0⟩, ⟨%d1, H1⟩, ⟨%d2, H2⟩, ⟨%d3, H3⟩, ⟨%d4, H4⟩⟩
      iapply (run0_B c (grid0.coords t) _ _ _ _ _ _ _ _ _ _ _ _ hc0 hc1 (iblk0 V c 0 t) (iblk0 V c 1 t) (iblk0 V c 2 t) (iblk0 V c 3 t) _ (sacc V c t.val) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg Hr]
      · isplitl [HS]; · iexact HS
        isplitl [Hg]; · iexact Hg
        iexact Hr
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V q c) (defs₀ (F := F)) Variants.none () Set.univ := fun t => by
  rw [bigSep_W0, bigSep_W0]
  exact sound_body0 V q c t

/-! ## Into and out of the invariant -/

/-- What the region is entered with (the generator register and the scoped rest) is the invariant before the first point. -/
theorem hin0 (c : Dev nD) :
    iprop((∃ r, prngReg c r) ∗ Pipeline.scopedRest (Ix := Unit) (Name := ℕ) (U := UR sig nD τ) (Lvl := ℕ) (Val := Elt F) spec0 c)
      ⊢ (dat0 V q c).Φ 0 := by
  rw [show (dat0 V q c).Φ 0 = Phi0 V c 0 from rfl]
  exact Idealize.SL.BI.Entails.refl _

/-- After the last point the invariant gives them back: the scratch's named contents are forgotten. -/
theorem hout0 (c : Dev nD) :
    (dat0 V q c).Φ (Fin.last cfg0.N)
      ⊢ iprop((∃ r, prngReg c r) ∗ Pipeline.scopedRest (Ix := Unit) (Name := ℕ) (U := UR sig nD τ) (Lvl := ℕ) (Val := Elt F) spec0 c) := by
  rw [show (dat0 V q c).Φ (Fin.last cfg0.N) = Phi0 V c (Fin.last cfg0.N).val from rfl,
    Phi0_pos V c _ (by rw [Fin.val_last]; have : cfg0.N = 64 := N_0; omega), scopedRest0_split]
  iintro ⟨HS, Hg, Hr⟩
  isplitl [Hg]; · iexact Hg
  isplitl [HS]; · iexists _; iexact HS
  iexact Hr

end Region0

end Cert.KernelIdeal.Hand
end
-- ==== Proof.NormBody.lean ====
import proofs.«143705_j41875931136544_2_alg».proof.Proof.Gen.KernelIdeal.Launch
import proofs.«143705_j41875931136544_2_alg».proof.Proof.Gen.KernelIdeal.Skeleton
import proofs.«143705_j41875931136544_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # The second kernel's body, at any entry contents

The normalising kernel runs on an 8 × 8 grid over seven windows: six inputs and the 1024 × 1024 output
block. At each point it reads a row block of the points (window 0), a column block of the same points
(cut out of the whole array, window 1, at a row offset the point's second coordinate fixes), the row
block's squared norms and inverse root degrees (windows 2, 4), and the column block's (cut out of the
whole row vectors, windows 3, 5, at a column offset the same coordinate fixes), and stores
`exp(-γ · max(‖x‖² + ‖y‖² − 2 x·y, 0)) · d⁻¹ᐟ²(x) · d⁻¹ᐟ²(y)` over the whole output block.

This module states, for ANY contents `V` of the core's buffers when the pipeline is entered, what each
window's staging buffer holds after the body at each point, and proves the body's triple against it. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pipeline finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the window is not fetched its block
    index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where the window is not fetched its block
    index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where the window is not fetched its block
    index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: where the window is not fetched its block
    index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: where the window is not fetched its block
    index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: where the window is not fetched its block
    index has not moved since the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole row block of points; -/
abbrev rX : Rect S1024x128 := Rect.unit (s := S1024x128) ![0, 0] S1024x128.size inb_S1024x128_S1024x128_0_0
/-- the column block of points, cut out of the whole array at the point's row offset; -/
abbrev rY (i : grid1.Coords) : Rect S8192x128 := Rect.unit (s := S8192x128) (k1_off1 i) S1024x128.size (k1_off1_inb i)
/-- a whole per-row column vector; -/
abbrev rR : Rect S1024x1 := Rect.unit (s := S1024x1) ![0, 0] S1024x1.size inb_S1024x1_S1024x1_0_0
/-- the column block's part of a whole row vector, at the point's column offset; -/
abbrev rC (i : grid1.Coords) : Rect S1x8192 := Rect.unit (s := S1x8192) (k1_off2 i) S1x1024.size (k1_off2_inb i)
/-- the whole output block. -/
abbrev rO : Rect S1024x1024 := Rect.unit (s := S1024x1024) ![0, 0] S1024x1024.size inb_S1024x1024_S1024x1024_0_0

/-! ## What the body leaves in the output window's buffer -/

/-- Window 6's staging buffer after the body at the point of coordinates `i`, from the input windows' staging
    contents: its one store, over the whole block, of the kernel's value on what the six loads read. -/
def out1_6 (i : grid1.Coords) (x0 : Vec F S1024x128 .f32) (x1 : Vec F S8192x128 .f32) (x2 : Vec F S1024x1 .f32)
    (x3 : Vec F S1x8192 .f32) (x4 : Vec F S1024x1 .f32) (x5 : Vec F S1x8192 .f32) : Vec F S1024x1024 .f32 :=
  View.canon [⟨rO, k1_pay1 (View.ld x0 rX) (View.ld x1 (rY i)) (View.ld x3 (rC i)) (View.ld x5 (rC i)) (View.ld x2 rR) (View.ld x4 rR)⟩]

/-- The one store's rectangle is the whole block, so every index is in it. -/
theorem cover1_6 (p0 : Vec F S1024x1024 .f32) (y : S1024x1024.Idx) :
    ∃ pc ∈ ([⟨rO, p0⟩] : List (View.Piece (Elt F) S1024x1024 .f32)), y ∈ pc.1.set :=
  ⟨_, List.mem_singleton_self _, View.mem_set_unit_zero (by funext a; fin_cases a <;> rfl) inb_S1024x1024_S1024x1024_0_0 y⟩

/-! ## The body's triple -/

set_option maxHeartbeats 2000000 in
/-- The kernel body at the point of coordinates `i`, on whole staging memrefs, the inputs' at read contents `xW` and
    the output's at anything, runs to the continuation holding the inputs' as they were and the output's at
    `out1_6 i` of the inputs': the printed function is its sequence of six loads, a load of the output buffer and one
    store over named values, which is run operation by operation. -/
theorem sound_kernel1 (c : Dev nD) (E : Set ℕ) (i : grid1.Coords) (arg0 : Memref sig .tc .vmem S1024x128 .f32) (harg0 : arg0.IsWhole) (arg1 : Memref sig .tc .vmem S8192x128 .f32) (harg1 : arg1.IsWhole) (arg2 : Memref sig .tc .vmem S1024x1 .f32) (harg2 : arg2.IsWhole) (arg3 : Memref sig .tc .vmem S1x8192 .f32) (harg3 : arg3.IsWhole) (arg4 : Memref sig .tc .vmem S1024x1 .f32) (harg4 : arg4.IsWhole) (arg5 : Memref sig .tc .vmem S1x8192 .f32) (harg5 : arg5.IsWhole) (arg6 : Memref sig .tc .vmem S1024x1024 .f32) (harg6 : arg6.IsWhole)
    (x0 : Vec F S1024x128 .f32) (x1 : Vec F S8192x128 .f32) (x2 : Vec F S1024x1 .f32) (x3 : Vec F S1x8192 .f32) (x4 : Vec F S1024x1 .f32) (x5 : Vec F S1x8192 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 i x0 x1 x2 x3 x4 x5)) -∗ K ⟨⟩))
      ⊢ wp frame (wpE (defs₀ (F := F)) Variants.none c none) E (cc1__normalize_kernel i arg0 harg0 arg1 harg1 arg2 harg2 arg3 harg3 arg4 harg4 arg5 harg5 arg6 harg6) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the pipeline on core `c`: the arrays as the pipeline finds them (`V`); after the body at
    point `t` each input's buffer at its block and the output's at `out1_6` of the input blocks at the point's
    coordinates; as invariant the scoped rest and the generator register, untouched; nothing owed; the arrays'
    shares a parameter (two windows read one array, so it is not held whole per window). -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t) (iblk1 V c 4 t) (iblk1 V c 5 t)
  Φ _ := Pipeline.ΦA spec1 c
  q := q
  owed _ := 0

variable (q : Fin cfg1.W → PosShare TreeShare)

/-- The proof data's arrays are the entry contents. -/
theorem A_eq1 (c : Dev nD) (w : Fin cfg1.W) : (dat1 V q c).A w = V c (Pipeline.arrRef spec1 w) := by
  dsimp only [dat1]

/-- What the body leaves, window by window. -/
theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t = iblk1 V c 4 t := by dsimp only [dat1]
theorem after1_5 (c : Dev nD) (t : Fin cfg1.N) : (dat1 V q c).after 5 t = iblk1 V c 5 t := by dsimp only [dat1]
theorem after1_6 (c : Dev nD) (t : Fin cfg1.N) :
    (dat1 V q c).after 6 t = out1_6 (grid1.coords t) (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d
theorem before1_4 (c : Dev nD) (t : Fin cfg1.N) (d) : (dat1 V q c).before 4 t d = iblk1 V c 4 t :=
  before1_4_of V (dat1 V q c) (A_eq1 V q c 4) (after1_4 V q c) t d
theorem before1_5 (c : Dev nD) (t : Fin cfg1.N) (d) : (dat1 V q c).before 5 t d = iblk1 V c 5 t :=
  before1_5_of V (dat1 V q c) (A_eq1 V q c 5) (after1_5 V q c) t d

/-! ## The body obligation, at a generic point -/

/-- What the body is called with at point `t`, the windows one by one, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d))
    ∗ (∃ d, owns (c : Thread nD τ) (st1_5 t) fullShare ((dat1 V q c).before 5 t d))
    ∗ (∃ d, owns (c : Thread nD τ) (st1_6 t) fullShare ((dat1 V q c).before 6 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t)
    ∗ owns (c : Thread nD τ) (st1_5 t) fullShare ((dat1 V q c).after 5 t)
    ∗ owns (c : Thread nD τ) (st1_6 t) fullShare ((dat1 V q c).after 6 t))

/-- The body at any point: the inputs' memrefs hold their blocks, so the body's triple applies at the point's
    coordinates; the invariant and what the core owes pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5]
  rw [show (dat1 V q c).Φ t.succ = (dat1 V q c).Φ t.castSucc from rfl,
    show (dat1 V q c).owesAt () t.succ = (dat1 V q c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V q c) (defs₀ (F := F)) Variants.none () Set.univ := fun t => by
  rw [bigSep_W1, bigSep_W1]
  exact sound_body1 V q c t

end Cert.KernelIdeal.Hand

end
-- ==== Proof.SharedArrays.lean ====
/-
  Two windows of each kernel region read ONE array (the input `x`: a row tile of it, and all of it).
  A region is entered with every buffer held whole; the pipeline wants each window's array at that
  window's share. So the one buffer behind the two windows is split into two half shares on the way
  in, and the halves are joined again on the way out; the other arrays go in and out whole. This
  module states that for both regions: the distinct buffers behind the windows' arrays, at the full
  share, ARE the windows' arrays at the shares below, in both directions.
-/
import proofs.«143705_j41875931136544_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two halves of the full share. -/
abbrev qL : PosShare TreeShare := fullShare.left
abbrev qR : PosShare TreeShare := fullShare.right
theorem full_halves : fullShare ∈ PCS.op qL qR := PosShare.mem_left_op_right fullShare

/-- Region 0's shares: the row tile of `x` and the whole of `x` a half each, the rest whole. -/
def q0 : Fin cfg0.W → PosShare TreeShare := fun | ⟨0, _⟩ => qL | ⟨1, _⟩ => qR | _ => fullShare
/-- Region 1's shares, likewise. -/
def q1 : Fin cfg1.W → PosShare TreeShare := fun | ⟨0, _⟩ => qL | ⟨1, _⟩ => qR | _ => fullShare

/-- One whole buffer at the full share is two holders of it at the half shares, at the same contents. -/
theorem split_halves (c : Dev nD) (b : Ref sig .tc) (f : Buf (Elt F) ((c : Thread nD τ).loc b)) :
    ((((c : Thread nD τ).loc b) ↦{fullShare} f) : sProp 𝕄) ⊣⊢ iprop((((c : Thread nD τ).loc b) ↦{qL} f) ∗ (((c : Thread nD τ).loc b) ↦{qR} f)) :=
  pointsTo_share full_halves

section R0
variable {c : Dev nD} (d : Dat τ (Elt F) Unit ℕ (UR sig nD τ) ℕ cfg0 c) (hq : d.q = q0)
include hq

theorem share0_0 : d.share 0 = qL := by unfold Dat.share; rw [hq]; rfl
theorem share0_1 : d.share 1 = qR := by unfold Dat.share; rw [hq]; rfl
theorem share0_2 : d.share 2 = fullShare := by unfold Dat.share; rw [hq]; rfl
theorem share0_3 : d.share 3 = fullShare := by unfold Dat.share; rw [hq]; rfl
omit hq in
theorem share0_4 : d.share 4 = fullShare := by unfold Dat.share; rfl

/-- Region 0's arrays at contents `G`, window by window, each a whole buffer at its share. -/
theorem arrays0_eq (G : (w : Fin cfg0.W) → Buf (Elt F) ((cfg0.win w).arr.view.loc (c : Thread nD τ))) :
    (d.arrays G : sProp 𝕄) = iprop((((c : Thread nD τ).loc main_arg0) ↦{qL} G 0) ∗ (((c : Thread nD τ).loc main_arg0) ↦{qR} G 1)
      ∗ (((c : Thread nD τ).loc main_v4) ↦{fullShare} G 2) ∗ (((c : Thread nD τ).loc main_v5) ↦{fullShare} G 3)
      ∗ (((c : Thread nD τ).loc main_v6) ↦{fullShare} G 4)) := by
  unfold Dat.arrays
  rw [bigSep_W0, (arr_whole0 0).set_eq_univ, (arr_whole0 2).set_eq_univ, (arr_whole0 3).set_eq_univ,
    (arr_whole0 4).set_eq_univ, share0_0 d hq, share0_1 d hq, share0_2 d hq, share0_3 d hq, share0_4 d]

omit hq in
/-- The distinct buffers behind region 0's arrays, one by one. -/
theorem arrBufs0_eq (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v4) ↦{fullShare} V main_v4)
        ∗ (((c : Thread nD τ).loc main_v5) ↦{fullShare} V main_v5) ∗ (((c : Thread nD τ).loc main_v6) ↦{fullShare} V main_v6)) := by
  unfold Pipeline.arrBufs
  exact bigSep_eq_bigSepL_of_eq [main_arg0, main_v4, main_v5, main_v6] (by decide) (by decide) _

/-- ENTRY: the buffers behind the arrays, whole at `V`, are the arrays at any contents `G` read off `V`. -/
theorem arrays0_of_bufs (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs (Ix := Unit) (Name := ℕ) (U := UR sig nD τ) (Lvl := ℕ) spec0 c V : sProp 𝕄) ⊢ d.arrays G := by
  rw [arrBufs0_eq, arrays0_eq d hq, hG 0, hG 1, hG 2, hG 3, hG 4]
  iintro ⟨Hx, H4, H5, H6⟩
  ihave Hx' := (split_halves c main_arg0 _).1 $$ Hx
  icases Hx' with ⟨Hl, Hr⟩
  isplitl [Hl]; · iexact Hl
  isplitl [Hr]; · iexact Hr
  isplitl [H4]; · iexact H4
  isplitl [H5]; · iexact H5
  iexact H6

/-- EXIT: the arrays at contents `G`, the two holders of `x` at one contents, are the buffers behind them whole at any `V'`
    that has each array at its `G`. -/
theorem bufs_of_arrays0 (V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w)) :
    (d.arrays G : sProp 𝕄) ⊢ Pipeline.arrBufs (Ix := Unit) (Name := ℕ) (U := UR sig nD τ) (Lvl := ℕ) spec0 c V' := by
  rw [arrBufs0_eq, arrays0_eq d hq, hG 0, hG 1, hG 2, hG 3, hG 4]
  iintro ⟨Hl, Hr, H4, H5, H6⟩
  isplitl [Hl Hr]
  · iapply (split_halves c main_arg0 _).2
    isplitl [Hl]; · iexact Hl
    iexact Hr
  isplitl [H4]; · iexact H4
  isplitl [H5]; · iexact H5
  iexact H6
end R0

section R1
variable {c : Dev nD} (d : Dat τ (Elt F) Unit ℕ (UR sig nD τ) ℕ cfg1 c) (hq : d.q = q1)
include hq

theorem share1_0 : d.share 0 = qL := by unfold Dat.share; rw [hq]; rfl
theorem share1_1 : d.share 1 = qR := by unfold Dat.share; rw [hq]; rfl
theorem share1_2 : d.share 2 = fullShare := by unfold Dat.share; rw [hq]; rfl
theorem share1_3 : d.share 3 = fullShare := by unfold Dat.share; rw [hq]; rfl
theorem share1_4 : d.share 4 = fullShare := by unfold Dat.share; rw [hq]; rfl
theorem share1_5 : d.share 5 = fullShare := by unfold Dat.share; rw [hq]; rfl
omit hq in
theorem share1_6 : d.share 6 = fullShare := by unfold Dat.share; rfl

/-- Region 1's arrays at contents `G`, window by window, each a whole buffer at its share. -/
theorem arrays1_eq (G : (w : Fin cfg1.W) → Buf (Elt F) ((cfg1.win w).arr.view.loc (c : Thread nD τ))) :
    (d.arrays G : sProp 𝕄) = iprop((((c : Thread nD τ).loc main_arg0) ↦{qL} G 0) ∗ (((c : Thread nD τ).loc main_arg0) ↦{qR} G 1)
      ∗ (((c : Thread nD τ).loc main_v4) ↦{fullShare} G 2) ∗ (((c : Thread nD τ).loc main_v5) ↦{fullShare} G 3)
      ∗ (((c : Thread nD τ).loc main_v9) ↦{fullShare} G 4) ∗ (((c : Thread nD τ).loc main_v10) ↦{fullShare} G 5)
      ∗ (((c : Thread nD τ).loc main_v11) ↦{fullShare} G 6)) := by
  unfold Dat.arrays
  rw [bigSep_W1, (arr_whole1 0).set_eq_univ, (arr_whole1 2).set_eq_univ, (arr_whole1 3).set_eq_univ,
    (arr_whole1 4).set_eq_univ, (arr_whole1 5).set_eq_univ, (arr_whole1 6).set_eq_univ,
    share1_0 d hq, share1_1 d hq, share1_2 d hq, share1_3 d hq, share1_4 d hq, share1_5 d hq, share1_6 d]

omit hq in
/-- The distinct buffers behind region 1's arrays, one by one. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v4) ↦{fullShare} V main_v4)
        ∗ (((c : Thread nD τ).loc main_v5) ↦{fullShare} V main_v5) ∗ (((c : Thread nD τ).loc main_v9) ↦{fullShare} V main_v9)
        ∗ (((c : Thread nD τ).loc main_v10) ↦{fullShare} V main_v10) ∗ (((c : Thread nD τ).loc main_v11) ↦{fullShare} V main_v11)) := by
  unfold Pipeline.arrBufs
  exact bigSep_eq_bigSepL_of_eq [main_arg0, main_v4, main_v5, main_v9, main_v10, main_v11] (by decide) (by decide) _

/-- ENTRY: the buffers behind the arrays, whole at `V`, are the arrays at any contents `G` read off `V`. -/
theorem arrays1_of_bufs (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs (Ix := Unit) (Name := ℕ) (U := UR sig nD τ) (Lvl := ℕ) spec1 c V : sProp 𝕄) ⊢ d.arrays G := by
  rw [arrBufs1_eq, arrays1_eq d hq, hG 0, hG 1, hG 2, hG 3, hG 4, hG 5, hG 6]
  iintro ⟨Hx, H4, H5, H9, H10, H11⟩
  ihave Hx' := (split_halves c main_arg0 _).1 $$ Hx
  icases Hx' with ⟨Hl, Hr⟩
  isplitl [Hl]; · iexact Hl
  isplitl [Hr]; · iexact Hr
  isplitl [H4]; · iexact H4
  isplitl [H5]; · iexact H5
  isplitl [H9]; · iexact H9
  isplitl [H10]; · iexact H10
  iexact H11

/-- EXIT: the arrays at contents `G` are the buffers behind them whole at any `V'` that has each array at its `G`. -/
theorem bufs_of_arrays1 (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (d.arrays G : sProp 𝕄) ⊢ Pipeline.arrBufs (Ix := Unit) (Name := ℕ) (U := UR sig nD τ) (Lvl := ℕ) spec1 c V' := by
  rw [arrBufs1_eq, arrays1_eq d hq, hG 0, hG 1, hG 2, hG 3, hG 4, hG 5, hG 6]
  iintro ⟨Hl, Hr, H4, H5, H9, H10, H11⟩
  isplitl [Hl Hr]
  · iapply (split_halves c main_arg0 _).2
    isplitl [Hl]; · iexact Hl
    iexact Hr
  isplitl [H4]; · iexact H4
  isplitl [H5]; · iexact H5
  isplitl [H9]; · iexact H9
  isplitl [H10]; · iexact H10
  iexact H11
end R1

/-! ## A core's unscoped buffers in and out of a region -/

section Bufs
variable {c : Dev nD}

/-- ENTRY of region 0: the core's unscoped buffers at `V` are the region's arrays at the entry contents and the rest. -/
theorem entry0 (d : Dat τ (Elt F) Unit ℕ (UR sig nD τ) ℕ cfg0 c) (hq : d.q = q0)
    (V : (b : Ref sig .tc) → Buf (Elt F) ((c : Thread nD τ).loc b)) (hA : ∀ w, d.A w = V (Pipeline.arrRef spec0 w)) :
    (unscopedBufs c V : sProp 𝕄) ⊢ iprop(d.arrays (d.arrAt · 0) ∗ Pipeline.unscopedRest spec0 c V) := by
  rw [Pipeline.unscopedBufs_split₀ cfgs 0 winFacts₀0.arr_unscoped c V]
  exact sep_mono (arrays0_of_bufs d hq V _ fun w => (show d.arrAt w 0 = d.A w from rfl).trans (hA w)) .rfl

/-- EXIT of region 0: its arrays at contents `G` and the rest at `V` are the core's unscoped buffers at any `V'` that
    has the arrays at `G` and agrees with `V` off them. -/
theorem exit0 (d : Dat τ (Elt F) Unit ℕ (UR sig nD τ) ℕ cfg0 c) (hq : d.q = q0)
    (V V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w))
    (hrest : ∀ b, b ∉ Finset.univ.image (Pipeline.arrRef spec0) → V' b = V b) :
    iprop(d.arrays G ∗ Pipeline.unscopedRest spec0 c V) ⊢ (unscopedBufs c V' : sProp 𝕄) := by
  rw [Pipeline.unscopedBufs_split₀ cfgs 0 winFacts₀0.arr_unscoped c V']
  refine sep_mono (bufs_of_arrays0 d hq V' G hG) (Entails.of_eq ?_)
  unfold Pipeline.unscopedRest
  exact bigSep_congr fun b hb => by rw [hrest b (Finset.mem_sdiff.mp hb).2]

/-- ENTRY of region 1. -/
theorem entry1 (d : Dat τ (Elt F) Unit ℕ (UR sig nD τ) ℕ cfg1 c) (hq : d.q = q1)
    (V : (b : Ref sig .tc) → Buf (Elt F) ((c : Thread nD τ).loc b)) (hA : ∀ w, d.A w = V (Pipeline.arrRef spec1 w)) :
    (unscopedBufs c V : sProp 𝕄) ⊢ iprop(d.arrays (d.arrAt · 0) ∗ Pipeline.unscopedRest spec1 c V) := by
  rw [Pipeline.unscopedBufs_split₀ cfgs 1 winFacts₀1.arr_unscoped c V]
  exact sep_mono (arrays1_of_bufs d hq V _ fun w => (show d.arrAt w 0 = d.A w from rfl).trans (hA w)) .rfl

/-- EXIT of region 1. -/
theorem exit1 (d : Dat τ (Elt F) Unit ℕ (UR sig nD τ) ℕ cfg1 c) (hq : d.q = q1)
    (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(d.arrays G ∗ Pipeline.unscopedRest spec1 c V) ⊢ (unscopedBufs c V' : sProp 𝕄) := by
  rw [Pipeline.unscopedBufs_split₀ cfgs 1 winFacts₀1.arr_unscoped c V']
  refine sep_mono (bufs_of_arrays1 d hq V' G hG) (Entails.of_eq ?_)
  unfold Pipeline.unscopedRest
  exact bigSep_congr fun b hb => by rw [hrest b (Finset.mem_sdiff.mp hb).2]
end Bufs

end Cert.KernelIdeal.Hand

end
-- ==== Proof.Run.lean ====
/-
  The whole program as four segments — the host operations that form the rows' squared norms, the
  degree kernel, the host operations that turn degrees into inverse square roots, the normalising
  kernel — and its run: from any launch memory every weakly fair execution terminates, and the final
  memory holds, at every buffer no kernel scopes, the contents obtained by folding the segments over the
  launch memory. Each host stretch applies its operations; each kernel region changes exactly its one
  output array, to what its pipeline's write-backs leave.

  Both kernels read the input through two windows (a row tile, and the whole array), so on the way into a
  region the input's buffer is split into two half shares and on the way out joined again.
-/
import proofs.«143705_j41875931136544_2_alg».proof.Proof.Gen.KernelIdeal.Launch
import proofs.«143705_j41875931136544_2_alg».proof.Proof.Gen.KernelIdeal.Points
import proofs.«143705_j41875931136544_2_alg».proof.Proof.Gen.KernelIdeal.Regions
import proofs.«143705_j41875931136544_2_alg».proof.Proof.NormBody
import proofs.«143705_j41875931136544_2_alg».proof.Proof.SharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The degree kernel's body half, as the run needs it: proof data at any entry contents `V` whose arrays are `V`'s,
    at the shares `q0`, owing nothing; the body obligation; the invariant entered from the generator register and the
    scoped buffers no window stages (the scratch accumulator among them) and giving them back. -/
structure Body0 where
  dat : ((c : Dev nD) → (b : Ref sig .tc) → Buf (Elt F) ((c : Thread nD τ).loc b)) → (c : Dev nD) → Dat τ (Elt F) Unit ℕ (UR sig nD τ) ℕ cfg0 c
  hA : ∀ V c w, (dat V c).A w = V c (Pipeline.arrRef spec0 w)
  hq : ∀ V c, (dat V c).q = q0
  howed : ∀ V c t, (dat V c).owed t = 0
  hrec : ∀ V c t, (dat V c).recorded t = Set.univ
  hbody : ∀ V c, BodyObligation (dat V c) (defs₀ (F := F)) Variants.none () Set.univ
  hin : ∀ V c, (iprop((∃ r, prngReg c r) ∗ Pipeline.scopedRest (Ix := Unit) (Name := ℕ) (U := UR sig nD τ) (Lvl := ℕ) (Val := Elt F) spec0 c) : sProp 𝕄) ⊢ (dat V c).Φ 0
  hout : ∀ V c, (dat V c).Φ (Fin.last cfg0.N) ⊢ (iprop((∃ r, prngReg c r) ∗ Pipeline.scopedRest (Ix := Unit) (Name := ℕ) (U := UR sig nD τ) (Lvl := ℕ) (Val := Elt F) spec0 c) : sProp 𝕄)

variable (m : (ℓ : Loc nD τ sig) → Buf (Elt F) ℓ) (ρ : Dev nD → PrngReg) (B0 : Body0 (F := F))

/-! ## The buffer contents at each segment boundary -/

/-- Core `c`'s buffers at launch. -/
abbrev W0 : Dev nD → Valuation τ sig (Elt F) := fun c b => m (c, b)
/-- After the first host stretch (the degree kernel's entry). -/
abbrev W1 : Dev nD → Valuation τ sig (Elt F) := fun c => StableHlo.after hostOps0 (W0 m c)
/-- The same read at the TensorCore's references. -/
abbrev T1 : (c : Dev nD) → (b : Ref sig .tc) → Buf (Elt F) ((c : Thread nD τ).loc b) := fun c b => W1 m c b
/-- The degrees' array as the degree kernel's write-backs leave it. -/
def X0 (c : Dev nD) : Buf (Elt F) ((c : Thread nD τ).loc main_v6) := (B0.dat (T1 m) c).arrAt 4 cfg0.N
/-- After the degree kernel: the degrees' array changed, nothing else. -/
def W2 (c : Dev nD) : Valuation τ sig (Elt F) := Function.update (W1 m c) main_v6 (X0 m B0 c)
abbrev T2 : (c : Dev nD) → (b : Ref sig .tc) → Buf (Elt F) ((c : Thread nD τ).loc b) := fun c b => W2 m B0 c b
/-- After the second host stretch (the normalising kernel's entry). -/
abbrev W3 : Dev nD → Valuation τ sig (Elt F) := fun c => StableHlo.after hostOps1 (W2 m B0 c)
abbrev T3 : (c : Dev nD) → (b : Ref sig .tc) → Buf (Elt F) ((c : Thread nD τ).loc b) := fun c b => W3 m B0 c b
/-- The result array as the normalising kernel's write-backs leave it. -/
def X1 (c : Dev nD) : Buf (Elt F) ((c : Thread nD τ).loc main_v11) := (dat1 (T3 m B0) q1 c).arrAt 6 cfg1.N
/-- After the normalising kernel: the result array changed, nothing else. -/
def W4 (c : Dev nD) : Valuation τ sig (Elt F) := Function.update (W3 m B0 c) main_v11 (X1 m B0 c)
abbrev T4 : (c : Dev nD) → (b : Ref sig .tc) → Buf (Elt F) ((c : Thread nD τ).loc b) := fun c b => W4 m B0 c b

theorem W2_v6 (c : Dev nD) : W2 m B0 c main_v6 = X0 m B0 c := by unfold W2; exact Function.update_self ..
theorem W2_of_ne (c : Dev nD) (b : Ref sig .tc) (h : b ≠ main_v6) : W2 m B0 c b = W1 m c b := by
  unfold W2; exact Function.update_of_ne (StableHlo.devRef_ne_of_ne h) ..
theorem W4_v11 (c : Dev nD) : W4 m B0 c main_v11 = X1 m B0 c := by unfold W4; exact Function.update_self ..
theorem W4_of_ne (c : Dev nD) (b : Ref sig .tc) (h : b ≠ main_v11) : W4 m B0 c b = W3 m B0 c b := by
  unfold W4; exact Function.update_of_ne (StableHlo.devRef_ne_of_ne h) ..

/-- At the degree kernel's exit each of its arrays holds what the pipeline leaves: the inputs as entered, the degrees'
    array at its write-backs. -/
theorem hF0 (c : Dev nD) (w : Fin cfg0.W) : (B0.dat (T1 m) c).arrAt w cfg0.N = T2 m B0 c (Pipeline.arrRef spec0 w) := by
  fin_cases w
  · exact (((B0.dat (T1 m) c).arrAt_in 0 rfl _).trans (B0.hA (T1 m) c 0)).trans (W2_of_ne m B0 c main_arg0 (by decide)).symm
  · exact (((B0.dat (T1 m) c).arrAt_in 1 rfl _).trans (B0.hA (T1 m) c 1)).trans (W2_of_ne m B0 c main_arg0 (by decide)).symm
  · exact (((B0.dat (T1 m) c).arrAt_in 2 rfl _).trans (B0.hA (T1 m) c 2)).trans (W2_of_ne m B0 c main_v4 (by decide)).symm
  · exact (((B0.dat (T1 m) c).arrAt_in 3 rfl _).trans (B0.hA (T1 m) c 3)).trans (W2_of_ne m B0 c main_v5 (by decide)).symm
  · exact (W2_v6 m B0 c).symm
theorem hrest0 (c : Dev nD) : ∀ b, b ∉ Finset.univ.image (Pipeline.arrRef spec0) → T2 m B0 c b = T1 m c b :=
  fun b hb => W2_of_ne m B0 c b fun h => hb (h ▸ Finset.mem_image.mpr ⟨4, Finset.mem_univ _, rfl⟩)

theorem hF1 (c : Dev nD) (w : Fin cfg1.W) : (dat1 (T3 m B0) q1 c).arrAt w cfg1.N = T4 m B0 c (Pipeline.arrRef spec1 w) := by
  fin_cases w
  · exact (((dat1 (T3 m B0) q1 c).arrAt_in 0 rfl _).trans (A_eq1 (T3 m B0) q1 c 0)).trans (W4_of_ne m B0 c main_arg0 (by decide)).symm
  · exact (((dat1 (T3 m B0) q1 c).arrAt_in 1 rfl _).trans (A_eq1 (T3 m B0) q1 c 1)).trans (W4_of_ne m B0 c main_arg0 (by decide)).symm
  · exact (((dat1 (T3 m B0) q1 c).arrAt_in 2 rfl _).trans (A_eq1 (T3 m B0) q1 c 2)).trans (W4_of_ne m B0 c main_v4 (by decide)).symm
  · exact (((dat1 (T3 m B0) q1 c).arrAt_in 3 rfl _).trans (A_eq1 (T3 m B0) q1 c 3)).trans (W4_of_ne m B0 c main_v5 (by decide)).symm
  · exact (((dat1 (T3 m B0) q1 c).arrAt_in 4 rfl _).trans (A_eq1 (T3 m B0) q1 c 4)).trans (W4_of_ne m B0 c main_v9 (by decide)).symm
  · exact (((dat1 (T3 m B0) q1 c).arrAt_in 5 rfl _).trans (A_eq1 (T3 m B0) q1 c 5)).trans (W4_of_ne m B0 c main_v10 (by decide)).symm
  · exact (W4_v11 m B0 c).symm
theorem hrest1 (c : Dev nD) : ∀ b, b ∉ Finset.univ.image (Pipeline.arrRef spec1) → T4 m B0 c b = T3 m B0 c b :=
  fun b hb => W4_of_ne m B0 c b fun h => hb (h ▸ Finset.mem_image.mpr ⟨6, Finset.mem_univ _, rfl⟩)

/-- The input array reaches the end as launched: no host operation writes it and no kernel's output is it. -/
theorem W4_main_arg0 (c : Dev nD) : W4 m B0 c main_arg0 = m ((c : Thread nD τ).loc main_arg0) :=
  calc W4 m B0 c main_arg0
    _ = W3 m B0 c main_arg0 := W4_of_ne m B0 c main_arg0 (by decide)
    _ = W2 m B0 c main_arg0 := StableHlo.after_of_writes_sub hostOps1 _ hostOps1_writes (by decide)
    _ = W1 m c main_arg0 := W2_of_ne m B0 c main_arg0 (by decide)
    _ = W0 m c main_arg0 := StableHlo.after_of_writes_sub hostOps0 _ hostOps0_writes (by decide)
    _ = m ((c : Thread nD τ).loc main_arg0) := rfl

/-! ## The proof data family and the thread state -/

/-- The prefetched tables' admissible contents: no pipeline has a table. -/
abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => B0.dat (T1 m) c
  | ⟨1, _⟩ => fun c => dat1 (T3 m B0) q1 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tₙ (c : Dev nD) : sProp 𝕄 := iprop(StableHlo.held (c : Thread nD τ) (Pipeline.ucRefs τ sig) (W4 m B0 c) ∗ ∃ r, prngReg c r)

/-! ## The regions as segments -/

set_option backward.isDefEq.respectTransparency.types false in
/-- The degree kernel over the thread state: entered from every unscoped buffer at `W1`, left at `W2`. Its arrays are
    split out of the unscoped buffers — the input's buffer into two halves — and joined back at the exit contents; the
    generator register and the scoped rest go into the body's invariant and come back; nothing is owed. -/
def reg0 : Pipeline.RegionSeg (pcfgs (F := F)) admH (pdats m B0) () defs₀ 𝒱₀ L lv 0 where
  win := winFacts₀0
  block_pos := block_pos0
  stage_whole := stage_whole0
  K := PEmpty
  osem k := k.elim
  ho := Pipeline.OwnSemFacts.none _
  hbody c := (B0.hbody (T1 m) c).loose
  hwaits := Pipeline.hwaits_of_owed_zero _ _ _ _ L lv 0 fun c t => B0.howed (T1 m) c t
  pre c := iprop(StableHlo.held (c : Thread nD τ) (Pipeline.ucRefs τ sig) (W1 m c) ∗ R c)
  post c := iprop(StableHlo.held (c : Thread nD τ) (Pipeline.ucRefs τ sig) (W2 m B0 c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := entry0 (c := c) (pdats m B0 0 c) (B0.hq (T1 m) c) (T1 m c) (B0.hA (T1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats m B0 0 c).recorded 0 = Set.univ from B0.hrec (T1 m) c 0]; trivial)
      rw [show (pdats m B0 0 c).owed 0 = 0 from B0.howed (T1 m) c 0]
      iexact HO
    isplitl [Hp]; · iexact Hp
    iexact Hrest
  hin c := by
    rw [show (pdats m B0 0 c).Φ 0 = (B0.dat (T1 m) c).Φ 0 from rfl]
    iintro ⟨Hp, -, Hr⟩
    iapply (B0.hin (T1 m) c)
    isplitl [Hp]; · iexact Hp
    iexact Hr
  hout c := by
    rw [Pipeline.ownSems0_none, show (pdats m B0 0 c).Φ (Fin.last _) = (B0.dat (T1 m) c).Φ (Fin.last cfg0.N) from rfl]
    iintro H
    ihave H' := (B0.hout (T1 m) c) $$ H
    icases H' with ⟨Hp, Hr⟩
    isplitl [Hp]; · iexact Hp
    isplitr; · iempintro
    iexact Hr
  hexit c := by
    have hjoin := exit0 (c := c) (pdats m B0 0 c) (B0.hq (T1 m) c) (T1 m c) (T2 m B0 c) ((pdats m B0 0 c).arrAt · cfg0.N) (hF0 m B0 c) (hrest0 m B0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m B0 0 c).owed (Fin.last _) = 0 from B0.howed (T1 m) c _]
    iexact HO

set_option backward.isDefEq.respectTransparency.types false in
/-- The normalising kernel over the thread state: entered from every unscoped buffer at `W3`, left at `W4`. -/
def reg1 : Pipeline.RegionSeg (pcfgs (F := F)) admH (pdats m B0) () defs₀ 𝒱₀ L lv 1 where
  win := winFacts₀1
  block_pos := block_pos1
  stage_whole := stage_whole1
  K := PEmpty
  osem k := k.elim
  ho := Pipeline.OwnSemFacts.none _
  hbody c := (body_obligation1 (T3 m B0) q1 c).loose
  hwaits := Pipeline.hwaits_of_owed_zero _ _ _ _ L lv 1 fun _ _ => rfl
  pre c := iprop(StableHlo.held (c : Thread nD τ) (Pipeline.ucRefs τ sig) (W3 m B0 c) ∗ R c)
  post c := iprop(Tₙ m B0 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (T3 m B0 c)
  hentry c := by
    rw [Pipeline.ownSems0_none]
    have hsplit := entry1 (c := c) (pdats m B0 1 c) rfl (T3 m B0 c) (A_eq1 (T3 m B0) q1 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m B0 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m B0 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (c := c) (pdats m B0 1 c) rfl (T3 m B0 c) (T4 m B0 c) ((pdats m B0 1 c).arrAt · cfg1.N) (hF1 m B0 c) (hrest1 m B0 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev segs : List (Pipeline.Seg (pcfgs (F := F)) admH (pdats m B0) () defs₀ 𝒱₀ L lv) :=
  [ .host (hseg hostOps0 hostOps0_sub hostOps0_fresh (W0 m)),
    .region (reg0 m B0),
    .host (hseg hostOps1 hostOps1_sub hostOps1_fresh (W2 m B0)),
    .region (reg1 m B0) ]
/-- The program IS the run of the segments. -/
theorem main_run (c : Dev nD) : main (F := F) c = Pipeline.Seg.run (segs m B0) := (main_chain c).trans (by chain_rfl)

set_option backward.isDefEq.respectTransparency.types false in
/-- THE RUN: from any memory with zero counters, every weakly fair execution of the program on the TensorCores
    terminates, nothing faulting, and every final state holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m B0 c b) :=
  Pipeline.θ_run_regions_kit (pcfgs (F := F)) admH (pdats m B0) () cellOf_inj emb₁ defs₀ 𝒱₀ L lv m ρ main (segs m B0)
    (fun c Q => by rw [main_run m B0 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m B0)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m B0 c b)
    (hfin := fun c s' => by
      iintro ⟨⟨Hh, -⟩, HSI⟩
      unfold StableHlo.held
      imodintro
      iapply (pointsTo_read_all (Pipeline.ucRefs τ sig) (fun b => (((c : Thread nD τ)).1, b)) (W4 m B0 c) s')
      isplitl [Hh] <;> iassumption)
    (hQ := fun s h c => h c)

include B0 in
/-- THE FRAME, at any `F`: the program runs and the input array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W4_main_arg0 m B0 c)) (run m ρ B0)

/-- The run with the result array named: it ends at what the normalising kernel's write-backs leave, the input as launched. -/
theorem run_result : θ_run defs (onTc (τ := τ) (main (F := F))) ⟨m, fun _ => 0, ρ⟩ (fun r => ∀ c : Dev nD,
      r.2.mem ((c.tc : Thread nD τ).loc main_v11) = X1 m B0 c
      ∧ r.2.mem ((c.tc : Thread nD τ).loc main_arg0) = m ((c.tc : Thread nD τ).loc main_arg0)) :=
  (θ_run defs _ _).mono (fun r h c => ⟨(h c _ (mem_uc main_v11 (by decide))).trans (W4_v11 m B0 c),
    (h c _ (mem_uc main_arg0 (by decide))).trans (W4_main_arg0 m B0 c)⟩) (run m ρ B0)

end Cert.KernelIdeal.Hand

end
-- ==== Proof.Frames.lean ====
/-
  The degree kernel's body half put in the form the run takes, and with it the program's run and frame at
  any reading of the floats: every weakly fair execution terminates, nothing faults, the input array ends as
  launched, and the result array ends at what the normalising kernel's write-backs leave.
-/
import proofs.«143705_j41875931136544_2_alg».proof.Proof.DegreeBody
import proofs.«143705_j41875931136544_2_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The degree kernel's body half at the shares of the run: the row tile of the input and the whole input a half each. -/
def body0 : Body0 (F := F) where
  dat V c := dat0 V q0 c
  hA V c w := A_eq0 V q0 c w
  hq _ _ := rfl
  howed _ _ _ := rfl
  hrec _ _ _ := rfl
  hbody V c := body_obligation0 V q0 c
  hin V c := hin0 V q0 c
  hout V c := hout0 V q0 c

/-- The frame of the whole program, at any reading of the floats. -/
theorem frame_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame m ρ body0

end Cert.KernelIdeal.Hand

end
-- ==== Proof.Payloads.lean ====
import proofs.«143705_j41875931136544_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! # The kernels' payloads read at an index, at the ideal values

The three values the two kernels store, each read at one index with explicit coordinates, as plain
expressions over the extended reals: the zero column the degree kernel starts from, its accumulator
update (the stored column plus the row sums of the Gaussian weights of one tile), and the normalise
kernel's tile (the Gaussian weight times the row's and the column's scale factors). -/

noncomputable section

namespace Cert.KernelIdeal.Hand

open Cert.KernelIdeal Cert.KernelIdeal.Gen
open Idealize.ShloMosaic Idealize.ShloMosaic.ValueIdx Idealize.SL.Sem
open scoped BigOperators

/-! ## Layout operations of the two kernels, read at explicit coordinates

Each is stated for any proof of the operation's shape condition. -/

section Layout
variable {α : Type}

/-- A column broadcast to a square matrix reads, at (p, q), the column's entry of row p. -/
theorem bcastCol_apply (x : S1024x1.Idx → α) (h : S1024x1.Broadcasts S1024x1024) (p q : Fin 1024) :
    broadcastTo S1024x1024 x h (ix2 p q) = x (ix2 p 0) :=
  broadcastTo_apply x h (ix2 p q) (ix2 p 0) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A row broadcast to a square matrix reads, at (p, q), the row's entry of column q. -/
theorem bcastRow_apply (x : S1x1024.Idx → α) (h : S1x1024.Broadcasts S1024x1024) (p q : Fin 1024) :
    broadcastTo S1024x1024 x h (ix2 p q) = x (ix2 0 q) :=
  broadcastTo_apply x h (ix2 p q) (ix2 0 q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- The transposed tile at (k, q) is the tile at (q, k). -/
theorem transposeTile_apply (x : S1024x128.Idx → α) (h : S1024x128.Transposes [1, 0] S128x1024)
    (k : Fin 128) (q : Fin 1024) :
    transpose S128x1024 [1, 0] x h (ix2 k q) = x (ix2 q k) :=
  transpose_apply [1, 0] x h (ix2 k q) (ix2 q k) (fun b => match b with
    | ⟨0, _⟩ => rfl
    | ⟨1, _⟩ => rfl)

/-- A vector of 1024 entries viewed as a column reads, at row p, its entry p. -/
theorem keepdimsCol_apply (x : S1024.Idx → α) (h : S1024.ShapeCasts S1024x1) (p : Fin 1024) :
    shapeCast S1024x1 x h (ix2 p 0) = x (ix1 p) :=
  shapeCast_apply x h (ix2 p 0) (ix1 p) (by
    rw [Shape.rowMajor_val_one, Shape.rowMajor_val_two]
    show p.val = p.val * 1 + 0
    omega)

end Layout

/-! ## The row sum and the matrix product of a tile, read at explicit coordinates -/

/-- The sum of a tile along its second axis, at row p, is the sum of that row's entries. -/
theorem rowSum_apply (src : FVec Ideal S1024x1024 .f32) (h : S1024x1024.Reduces [1] S1024)
    (hφ : FKind.Formats .f32) (hacc : (0x00000000#32 : BitVec (FTy.bits .f32)) = FKind.add.neutral .f32 hφ)
    (p : Fin 1024) :
    multiReduction .add [1] S1024 src 0x00000000#32 h hφ hacc (ix1 p) = ∑ q : Fin 1024, src (ix2 p q) := by
  refine (Ideal.multiReduction_add_single src 0x00000000#32 h hφ hacc (ix1 p)).trans ?_
  refine Finset.sum_congr rfl fun q _ => ?_
  exact congrArg src (funext fun a => Fin.ext (by match a with | ⟨0, _⟩ => rfl | ⟨1, _⟩ => rfl))

/-- The left operand's row coordinate is the output's row. -/
theorem lhs_tile_0 (i : S1024x1024.Idx) (c : dot_S1024x128_S128x1024_S1024x1024_1_0_0_1_n_n.contr.Idx) :
    (dot_S1024x128_S128x1024_S1024x1024_1_0_0_1_n_n.lhsIdx i c 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
/-- The left operand's column coordinate is the contraction's. -/
theorem lhs_tile_1 (i : S1024x1024.Idx) (c : dot_S1024x128_S128x1024_S1024x1024_1_0_0_1_n_n.contr.Idx) :
    (dot_S1024x128_S128x1024_S1024x1024_1_0_0_1_n_n.lhsIdx i c 1).val = (c ⟨0, by decide⟩).val :=
  dot_S1024x128_S128x1024_S1024x1024_1_0_0_1_n_n.lhsIdx_val_of_single rfl i c
/-- The right operand's row coordinate is the contraction's. -/
theorem rhs_tile_0 (i : S1024x1024.Idx) (c : dot_S1024x128_S128x1024_S1024x1024_1_0_0_1_n_n.contr.Idx) :
    (dot_S1024x128_S128x1024_S1024x1024_1_0_0_1_n_n.rhsIdx i c 0).val = (c ⟨0, by decide⟩).val :=
  dot_S1024x128_S128x1024_S1024x1024_1_0_0_1_n_n.rhsIdx_val_of_single rfl i c
/-- The right operand's column coordinate is the output's column. -/
theorem rhs_tile_1 (i : S1024x1024.Idx) (c : dot_S1024x128_S128x1024_S1024x1024_1_0_0_1_n_n.contr.Idx) :
    (dot_S1024x128_S128x1024_S1024x1024_1_0_0_1_n_n.rhsIdx i c 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The product of a tile with a transposed tile, accumulated into zero, at (p, q): the inner product of
    row p of the first with row q of the second. -/
theorem matmulTile_apply (a b : FVec Ideal S1024x128 .bf16) (h : S1024x128.Transposes [1, 0] S128x1024)
    (prec : Option ContractPrecision) (p q : Fin 1024) :
    matmul dot_S1024x128_S128x1024_S1024x1024_1_0_0_1_n_n prec a (transpose S128x1024 [1, 0] b h)
        (constant (F := Ideal) S1024x1024 .f32 0x00000000#32) (ix2 p q)
      = ∑ k : Fin 128, a (ix2 p k) * b (ix2 q k) := by
  refine (Ideal.matmul_constant_zero_apply dot_S1024x128_S128x1024_S1024x1024_1_0_0_1_n_n prec a
    (transpose S128x1024 [1, 0] b h) (ix2 p q)).trans ?_
  rw [← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q)
      ((contrEquiv1 dot_S1024x128_S128x1024_S1024x1024_1_0_0_1_n_n 128 rfl rfl).symm k) = ix2 p k :=
    funext fun c => Fin.ext (by
      match c with
      | ⟨0, _⟩ => exact lhs_tile_0 _ _
      | ⟨1, _⟩ => exact (lhs_tile_1 _ _).trans hk)
  have er : dot_S1024x128_S128x1024_S1024x1024_1_0_0_1_n_n.rhsIdx (ix2 p q)
      ((contrEquiv1 dot_S1024x128_S128x1024_S1024x1024_1_0_0_1_n_n 128 rfl rfl).symm k) = ix2 k q :=
    funext fun c => Fin.ext (by
      match c with
      | ⟨0, _⟩ => exact (rhs_tile_0 _ _).trans hk
      | ⟨1, _⟩ => exact rhs_tile_1 _ _)
  rw [el, er]
  exact congrArg (a (ix2 p k) * ·) (transposeTile_apply b h k q)

/-! ## The Gaussian weight of a tile entry -/

/-- The part both kernels share, at (p, q): the exponential of the clamped squared distance (the column's
    entry of row p plus the row's entry of column q minus twice the inner product of the two points, not
    below zero) times the scale constant. -/
theorem weight_apply (a b : Vec Ideal S1024x128 .f32) (r : Vec Ideal S1x1024 .f32) (c : Vec Ideal S1024x1 .f32)
    (hlt : FTy.bits .bf16 < FTy.bits .f32) (hr : S1x1024.ShapeCasts S1x1024) (hc : S1024x1.ShapeCasts S1024x1)
    (ht : S1024x128.Transposes [1, 0] S128x1024) (hbc : S1024x1.Broadcasts S1024x1024)
    (hbr : S1x1024.Broadcasts S1024x1024) (p q : Fin 1024) :
    exp (mulf (maximumf (subf (addf (broadcastTo S1024x1024 (shapeCast S1024x1 c hc) hbc)
              (broadcastTo S1024x1024 (shapeCast S1x1024 r hr) hbr))
            (mulf (broadcast S1024x1024 (Scalar.ofBits (F := Ideal) .f32 0x40000000#32))
              (matmul dot_S1024x128_S128x1024_S1024x1024_1_0_0_1_n_n none (truncf .bf16 a hlt)
                (transpose S128x1024 [1, 0] (truncf .bf16 b hlt) ht)
                (constant (F := Ideal) S1024x1024 .f32 0x00000000#32))))
          (broadcast S1024x1024 (Scalar.ofBits (F := Ideal) .f32 0x00000000#32)))
        (broadcast S1024x1024 (Scalar.ofBits (F := Ideal) .f32 0xBB000000#32))) (ix2 p q)
      = Ideal.exp (max (c (ix2 p 0) + r (ix2 0 q)
            - Ideal.ofBits .f32 0x40000000#32 * ∑ k : Fin 128, a (ix2 p k) * b (ix2 q k)) 0
          * Ideal.ofBits .f32 0xBB000000#32) := by
  have e1 : broadcastTo S1024x1024 (shapeCast S1024x1 c hc) hbc (ix2 p q) = c (ix2 p 0) :=
    (bcastCol_apply _ hbc p q).trans (congrFun (shapeCast_self c hc) _)
  have e2 : broadcastTo S1024x1024 (shapeCast S1x1024 r hr) hbr (ix2 p q) = r (ix2 0 q) :=
    (bcastRow_apply _ hbr p q).trans (congrFun (shapeCast_self r hr) _)
  have e3 : matmul dot_S1024x128_S128x1024_S1024x1024_1_0_0_1_n_n none (truncf .bf16 a hlt)
      (transpose S128x1024 [1, 0] (truncf .bf16 b hlt) ht)
      (constant (F := Ideal) S1024x1024 .f32 0x00000000#32) (ix2 p q)
        = ∑ k : Fin 128, a (ix2 p k) * b (ix2 q k) :=
    matmulTile_apply (truncf .bf16 a hlt) (truncf .bf16 b hlt) ht none p q
  have key : ∀ A B M : EReal, A = c (ix2 p 0) → B = r (ix2 0 q) →
      M = (∑ k : Fin 128, a (ix2 p k) * b (ix2 q k)) →
      Ideal.exp (max (A + B - Ideal.ofBits .f32 0x40000000#32 * M) (Ideal.ofBits .f32 0x00000000#32)
          * Ideal.ofBits .f32 0xBB000000#32)
        = Ideal.exp (max (c (ix2 p 0) + r (ix2 0 q)
            - Ideal.ofBits .f32 0x40000000#32 * ∑ k : Fin 128, a (ix2 p k) * b (ix2 q k)) 0
          * Ideal.ofBits .f32 0xBB000000#32) := by
    intro A B M hA hB hM
    rw [hA, hB, hM, Ideal.ofBits_zero_f32]
  exact key _ _ _ e1 e2 e3

/-! ## The three payloads -/

/-- The degree kernel's first store writes zeros. -/
theorem k0_pay1_apply (p : Fin 1024) : k0_pay1 (F := Ideal) (ix2 p 0) = 0 := by
  unfold k0_pay1
  refine (congrFun (shapeCast_self _ _) (ix2 p 0)).trans ?_
  exact Ideal.ofBits_zero_f32

/-- The normalise kernel's tile at (p, q): the Gaussian weight times the row's factor times the column's. -/
theorem k1_pay1_apply (v4 v7 : Vec Ideal S1024x128 .f32) (v10 v13 : Vec Ideal S1x1024 .f32)
    (v17 v30 : Vec Ideal S1024x1 .f32) (p q : Fin 1024) :
    k1_pay1 v4 v7 v10 v13 v17 v30 (ix2 p q)
      = (Ideal.exp (max (v17 (ix2 p 0) + v10 (ix2 0 q)
            - Ideal.ofBits .f32 0x40000000#32 * ∑ k : Fin 128, v4 (ix2 p k) * v7 (ix2 q k)) 0
          * Ideal.ofBits .f32 0xBB000000#32) * v30 (ix2 p 0)) * v13 (ix2 0 q) := by
  unfold k1_pay1
  have key : ∀ W C R W' : EReal, W = W' → C = v30 (ix2 p 0) → R = v13 (ix2 0 q) →
      W * C * R = W' * v30 (ix2 p 0) * v13 (ix2 0 q) := by
    intro W C R W' hW hC hR
    rw [hW, hC, hR]
  exact key _ _ _ _
    (weight_apply v4 v7 v10 v17 Facts₀.bitsLt_bf16_f32 Facts₀.shapeCasts_S1x1024_S1x1024
      Facts₀.shapeCasts_S1024x1_S1024x1 Facts₀.transposes_S1024x128_p1_0_S128x1024
      Facts₀.broadcasts_S1024x1_S1024x1024 Facts₀.broadcasts_S1x1024_S1024x1024 p q)
    ((bcastCol_apply _ Facts₀.broadcasts_S1024x1_S1024x1024 p q).trans
      (congrFun (shapeCast_self v30 Facts₀.shapeCasts_S1024x1_S1024x1) _))
    ((bcastRow_apply _ Facts₀.broadcasts_S1x1024_S1024x1024 p q).trans
      (congrFun (shapeCast_self v13 Facts₀.shapeCasts_S1x1024_S1x1024) _))

/-- The degree kernel's accumulator update at row p: the stored entry plus the sum over the tile's columns
    of the Gaussian weights. -/
theorem k0_pay2_apply (v7 v10 : Vec Ideal S1024x128 .f32) (v13 : Vec Ideal S1x1024 .f32)
    (v17 v30 : Vec Ideal S1024x1 .f32) (p : Fin 1024) :
    k0_pay2 v7 v10 v13 v17 v30 (ix2 p 0)
      = v30 (ix2 p 0) + ∑ q : Fin 1024, Ideal.exp (max (v17 (ix2 p 0) + v13 (ix2 0 q)
            - Ideal.ofBits .f32 0x40000000#32 * ∑ k : Fin 128, v7 (ix2 p k) * v10 (ix2 q k)) 0
          * Ideal.ofBits .f32 0xBB000000#32) := by
  unfold k0_pay2
  refine (congrFun (shapeCast_self _ _) (ix2 p 0)).trans ?_
  refine congrArg (v30 (ix2 p 0) + ·) ?_
  refine (keepdimsCol_apply _ _ p).trans ?_
  refine (rowSum_apply _ _ _ _ p).trans ?_
  exact Finset.sum_congr rfl fun q _ =>
    weight_apply v7 v10 v13 v17 Facts₀.bitsLt_bf16_f32 Facts₀.shapeCasts_S1x1024_S1x1024
      Facts₀.shapeCasts_S1024x1_S1024x1 Facts₀.transposes_S1024x128_p1_0_S128x1024
      Facts₀.broadcasts_S1024x1_S1024x1024 Facts₀.broadcasts_S1x1024_S1024x1024 p q

end Cert.KernelIdeal.Hand

end
-- ==== Proof.Spec.lean ====
/-
  The two arrangements of the degree-normalised Gaussian kernel matrix of the rows of `x`, as pure
  functions on the extended reals.

  For rows `a b` of `x : Fin 8192 → Fin 128 → EReal`:
    sq a      = Σₖ x a k · x a k                       the squared norm of row a
    gram a b  = Σₖ x a k · x b k                       the inner product of rows a and b
    d2 a b    = max (sq a + sq b − 2 · gram a b) 0     the clamped squared distance
  and the Gaussian weight of the pair, written two ways that agree on every extended real:
    kR a b = exp (−(d2 a b) / 512)                      negate, then divide by 512
    kK a b = exp (d2 a b · (−2⁻⁹))                      multiply by the dyadic −1/512
  The degree of a row is a sum of weights, again written two ways:
    degR a = Σⱼ kR j a                                  down column a, all 8192 rows at once
    degK a = accK a 8,  accK a (n+1) = accK a n + Σₗ kK a (1024·n + l),  accK a 0 = 0
                                                        along row a, eight tiles of 1024 accumulated in order
  (equal because the weight is symmetric and a finite sum may be regrouped), and the result
    GR a b = kR a b · (dsR a · dsR b),   dsR a = 1 / √(degR a)
    GK a b = (kK a b · dsK a) · dsK b,   dsK a = 1 / √(degK a).
-/
import Idealize.ShloMosaic.PureOps.Ideal
import Idealize.ShloMosaic.PureOps.Ideal.Laws

noncomputable section

namespace Cert.Spec

open Idealize.ShloMosaic

/-- The float constants both programs spell, as the extended reals their words denote. -/
abbrev two : EReal := Ideal.ofBits .f32 0x40000000#32
abbrev one : EReal := Ideal.ofBits .f32 0x3F800000#32
abbrev c512 : EReal := Ideal.ofBits .f32 0x44000000#32
abbrev negInv512 : EReal := Ideal.ofBits .f32 0xBB000000#32

variable (x : Fin 8192 → Fin 128 → EReal)

/-- The squared norm of row `a`. -/
def sq (a : Fin 8192) : EReal := ∑ k : Fin 128, x a k * x a k

/-- The inner product of rows `a` and `b`. -/
def gram (a b : Fin 8192) : EReal := ∑ k : Fin 128, x a k * x b k

/-- The squared distance of rows `a` and `b` by the polarisation identity, clamped at zero. -/
def d2 (a b : Fin 8192) : EReal := max (sq x a + sq x b - two * gram x a b) 0

/-- The Gaussian weight: negate the distance, divide by 512, exponentiate. -/
def kR (a b : Fin 8192) : EReal := Ideal.exp (Ideal.div (-(d2 x a b)) c512)

/-- The Gaussian weight: scale the distance by −1/512, exponentiate. -/
def kK (a b : Fin 8192) : EReal := Ideal.exp (d2 x a b * negInv512)

/-- Column `1024·n + l` of the matrix, for tile `n < 8` and lane `l`. -/
def col (n : Fin 8) (l : Fin 1024) : Fin 8192 := ⟨1024 * n.val + l.val, by omega⟩

/-- The degree of `a` as the sum down column `a`. -/
def degR (a : Fin 8192) : EReal := ∑ j : Fin 8192, kR x j a

/-- The sum of row `a`'s weights over tile `n`. -/
def tileSum (a : Fin 8192) (n : Fin 8) : EReal := ∑ l : Fin 1024, kK x a (col n l)

/-- Row `a`'s weights accumulated over the first `n` tiles, in order. -/
def accK (a : Fin 8192) : ℕ → EReal
  | 0 => 0
  | n + 1 => accK a n + (if h : n < 8 then tileSum x a ⟨n, h⟩ else 0)

/-- The degree of `a` as the eight tiles of row `a` accumulated. -/
def degK (a : Fin 8192) : EReal := accK x a 8

/-- The inverse square root of the degree, as a quotient by the square root. -/
def dsR (a : Fin 8192) : EReal := Ideal.div one (Ideal.sqrt (degR x a))
def dsK (a : Fin 8192) : EReal := Ideal.div one (Ideal.sqrt (degK x a))

/-- The normalised matrix: the weight times the product of the two scalings. -/
def GR (a b : Fin 8192) : EReal := kR x a b * (dsR x a * dsR x b)

/-- The normalised matrix: the weight scaled by the row's factor, then by the column's. -/
def GK (a b : Fin 8192) : EReal := (kK x a b * dsK x a) * dsK x b

end Cert.Spec

end
-- ==== Proof.NormValue.lean ====
import proofs.«143705_j41875931136544_2_alg».proof.Proof.NormBody
import proofs.«143705_j41875931136544_2_alg».proof.Proof.Payloads
import proofs.«143705_j41875931136544_2_alg».proof.Proof.Spec
import Idealize.ShloMosaic.Lib.ValueIdx
import Idealize.ShloMosaic.Lib.Pipeline.Value

/-! # The normalised matrix, from its tiles to the whole array

The normalising kernel writes the 8192 × 8192 result as 8 × 8 tiles of 1024 × 1024, one per grid point, each
written back at its own point. Entry `(p, q)` of the tile of row tile `r` and column tile `s` is entry
`(1024 r + p, 1024 s + q)` of one function `normWeight` of the five arrays the kernel reads; the tiles cover the array,
so after the last point the array is `normWeight` everywhere. -/

noncomputable section

namespace Cert.KernelIdeal.Hand

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat Cfg Window)
open scoped BigOperators

/-- The normalised Gaussian weight of rows `a` and `b` of `x`, from the squared norms as a column `s4` and as a
    row `s5` and the scale factors as a column `d9` and as a row `d10`. -/
def normWeight (x : S8192x128.Idx → EReal) (s4 : S8192x1.Idx → EReal) (s5 : S1x8192.Idx → EReal)
    (d9 : S8192x1.Idx → EReal) (d10 : S1x8192.Idx → EReal) (a b : Fin 8192) : EReal :=
  (Ideal.exp (max (s4 (ix2 a 0) + s5 (ix2 0 b) - Cert.Spec.two * ∑ k : Fin 128, x (ix2 a k) * x (ix2 b k)) 0
      * Cert.Spec.negInv512) * d9 (ix2 a 0)) * d10 (ix2 0 b)

theorem zero_offsets : (![0, 0] : Fin 2 → Nat) = fun _ => 0 := funext fun a => by fin_cases a <;> rfl

/-! ## The index maps, decided over the grid -/

/-- At point `t` the row tile is `t / 8` and the column tile `t % 8`: the output's block index is the pair, the
    row blocks' is the row tile, the whole-array windows' is zero, and the two offsets inside the kernel are the
    column tile's first row and first column. -/
theorem point_facts : ∀ t : Fin cfg1.N,
    win1_6.index t (0 : Fin 2) = t.val / 8 ∧ win1_6.index t (1 : Fin 2) = t.val % 8
    ∧ win1_0.index t (0 : Fin 2) = t.val / 8 ∧ win1_0.index t (1 : Fin 2) = 0
    ∧ win1_1.index t (0 : Fin 2) = 0 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = 0
    ∧ win1_4.index t (0 : Fin 2) = t.val / 8 ∧ win1_4.index t (1 : Fin 2) = 0
    ∧ win1_5.index t (0 : Fin 2) = 0 ∧ win1_5.index t (1 : Fin 2) = 0
    ∧ k1_off1 (grid1.coords t) (0 : Fin 2) = 1024 * (t.val % 8) ∧ k1_off1 (grid1.coords t) (1 : Fin 2) = 0
    ∧ k1_off2 (grid1.coords t) (0 : Fin 2) = 0 ∧ k1_off2 (grid1.coords t) (1 : Fin 2) = 1024 * (t.val % 8) :=
  (by decide +kernel : ∀ t : Fin grid1.N, _)

/-! ## The loads at an offset -/

/-- The column block of points, read at `(q, k)`, is the whole array at `(n + q, k)` for the row offset `n`. -/
theorem ld_rows_apply (i : grid1.Coords) (x1 : Vec Ideal S8192x128 .f32) (q : Fin 1024) (k : Fin 128)
    (b : Fin 8192) (n : Nat) (h0 : k1_off1 i (0 : Fin 2) = n) (h1 : k1_off1 i (1 : Fin 2) = 0)
    (hb : b.val = n + q.val) : View.ld x1 (rY i) (ix2 q k) = x1 (ix2 b k) := by
  show x1 ((rY i).idx (ix2 q k)) = x1 (ix2 b k)
  congr 1
  funext a; apply Fin.ext
  match a with
  | ⟨0, _⟩ => show k1_off1 i (0 : Fin 2) + 1 * q.val = b.val; omega
  | ⟨1, _⟩ => show k1_off1 i (1 : Fin 2) + 1 * k.val = k.val; omega

/-- The column block's part of a whole row vector, read at `(0, q)`, is the row vector at `(0, n + q)` for the
    column offset `n`. -/
theorem ld_cols_apply (i : grid1.Coords) (x3 : Vec Ideal S1x8192 .f32) (q : Fin 1024)
    (b : Fin 8192) (n : Nat) (h0 : k1_off2 i (0 : Fin 2) = 0) (h1 : k1_off2 i (1 : Fin 2) = n)
    (hb : b.val = n + q.val) : View.ld x3 (rC i) (ix2 0 q) = x3 (ix2 0 b) := by
  show x3 ((rC i).idx (ix2 0 q)) = x3 (ix2 0 b)
  congr 1
  funext a; apply Fin.ext
  match a with
  | ⟨0, _⟩ => show k1_off2 i (0 : Fin 2) + 1 * 0 = 0; omega
  | ⟨1, _⟩ => show k1_off2 i (1 : Fin 2) + 1 * q.val = b.val; omega

/-! ## One tile -/

/-- What the body leaves in the output block at `(p, q)`, when the row blocks hold rows `a = 1024 r + p` of
    their arrays and the whole-array windows hold their arrays, is `normWeight` at `(a, b)` for `b` the column the
    offsets place `q` at. -/
theorem tile_apply (x : S8192x128.Idx → EReal) (s4 : S8192x1.Idx → EReal) (s5 : S1x8192.Idx → EReal)
    (d9 : S8192x1.Idx → EReal) (d10 : S1x8192.Idx → EReal) (i : grid1.Coords)
    (x0 : Vec Ideal S1024x128 .f32) (x1 : Vec Ideal S8192x128 .f32) (x2 : Vec Ideal S1024x1 .f32)
    (x3 : Vec Ideal S1x8192 .f32) (x4 : Vec Ideal S1024x1 .f32) (x5 : Vec Ideal S1x8192 .f32)
    (p q : Fin 1024) (a b : Fin 8192) (n : Nat)
    (o10 : k1_off1 i (0 : Fin 2) = n) (o11 : k1_off1 i (1 : Fin 2) = 0)
    (o20 : k1_off2 i (0 : Fin 2) = 0) (o21 : k1_off2 i (1 : Fin 2) = n) (hb : b.val = n + q.val)
    (h0 : ∀ k : Fin 128, x0 (ix2 p k) = x (ix2 a k)) (h1 : x1 = x)
    (h2 : x2 (ix2 p 0) = s4 (ix2 a 0)) (h3 : x3 = s5)
    (h4 : x4 (ix2 p 0) = d9 (ix2 a 0)) (h5 : x5 = d10) :
    out1_6 i x0 x1 x2 x3 x4 x5 (ix2 p q) = normWeight x s4 s5 d9 d10 a b := by
  unfold out1_6
  rw [View.canon_unit_zero zero_offsets]
  simp only [View.ld_unit_zero (S := S1024x128) zero_offsets, View.ld_unit_zero (S := S1024x1) zero_offsets]
  rw [k1_pay1_apply]
  have hs : ∑ k : Fin 128, x0 (ix2 p k) * View.ld x1 (rY i) (ix2 q k) = ∑ k : Fin 128, x (ix2 a k) * x (ix2 b k) :=
    Finset.sum_congr rfl fun k _ => by rw [ld_rows_apply i x1 q k b n o10 o11 hb, h0 k, h1]
  rw [hs, ld_cols_apply i x3 q b n o20 o21 hb, ld_cols_apply i x5 q b n o20 o21 hb, h2, h4, h3, h5]
  rfl

/-! ## The input blocks as rows of their arrays -/

variable (V : (c : Dev nD) → (b : Ref sig .tc) → Buf (Elt Ideal) ((c : Thread nD τ).loc b))
variable (q : Fin cfg1.W → PosShare TreeShare)

/-- The whole array the tiles are tiles of. -/
abbrev G1 (c : Dev nD) : S8192x8192.Idx → EReal :=
  fun i => normWeight (V c main_arg0) (V c main_v4) (V c main_v5) (V c main_v9) (V c main_v10) (i 0) (i 1)

theorem point_lt (t : Fin cfg1.N) : t.val < 64 := Nat.lt_of_lt_of_eq t.isLt N_1

/-- The row block of points at point `t` holds rows `1024 (t / 8) + p` of the points. -/
theorem rowblock_points (c : Dev nD) (t : Fin cfg1.N) (p : Fin 1024) (k : Fin 128) (a : Fin 8192)
    (ha : a.val = 1024 * (t.val / 8) + p.val) :
    (iblk1 V c 0 t : Vec Ideal S1024x128 .f32) (ix2 p k) = (V c main_arg0 : S8192x128.Idx → EReal) (ix2 a k) := by
  obtain ⟨-, -, e0, e1, -⟩ := point_facts t
  unfold iblk1
  rw [View.read_apply]
  show V c main_arg0 _ = V c main_arg0 _
  congr 1
  funext d; apply Fin.ext
  match d with
  | ⟨0, _⟩ => show win1_0.index t (0 : Fin 2) * 1024 + 1 * p.val = a.val; omega
  | ⟨1, _⟩ => show win1_0.index t (1 : Fin 2) * 128 + 1 * k.val = k.val; omega

/-- The row block of squared norms at point `t` holds entries `1024 (t / 8) + p` of the column. -/
theorem rowblock_norms (c : Dev nD) (t : Fin cfg1.N) (p : Fin 1024) (a : Fin 8192)
    (ha : a.val = 1024 * (t.val / 8) + p.val) :
    (iblk1 V c 2 t : Vec Ideal S1024x1 .f32) (ix2 p 0) = (V c main_v4 : S8192x1.Idx → EReal) (ix2 a 0) := by
  obtain ⟨-, -, -, -, -, -, e0, e1, -⟩ := point_facts t
  unfold iblk1
  rw [View.read_apply]
  show V c main_v4 _ = V c main_v4 _
  congr 1
  funext d; apply Fin.ext
  match d with
  | ⟨0, _⟩ => show win1_2.index t (0 : Fin 2) * 1024 + 1 * p.val = a.val; omega
  | ⟨1, _⟩ => show win1_2.index t (1 : Fin 2) * 1 + 1 * 0 = 0; omega

/-- The row block of scale factors at point `t` holds entries `1024 (t / 8) + p` of the column. -/
theorem rowblock_scales (c : Dev nD) (t : Fin cfg1.N) (p : Fin 1024) (a : Fin 8192)
    (ha : a.val = 1024 * (t.val / 8) + p.val) :
    (iblk1 V c 4 t : Vec Ideal S1024x1 .f32) (ix2 p 0) = (V c main_v9 : S8192x1.Idx → EReal) (ix2 a 0) := by
  obtain ⟨-, -, -, -, -, -, -, -, -, -, e0, e1, -⟩ := point_facts t
  unfold iblk1
  rw [View.read_apply]
  show V c main_v9 _ = V c main_v9 _
  congr 1
  funext d; apply Fin.ext
  match d with
  | ⟨0, _⟩ => show win1_4.index t (0 : Fin 2) * 1024 + 1 * p.val = a.val; omega
  | ⟨1, _⟩ => show win1_4.index t (1 : Fin 2) * 1 + 1 * 0 = 0; omega

/-- The window over all the points holds the points, at every point of the grid. -/
theorem whole_points (c : Dev nD) (t : Fin cfg1.N) :
    (iblk1 V c 1 t : Vec Ideal S8192x128 .f32) = (V c main_arg0 : S8192x128.Idx → EReal) := by
  obtain ⟨-, -, -, -, e0, e1, -⟩ := point_facts t
  funext j
  unfold iblk1
  rw [View.read_apply]
  show V c main_arg0 _ = V c main_arg0 j
  congr 1
  funext d; apply Fin.ext
  match d with
  | ⟨0, _⟩ => show win1_1.index t (0 : Fin 2) * 8192 + 1 * (j 0).val = (j 0).val; omega
  | ⟨1, _⟩ => show win1_1.index t (1 : Fin 2) * 128 + 1 * (j 1).val = (j 1).val; omega

/-- The window over the whole row of squared norms holds it. -/
theorem whole_norms (c : Dev nD) (t : Fin cfg1.N) :
    (iblk1 V c 3 t : Vec Ideal S1x8192 .f32) = (V c main_v5 : S1x8192.Idx → EReal) := by
  obtain ⟨-, -, -, -, -, -, -, -, e0, e1, -⟩ := point_facts t
  funext j
  unfold iblk1
  rw [View.read_apply]
  show V c main_v5 _ = V c main_v5 j
  congr 1
  funext d; apply Fin.ext
  match d with
  | ⟨0, _⟩ => show win1_3.index t (0 : Fin 2) * 1 + 1 * (j 0).val = (j 0).val; omega
  | ⟨1, _⟩ => show win1_3.index t (1 : Fin 2) * 8192 + 1 * (j 1).val = (j 1).val; omega

/-- The window over the whole row of scale factors holds it. -/
theorem whole_scales (c : Dev nD) (t : Fin cfg1.N) :
    (iblk1 V c 5 t : Vec Ideal S1x8192 .f32) = (V c main_v10 : S1x8192.Idx → EReal) := by
  obtain ⟨-, -, -, -, -, -, -, -, -, -, -, -, e0, e1, -⟩ := point_facts t
  funext j
  unfold iblk1
  rw [View.read_apply]
  show V c main_v10 _ = V c main_v10 j
  congr 1
  funext d; apply Fin.ext
  match d with
  | ⟨0, _⟩ => show win1_5.index t (0 : Fin 2) * 1 + 1 * (j 0).val = (j 0).val; omega
  | ⟨1, _⟩ => show win1_5.index t (1 : Fin 2) * 8192 + 1 * (j 1).val = (j 1).val; omega

/-! ## What a point writes back -/

/-- Point `t` writes back its tile of the whole array `G1`. -/
theorem flushed1_6_eq (c : Dev nD) (t : Fin cfg1.N) :
    (dat1 (F := Ideal) V q c).flushed 6 t = ((cfg1.win 6).blk t).view.read (Elt Ideal) (G1 V c) := by
  show (cfg1.win 6).cut (grid1.coords t) ((dat1 V q c).after 6 t) = _
  rw [after1_6]
  have ht := point_lt t
  obtain ⟨e60, e61, -, -, -, -, -, -, -, -, -, -, -, -, o10, o11, o20, o21⟩ := point_facts t
  funext j
  have hj0 : (j 0).val < 1024 := (j 0).isLt
  have hj1 : (j 1).val < 1024 := (j 1).isLt
  have ha : 1024 * (t.val / 8) + (j 0).val < 8192 := by omega
  have hb : 1024 * (t.val % 8) + (j 1).val < 8192 := by omega
  have hx : (cfg1.win 6).xinj (grid1.coords t) j = ix2 (⟨(j 0).val, hj0⟩ : Fin 1024) (⟨(j 1).val, hj1⟩ : Fin 1024) :=
    funext fun d => by match d with | ⟨0, _⟩ => rfl | ⟨1, _⟩ => rfl
  have he : ((cfg1.win 6).blk t).view.emb j
      = ix2 (⟨1024 * (t.val / 8) + (j 0).val, ha⟩ : Fin 8192) (⟨1024 * (t.val % 8) + (j 1).val, hb⟩ : Fin 8192) :=
    funext fun d => Fin.ext (by
      match d with
      | ⟨0, _⟩ => show win1_6.index t (0 : Fin 2) * 1024 + 1 * (j 0).val = 1024 * (t.val / 8) + (j 0).val; omega
      | ⟨1, _⟩ => show win1_6.index t (1 : Fin 2) * 1024 + 1 * (j 1).val = 1024 * (t.val % 8) + (j 1).val; omega)
  show out1_6 (grid1.coords t) (iblk1 V c 0 t) (iblk1 V c 1 t) (iblk1 V c 2 t) (iblk1 V c 3 t) (iblk1 V c 4 t)
      (iblk1 V c 5 t) ((cfg1.win 6).xinj (grid1.coords t) j) = G1 V c (((cfg1.win 6).blk t).view.emb j)
  rw [hx, he]
  exact tile_apply (V c main_arg0) (V c main_v4) (V c main_v5) (V c main_v9) (V c main_v10) (grid1.coords t)
    (iblk1 V c 0 t) (iblk1 V c 1 t) (iblk1 V c 2 t) (iblk1 V c 3 t) (iblk1 V c 4 t) (iblk1 V c 5 t)
    ⟨(j 0).val, hj0⟩ ⟨(j 1).val, hj1⟩ ⟨1024 * (t.val / 8) + (j 0).val, ha⟩ ⟨1024 * (t.val % 8) + (j 1).val, hb⟩
    (1024 * (t.val % 8)) o10 o11 o20 o21 rfl
    (fun k => rowblock_points V c t _ k _ rfl) (whole_points V c t)
    (rowblock_norms V c t _ _ rfl) (whole_norms V c t)
    (rowblock_scales V c t _ _ rfl) (whole_scales V c t)

/-! ## The tiles cover the array -/

/-- An index of the array is in point `t`'s tile iff each coordinate is in the tile's range on its axis. -/
theorem mem_tile (t : Fin cfg1.N) (i : S8192x8192.Idx) :
    i ∈ ((cfg1.win 6).blk t).view.set ↔ ∀ a : Fin 2, win1_6.index t a * S1024x1024.size a ≤ (i a).val
      ∧ (i a).val < win1_6.index t a * S1024x1024.size a + S1024x1024.size a := by
  show i ∈ ((View.whole main_v11).slice (win1_6.rect t)).set ↔ _
  rw [View.set_slice_whole, Rect.mem_set_unit]
  exact Iff.rfl

/-- Entry `(a, b)` is in the tile of point `8 (a / 1024) + b / 1024`, which writes it back. -/
theorem covered (i : S8192x8192.Idx) :
    ∃ t : Fin cfg1.N, (cfg1.win 6).flush t = true ∧ i ∈ ((cfg1.win 6).blk t).view.set := by
  have hi0 : (i 0).val < 8192 := (i 0).isLt
  have hi1 : (i 1).val < 8192 := (i 1).isLt
  have hN : cfg1.N = 64 := N_1
  have hlt : 8 * ((i 0).val / 1024) + (i 1).val / 1024 < cfg1.N := by rw [hN]; omega
  refine ⟨⟨8 * ((i 0).val / 1024) + (i 1).val / 1024, hlt⟩, flush1_6 _, ?_⟩
  rw [mem_tile]
  obtain ⟨e60, e61, -⟩ := point_facts ⟨8 * ((i 0).val / 1024) + (i 1).val / 1024, hlt⟩
  have e60' : win1_6.index ⟨8 * ((i 0).val / 1024) + (i 1).val / 1024, hlt⟩ (0 : Fin 2)
      = (8 * ((i 0).val / 1024) + (i 1).val / 1024) / 8 := e60
  have e61' : win1_6.index ⟨8 * ((i 0).val / 1024) + (i 1).val / 1024, hlt⟩ (1 : Fin 2)
      = (8 * ((i 0).val / 1024) + (i 1).val / 1024) % 8 := e61
  intro a
  match a with
  | ⟨0, _⟩ =>
    show win1_6.index _ (0 : Fin 2) * 1024 ≤ (i 0).val ∧ (i 0).val < win1_6.index _ (0 : Fin 2) * 1024 + 1024
    rw [e60']; omega
  | ⟨1, _⟩ =>
    show win1_6.index _ (1 : Fin 2) * 1024 ≤ (i 1).val ∧ (i 1).val < win1_6.index _ (1 : Fin 2) * 1024 + 1024
    rw [e61']; omega

/-! ## The array after the run -/

/-- After the last point the result array holds `normWeight` of the five arrays the kernel reads, everywhere. -/
theorem final1 (c : Dev nD) :
    (dat1 (F := Ideal) V q c).arrAt 6 cfg1.N
      = fun i => normWeight (V c main_arg0) (V c main_v4) (V c main_v5) (V c main_v9) (V c main_v10) (i 0) (i 1) :=
  (dat1 (F := Ideal) V q c).arrAt_eq_of_cover 6 (G1 V c) (fun t _ => flushed1_6_eq V q c t) covered

end Cert.KernelIdeal.Hand

end
-- ==== Proof.DegreeValue.lean ====
import proofs.«143705_j41875931136544_2_alg».proof.Proof.DegreeBody
import proofs.«143705_j41875931136544_2_alg».proof.Proof.Payloads
import proofs.«143705_j41875931136544_2_alg».proof.Proof.Spec
import Idealize.ShloMosaic.Lib.ValueIdx
import Idealize.ShloMosaic.Lib.Pipeline.Value

/-! # The degrees, from the accumulated tiles to the whole column

The degree kernel runs over 8 × 8 grid points; along a row tile `r` it accumulates, column tile after column tile,
the row sums of the Gaussian weights of the 1024 × 1024 tile, and at the last column tile writes the accumulator
back as rows `1024 r … 1024 r + 1023` of the degree column. Entry `p` of the accumulator after `j` column tiles is
`tileAcc a j` for the row `a = 1024 r + p`; the eight write-backs cover the column, so after the last point the
column is `degAcc` everywhere. -/

noncomputable section

namespace Cert.KernelIdeal.Hand

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat Cfg Window)
open scoped BigOperators

/-- The Gaussian weight of rows `a` and `b` of `x`, from the squared norms as a column `s4` and as a row `s5`. -/
def pairWeight (x : S8192x128.Idx → EReal) (s4 : S8192x1.Idx → EReal) (s5 : S1x8192.Idx → EReal)
    (a b : Fin 8192) : EReal :=
  Ideal.exp (max (s4 (ix2 a 0) + s5 (ix2 0 b) - Cert.Spec.two * ∑ k : Fin 128, x (ix2 a k) * x (ix2 b k)) 0
    * Cert.Spec.negInv512)

/-- Row `a`'s weights accumulated over the first `n` column tiles, in order. -/
def tileAcc (x : S8192x128.Idx → EReal) (s4 : S8192x1.Idx → EReal) (s5 : S1x8192.Idx → EReal)
    (a : Fin 8192) : ℕ → EReal
  | 0 => 0
  | n + 1 => tileAcc x s4 s5 a n
      + (if h : n < 8 then ∑ l : Fin 1024, pairWeight x s4 s5 a (Cert.Spec.col ⟨n, h⟩ l) else 0)

theorem tileAcc_zero (x : S8192x128.Idx → EReal) (s4 : S8192x1.Idx → EReal) (s5 : S1x8192.Idx → EReal)
    (a : Fin 8192) : tileAcc x s4 s5 a 0 = 0 := rfl

theorem tileAcc_succ (x : S8192x128.Idx → EReal) (s4 : S8192x1.Idx → EReal) (s5 : S1x8192.Idx → EReal)
    (a : Fin 8192) (n : ℕ) (h : n < 8) :
    tileAcc x s4 s5 a (n + 1)
      = tileAcc x s4 s5 a n + ∑ l : Fin 1024, pairWeight x s4 s5 a (Cert.Spec.col ⟨n, h⟩ l) := by
  rw [tileAcc, dif_pos h]

/-- The degree of row `a`: its weights accumulated over all eight column tiles. -/
def degAcc (x : S8192x128.Idx → EReal) (s4 : S8192x1.Idx → EReal) (s5 : S1x8192.Idx → EReal)
    (a : Fin 8192) : EReal := tileAcc x s4 s5 a 8

/-! ## The index maps, decided over the grid -/

/-- At point `t` the row tile is `t / 8` and the column tile `t % 8`: the output's and the row blocks' block index
    is the row tile, the whole-array windows' is zero, and the two offsets inside the kernel are the column tile's
    first row and first lane. -/
theorem degree_point_facts : ∀ t : Fin cfg0.N,
    win0_4.index t (0 : Fin 2) = t.val / 8 ∧ win0_4.index t (1 : Fin 2) = 0
    ∧ win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = 0
    ∧ k0_off1 (grid0.coords t) (0 : Fin 2) = 1024 * (t.val % 8) ∧ k0_off1 (grid0.coords t) (1 : Fin 2) = 0
    ∧ k0_off2 (grid0.coords t) (0 : Fin 2) = 0 ∧ k0_off2 (grid0.coords t) (1 : Fin 2) = 1024 * (t.val % 8) :=
  (by decide +kernel : ∀ t : Fin grid0.N, _)

theorem degree_point_lt (t : Fin cfg0.N) : t.val < 64 := Nat.lt_of_lt_of_eq t.isLt N_0

/-! ## The loads at an offset -/

/-- The column tile's rows of the points, read at `(l, k)`, are the whole array at `(n + l, k)` for the row
    offset `n`. -/
theorem degree_ld_rows (i : grid0.Coords) (x1 : Vec Ideal S8192x128 .f32) (l : Fin 1024) (k : Fin 128)
    (b : Fin 8192) (n : Nat) (h0 : k0_off1 i (0 : Fin 2) = n) (h1 : k0_off1 i (1 : Fin 2) = 0)
    (hb : b.val = n + l.val) : View.ld x1 (rOff1 i) (ix2 l k) = x1 (ix2 b k) := by
  show x1 ((rOff1 i).idx (ix2 l k)) = x1 (ix2 b k)
  congr 1
  funext a; apply Fin.ext
  match a with
  | ⟨0, _⟩ => show k0_off1 i (0 : Fin 2) + 1 * l.val = b.val; omega
  | ⟨1, _⟩ => show k0_off1 i (1 : Fin 2) + 1 * k.val = k.val; omega

/-- The column tile's lanes of the row of squared norms, read at `(0, l)`, are the whole row at `(0, n + l)` for
    the lane offset `n`. -/
theorem degree_ld_lanes (i : grid0.Coords) (x3 : Vec Ideal S1x8192 .f32) (l : Fin 1024)
    (b : Fin 8192) (n : Nat) (h0 : k0_off2 i (0 : Fin 2) = 0) (h1 : k0_off2 i (1 : Fin 2) = n)
    (hb : b.val = n + l.val) : View.ld x3 (rOff2 i) (ix2 0 l) = x3 (ix2 0 b) := by
  show x3 ((rOff2 i).idx (ix2 0 l)) = x3 (ix2 0 b)
  congr 1
  funext a; apply Fin.ext
  match a with
  | ⟨0, _⟩ => show k0_off2 i (0 : Fin 2) + 1 * 0 = 0; omega
  | ⟨1, _⟩ => show k0_off2 i (1 : Fin 2) + 1 * l.val = b.val; omega

/-! ## One point's update of the accumulator -/

/-- The new accumulator at row `p`, when the row blocks hold row `a` of their arrays and the whole-array windows
    hold their arrays: the old entry plus the sum over column tile `s` of the weights of row `a`. -/
theorem step_apply (x : S8192x128.Idx → EReal) (s4 : S8192x1.Idx → EReal) (s5 : S1x8192.Idx → EReal)
    (i : grid0.Coords) (x0 : Vec Ideal S1024x128 .f32) (x1 : Vec Ideal S8192x128 .f32)
    (x2 : Vec Ideal S1024x1 .f32) (x3 : Vec Ideal S1x8192 .f32) (acc : Vec Ideal S1024x1 .f32)
    (p : Fin 1024) (a : Fin 8192) (s : Fin 8)
    (o10 : k0_off1 i (0 : Fin 2) = 1024 * s.val) (o11 : k0_off1 i (1 : Fin 2) = 0)
    (o20 : k0_off2 i (0 : Fin 2) = 0) (o21 : k0_off2 i (1 : Fin 2) = 1024 * s.val)
    (h0 : ∀ k : Fin 128, x0 (ix2 p k) = x (ix2 a k)) (h1 : x1 = x)
    (h2 : x2 (ix2 p 0) = s4 (ix2 a 0)) (h3 : x3 = s5) :
    sstepI i x0 x1 x2 x3 acc (ix2 p 0)
      = acc (ix2 p 0) + ∑ l : Fin 1024, pairWeight x s4 s5 a (Cert.Spec.col s l) := by
  unfold sstepI
  rw [k0_pay2_apply]
  refine congrArg (acc (ix2 p 0) + ·) (Finset.sum_congr rfl fun l _ => ?_)
  have hb : (Cert.Spec.col s l).val = 1024 * s.val + l.val := rfl
  have hs : ∑ k : Fin 128, x0 (ix2 p k) * View.ld x1 (rOff1 i) (ix2 l k)
      = ∑ k : Fin 128, x (ix2 a k) * x (ix2 (Cert.Spec.col s l) k) :=
    Finset.sum_congr rfl fun k _ => by rw [degree_ld_rows i x1 l k (Cert.Spec.col s l) _ o10 o11 hb, h0 k, h1]
  rw [hs, degree_ld_lanes i x3 l (Cert.Spec.col s l) _ o20 o21 hb, h2, h3]
  rfl

/-! ## The input blocks as rows of their arrays -/

variable (V : (c : Dev nD) → (b : Ref sig .tc) → Buf (Elt Ideal) ((c : Thread nD τ).loc b))
variable (q : Fin cfg0.W → PosShare TreeShare)

/-- The whole degree column the write-backs are blocks of. -/
abbrev D0 (c : Dev nD) : S8192x1.Idx → EReal :=
  fun i => degAcc (V c main_arg0) (V c main_v4) (V c main_v5) (i 0)

/-- The row block of points at point `t` holds rows `1024 (t / 8) + p` of the points. -/
theorem degree_rowblock_points (c : Dev nD) (t : Fin cfg0.N) (p : Fin 1024) (k : Fin 128) (a : Fin 8192)
    (ha : a.val = 1024 * (t.val / 8) + p.val) :
    (iblk0 V c 0 t : Vec Ideal S1024x128 .f32) (ix2 p k) = (V c main_arg0 : S8192x128.Idx → EReal) (ix2 a k) := by
  obtain ⟨-, -, e0, e1, -⟩ := degree_point_facts t
  unfold iblk0
  rw [View.read_apply]
  show V c main_arg0 _ = V c main_arg0 _
  congr 1
  funext d; apply Fin.ext
  match d with
  | ⟨0, _⟩ => show win0_0.index t (0 : Fin 2) * 1024 + 1 * p.val = a.val; omega
  | ⟨1, _⟩ => show win0_0.index t (1 : Fin 2) * 128 + 1 * k.val = k.val; omega

/-- The row block of squared norms at point `t` holds entries `1024 (t / 8) + p` of the column. -/
theorem degree_rowblock_norms (c : Dev nD) (t : Fin cfg0.N) (p : Fin 1024) (a : Fin 8192)
    (ha : a.val = 1024 * (t.val / 8) + p.val) :
    (iblk0 V c 2 t : Vec Ideal S1024x1 .f32) (ix2 p 0) = (V c main_v4 : S8192x1.Idx → EReal) (ix2 a 0) := by
  obtain ⟨-, -, -, -, -, -, e0, e1, -⟩ := degree_point_facts t
  unfold iblk0
  rw [View.read_apply]
  show V c main_v4 _ = V c main_v4 _
  congr 1
  funext d; apply Fin.ext
  match d with
  | ⟨0, _⟩ => show win0_2.index t (0 : Fin 2) * 1024 + 1 * p.val = a.val; omega
  | ⟨1, _⟩ => show win0_2.index t (1 : Fin 2) * 1 + 1 * 0 = 0; omega

/-- The window over all the points holds the points, at every point of the grid. -/
theorem degree_whole_points (c : Dev nD) (t : Fin cfg0.N) :
    (iblk0 V c 1 t : Vec Ideal S8192x128 .f32) = (V c main_arg0 : S8192x128.Idx → EReal) := by
  obtain ⟨-, -, -, -, e0, e1, -⟩ := degree_point_facts t
  funext j
  unfold iblk0
  rw [View.read_apply]
  show V c main_arg0 _ = V c main_arg0 j
  congr 1
  funext d; apply Fin.ext
  match d with
  | ⟨0, _⟩ => show win0_1.index t (0 : Fin 2) * 8192 + 1 * (j 0).val = (j 0).val; omega
  | ⟨1, _⟩ => show win0_1.index t (1 : Fin 2) * 128 + 1 * (j 1).val = (j 1).val; omega

/-- The window over the whole row of squared norms holds it. -/
theorem degree_whole_norms (c : Dev nD) (t : Fin cfg0.N) :
    (iblk0 V c 3 t : Vec Ideal S1x8192 .f32) = (V c main_v5 : S1x8192.Idx → EReal) := by
  obtain ⟨-, -, -, -, -, -, -, -, e0, e1, -⟩ := degree_point_facts t
  funext j
  unfold iblk0
  rw [View.read_apply]
  show V c main_v5 _ = V c main_v5 j
  congr 1
  funext d; apply Fin.ext
  match d with
  | ⟨0, _⟩ => show win0_3.index t (0 : Fin 2) * 1 + 1 * (j 0).val = (j 0).val; omega
  | ⟨1, _⟩ => show win0_3.index t (1 : Fin 2) * 8192 + 1 * (j 1).val = (j 1).val; omega

/-! ## The accumulator along a row tile -/

/-- One point's update at row `p` of the block: the old entry plus the sum over the point's column tile of the
    weights of row `a = 1024 (t / 8) + p`. -/
theorem sstep_apply (c : Dev nD) (t : Fin cfg0.N) (acc : Vec Ideal S1024x1 .f32) (p : Fin 1024) (a : Fin 8192)
    (s : Fin 8) (ha : a.val = 1024 * (t.val / 8) + p.val) (hs : s.val = t.val % 8) :
    sstep V c t acc (ix2 p 0)
      = acc (ix2 p 0) + ∑ l : Fin 1024, pairWeight (V c main_arg0) (V c main_v4) (V c main_v5) a (Cert.Spec.col s l) := by
  obtain ⟨-, -, -, -, -, -, -, -, -, -, o10, o11, o20, o21⟩ := degree_point_facts t
  unfold sstep
  exact step_apply (V c main_arg0) (V c main_v4) (V c main_v5) (grid0.coords t)
    (iblk0 V c 0 t) (iblk0 V c 1 t) (iblk0 V c 2 t) (iblk0 V c 3 t) acc p a s
    (by rw [o10, hs]) o11 o20 (by rw [o21, hs])
    (fun k => degree_rowblock_points V c t p k a ha) (degree_whole_points V c t)
    (degree_rowblock_norms V c t p a ha) (degree_whole_norms V c t)

/-- Along row tile `r`, after column tiles `0 … j` the accumulator's entry `p` is row `a = 1024 r + p`'s weights
    accumulated over those tiles. -/
theorem sacc_tile (c : Dev nD) (r : ℕ) (hr : r < 8) (p : Fin 1024) (a : Fin 8192) (ha : a.val = 1024 * r + p.val) :
    ∀ (j : ℕ) (hj : j < 8), sacc V c (8 * r + j + 1) (ix2 p 0)
      = tileAcc (V c main_arg0) (V c main_v4) (V c main_v5) a (j + 1)
  | 0, hj => by
    have hN : 8 * r + 0 < cfg0.N := by rw [show cfg0.N = 64 from N_0]; omega
    have e := sacc_succ_zero V c ⟨8 * r + 0, hN⟩ (by show (8 * r + 0) % 8 = 0; omega)
    have e' : sacc V c (8 * r + 0 + 1) = sstep V c ⟨8 * r + 0, hN⟩ (k0_pay1 (F := Ideal)) := e
    rw [e', sstep_apply V c ⟨8 * r + 0, hN⟩ (k0_pay1 (F := Ideal)) p a ⟨0, hj⟩
      (by show a.val = 1024 * ((8 * r + 0) / 8) + p.val; omega) (by show 0 = (8 * r + 0) % 8; omega),
      k0_pay1_apply, tileAcc_succ _ _ _ _ 0 hj, tileAcc_zero]
  | j + 1, hj => by
    have hN : 8 * r + (j + 1) < cfg0.N := by rw [show cfg0.N = 64 from N_0]; omega
    have e := sacc_succ_pos V c ⟨8 * r + (j + 1), hN⟩ (by show ¬(8 * r + (j + 1)) % 8 = 0; omega)
    have e' : sacc V c (8 * r + (j + 1) + 1) = sstep V c ⟨8 * r + (j + 1), hN⟩ (sacc V c (8 * r + j + 1)) := e
    rw [e', sstep_apply V c ⟨8 * r + (j + 1), hN⟩ _ p a ⟨j + 1, hj⟩
      (by show a.val = 1024 * ((8 * r + (j + 1)) / 8) + p.val; omega)
      (by show j + 1 = (8 * r + (j + 1)) % 8; omega),
      sacc_tile c r hr p a ha j (by omega), tileAcc_succ _ _ _ _ (j + 1) hj]

/-! ## What a write-back point writes -/

/-- A point of the last column tile writes back its block of the whole degree column `D0`. -/
theorem flushed0_4_eq (c : Dev nD) (t : Fin cfg0.N) (hf : (cfg0.win 4).flush t = true) :
    (dat0 (F := Ideal) V q c).flushed 4 t = ((cfg0.win 4).blk t).view.read (Elt Ideal) (D0 V c) := by
  have h7 : t.val % 8 = 7 := (flush0_4 t).mp hf
  show (cfg0.win 4).cut (grid0.coords t) ((dat0 V q c).after 4 t) = _
  rw [after0_4]
  have ht := degree_point_lt t
  obtain ⟨e40, e41, -⟩ := degree_point_facts t
  funext j
  have hj0 : (j 0).val < 1024 := (j 0).isLt
  have hj1 : (j 1).val < 1 := (j 1).isLt
  have ha : 1024 * (t.val / 8) + (j 0).val < 8192 := by omega
  have hx : (cfg0.win 4).xinj (grid0.coords t) j = ix2 (⟨(j 0).val, hj0⟩ : Fin 1024) (0 : Fin 1) :=
    funext fun d => by
      match d with
      | ⟨0, _⟩ => rfl
      | ⟨1, _⟩ => exact Fin.ext (by show (j 1).val = 0; omega)
  have he : (((cfg0.win 4).blk t).view.emb j) 0 = (⟨1024 * (t.val / 8) + (j 0).val, ha⟩ : Fin 8192) :=
    Fin.ext (by show win0_4.index t (0 : Fin 2) * 1024 + 1 * (j 0).val = 1024 * (t.val / 8) + (j 0).val; omega)
  show sacc V c (t.val + 1) ((cfg0.win 4).xinj (grid0.coords t) j)
    = degAcc (V c main_arg0) (V c main_v4) (V c main_v5) ((((cfg0.win 4).blk t).view.emb j) 0)
  rw [hx, he, show t.val + 1 = 8 * (t.val / 8) + 7 + 1 by omega]
  exact sacc_tile V c (t.val / 8) (by omega) ⟨(j 0).val, hj0⟩ ⟨1024 * (t.val / 8) + (j 0).val, ha⟩ rfl 7 (by omega)

/-! ## The write-backs cover the column -/

/-- An index of the column is in point `t`'s block iff each coordinate is in the block's range on its axis. -/
theorem degree_mem_block (t : Fin cfg0.N) (i : S8192x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v6).slice (win0_4.rect t)).set ↔ _
  rw [View.set_slice_whole, Rect.mem_set_unit]
  exact Iff.rfl

/-- Row `a` is in the block of the point `8 (a / 1024) + 7`, which writes it back. -/
theorem degree_covered (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 64 := N_0
  have hlt : 8 * ((i 0).val / 1024) + 7 < cfg0.N := by rw [hN]; omega
  refine ⟨⟨8 * ((i 0).val / 1024) + 7, hlt⟩, (flush0_4 _).mpr (by show (8 * ((i 0).val / 1024) + 7) % 8 = 7; omega), ?_⟩
  rw [degree_mem_block]
  obtain ⟨e40, e41, -⟩ := degree_point_facts ⟨8 * ((i 0).val / 1024) + 7, hlt⟩
  have e40' : win0_4.index ⟨8 * ((i 0).val / 1024) + 7, hlt⟩ (0 : Fin 2) = (8 * ((i 0).val / 1024) + 7) / 8 := e40
  intro a
  match a with
  | ⟨0, _⟩ =>
    show win0_4.index _ (0 : Fin 2) * 1024 ≤ (i 0).val ∧ (i 0).val < win0_4.index _ (0 : Fin 2) * 1024 + 1024
    rw [e40']; omega
  | ⟨1, _⟩ =>
    show win0_4.index _ (1 : Fin 2) * 1 ≤ (i 1).val ∧ (i 1).val < win0_4.index _ (1 : Fin 2) * 1 + 1
    rw [e41]; omega

/-! ## The column after the run -/

/-- After the last point the degree column holds `degAcc` of the three arrays the kernel reads, everywhere. -/
theorem final0 (c : Dev nD) :
    (dat0 (F := Ideal) V q c).arrAt 4 cfg0.N
      = fun i => degAcc (V c main_arg0) (V c main_v4) (V c main_v5) (i 0) :=
  (dat0 (F := Ideal) V q c).arrAt_eq_of_cover 4 (D0 V c) (fun t hf => flushed0_4_eq V q c t hf) degree_covered

end Cert.KernelIdeal.Hand

end
-- ==== Proof.HostValues.lean ====
import proofs.«143705_j41875931136544_2_alg».proof.Proof.Gen.KernelIdeal.Regions
import proofs.«143705_j41875931136544_2_alg».proof.Proof.Gen.KernelIdeal.Launch
import proofs.«143705_j41875931136544_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo (after_cons after_nil)
open scoped BigOperators

/-! # The host operations' values, at the extended reals

Before the first kernel the host squares the points (after a round trip through the narrower float format, the
identity on the extended reals) and sums each row: the squared norms, stored as a column and as a row. Before the
second kernel it takes the inverse square root of whatever the first kernel left as degrees, as a quotient of
one by the root, stored as a column and as a row. -/

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[1, a]` reads, at `(u, i)`, the operand at `(i, u')`, whatever the unit coordinates. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-! ## Before the first kernel: the squared norms -/

/-- The rows' squared norms as the host computes them from the points `X`: the product of the points with
    themselves, summed along each row from zero. -/
def hostSq (X : S8192x128.Idx → EReal) : S8192.Idx → EReal :=
  Host.reduceAdd (F := Ideal)
    (mulf (extf .f32 (truncf .bf16 (show FVec Ideal S8192x128 .f32 from X) bitsLt_bf16_f32) bitsLt_bf16_f32)
      (extf .f32 (truncf .bf16 (show FVec Ideal S8192x128 .f32 from X) bitsLt_bf16_f32) bitsLt_bf16_f32))
    (constant (F := Ideal) S_ .f32 0x00000000#32) reducesTo_S8192x128_S8192_d1 h_S_

/-- At row `a` it is the sum of the squares of the row's entries. -/
theorem hostSq_apply (X : S8192x128.Idx → EReal) (a : Fin 8192) : hostSq X (ix1 a) = Cert.Spec.sq (fun a k => X (ix2 a k)) a := by
  have hR : S8192x128.Reduces [1] S8192 := by decide
  unfold hostSq Host.reduceAdd
  rw [Ideal.hostReduceAdd_def]
  refine (Ideal.hostReduceAdd_single reducesTo_S8192x128_S8192_d1 hR _ _ (ix1 a)).trans ?_
  rw [constant_apply, Ideal.ofBits_zero_f32, zero_add]
  unfold Cert.Spec.sq
  refine Finset.sum_congr rfl fun k _ => ?_
  rw [mulf_apply, extf_apply, truncf_apply]
  have e : hR.lift (ix1 a) k = ix2 a k := by
    funext d; match d with | ⟨0, _⟩ => exact Fin.ext rfl | ⟨1, _⟩ => exact Fin.ext rfl
  rw [e]; rfl

/-- What the first host stretch leaves in the column of squared norms: the row sums, cast to a column. -/
theorem V1_v4_eq (m : (ℓ : Loc nD τ sig) → Buf (Elt Ideal) ℓ) (c : Dev nD) :
    (Gen.V1 (F := Ideal) m c main_v4 : S8192x1.Idx → EReal)
      = shapeCast S8192x1 (hostSq (m ((c : Thread nD τ).loc main_arg0))) shapeCasts_S8192_S8192x1 := by
  dsimp only [Gen.V1, Gen.hostOps0]; after_results; rfl

/-- and in the row of squared norms: the same sums, cast to a row. -/
theorem V1_v5_eq (m : (ℓ : Loc nD τ sig) → Buf (Elt Ideal) ℓ) (c : Dev nD) :
    (Gen.V1 (F := Ideal) m c main_v5 : S1x8192.Idx → EReal)
      = shapeCast S1x8192 (hostSq (m ((c : Thread nD τ).loc main_arg0))) shapeCasts_S8192_S1x8192 := by
  dsimp only [Gen.V1, Gen.hostOps0]; after_results; rfl

/-- Entry `a` of the column is the squared norm of row `a` of the points as launched. -/
theorem V1_v4_apply (m : (ℓ : Loc nD τ sig) → Buf (Elt Ideal) ℓ) (c : Dev nD) (a : Fin 8192) :
    (Gen.V1 (F := Ideal) m c main_v4 : S8192x1.Idx → EReal) (ix2 a 0)
      = Cert.Spec.sq (fun a k => (m ((c : Thread nD τ).loc main_arg0) : S8192x128.Idx → EReal) (ix2 a k)) a := by
  rw [V1_v4_eq]
  exact (shapeCast_a_a1_apply _ _ a 0).trans (hostSq_apply _ a)

/-- Entry `b` of the row is the squared norm of row `b` of the points as launched. -/
theorem V1_v5_apply (m : (ℓ : Loc nD τ sig) → Buf (Elt Ideal) ℓ) (c : Dev nD) (b : Fin 8192) :
    (Gen.V1 (F := Ideal) m c main_v5 : S1x8192.Idx → EReal) (ix2 0 b)
      = Cert.Spec.sq (fun a k => (m ((c : Thread nD τ).loc main_arg0) : S8192x128.Idx → EReal) (ix2 a k)) b := by
  rw [V1_v5_eq]
  exact (shapeCast_a_1a_apply _ _ 0 b).trans (hostSq_apply _ b)

/-! ## Before the second kernel: the inverse root degrees -/

/-- One over the square root of each entry of a column, as the host computes it. -/
def hostInvSqrt (D : S8192x1.Idx → EReal) : S8192x1.Idx → EReal :=
  Host.divf (F := Ideal)
    (broadcastInDim S8192x1 ![] bcast_S_S8192x1 (constant (F := Ideal) S_ .f32 0x3F800000#32))
    (Host.sqrt (F := Ideal) (show FVec Ideal S8192x1 .f32 from D))

/-- At an index it is the quotient of one by the root of the entry there. -/
theorem hostInvSqrt_apply (D : S8192x1.Idx → EReal) (j : S8192x1.Idx) :
    hostInvSqrt D j = Ideal.div Cert.Spec.one (Ideal.sqrt (D j)) := rfl

/-- What the second host stretch leaves in the column of scalings, from ANY contents `W`, -/
theorem after1_v9_eq (W : Valuation τ sig (Elt Ideal)) :
    (StableHlo.after (hostOps1 (F := Ideal)) W main_v9 : S8192x1.Idx → EReal) = hostInvSqrt (W main_v6) := by
  dsimp only [Gen.hostOps1]; after_results; rfl

/-- and in the row of scalings: the column, cast to a row. -/
theorem after1_v10_eq (W : Valuation τ sig (Elt Ideal)) :
    (StableHlo.after (hostOps1 (F := Ideal)) W main_v10 : S1x8192.Idx → EReal)
      = shapeCast S1x8192 (hostInvSqrt (W main_v6)) shapeCasts_S8192x1_S1x8192 := by
  dsimp only [Gen.hostOps1]; after_results; rfl

/-- Entry `a` of the column is one over the root of the degree the first kernel left at `a`. -/
theorem after1_v9_apply (W : Valuation τ sig (Elt Ideal)) (a : Fin 8192) :
    (StableHlo.after (hostOps1 (F := Ideal)) W main_v9 : S8192x1.Idx → EReal) (ix2 a 0)
      = Ideal.div Cert.Spec.one (Ideal.sqrt ((W main_v6 : S8192x1.Idx → EReal) (ix2 a 0))) := by
  rw [after1_v9_eq]; rfl

/-- Entry `b` of the row is one over the root of the degree the first kernel left at `b`. -/
theorem after1_v10_apply (W : Valuation τ sig (Elt Ideal)) (b : Fin 8192) :
    (StableHlo.after (hostOps1 (F := Ideal)) W main_v10 : S1x8192.Idx → EReal) (ix2 0 b)
      = Ideal.div Cert.Spec.one (Ideal.sqrt ((W main_v6 : S8192x1.Idx → EReal) (ix2 b 0))) := by
  rw [after1_v10_eq]
  exact (shapeCast_a1_1a_apply _ _ 0 b 0).trans (hostInvSqrt_apply _ _)

end Cert.KernelIdeal.Hand
end
-- ==== Proof.SpecAlgebra.lean ====
/-
  The two arrangements of the degree-normalised Gaussian kernel matrix agree on every extended real.

  Four steps, each its own lemma:
    kK_eq_kR      exp (d · (−1/512)) = exp ((−d) / 512): division by the nonzero real 512 is the product
                  with its reciprocal at the infinities too, and a sign moves across a product;
    kK_symm       the weight is symmetric in the two rows (+ and · commute);
    degK_eq_degR  eight tiles of 1024 accumulated in order are the sum over all 8192 columns (a finite sum
                  in a commutative monoid may be regrouped along the bijection (n, l) ↦ 1024·n + l), and by
                  symmetry the sum along row a is the sum down column a;
    GK_eq_GR      (k · s) · t = k · (s · t).
-/
import proofs.«143705_j41875931136544_2_alg».proof.Proof.Spec
import Idealize.ShloMosaic.PureOps.Ideal
import Idealize.ShloMosaic.PureOps.Ideal.Laws

noncomputable section

namespace Cert.Spec

open Idealize.ShloMosaic

/-! ### The constants -/

/-- The word `0x44000000` denotes the real `512`. -/
theorem c512_eq : c512 = ((512 : ℝ) : EReal) := by
  simp [Ideal.ofBits, Ideal.ieee, -EReal.coe_mul]; norm_num

/-- The word `0xBB000000` denotes the real `−1/512`. -/
theorem negInv512_eq : negInv512 = ((-(1 / 512) : ℝ) : EReal) := by
  simp [Ideal.ofBits, Ideal.ieee, -EReal.coe_mul]; norm_num

/-- The word `0x40000000` denotes `2`. -/
theorem two_eq : two = ((2 : ℝ) : EReal) := by
  simp [Ideal.ofBits, Ideal.ieee, -EReal.coe_mul]; norm_num

/-- The word `0x3F800000` denotes `1`. -/
theorem one_eq : one = 1 := by
  simp [Ideal.ofBits, Ideal.ieee, -EReal.coe_mul]; norm_num

variable (x : Fin 8192 → Fin 128 → EReal)

/-! ### The weight, two ways -/

/-- Scaling by `−1/512` is negating and dividing by `512`, on every extended real. -/
theorem mul_negInv512 (d : EReal) : d * negInv512 = Ideal.div (-d) c512 := by
  rw [c512_eq, negInv512_eq, Ideal.div_coe (by norm_num : (512 : ℝ) ≠ 0), EReal.coe_neg, mul_neg, neg_mul]

theorem kK_eq_kR (a b : Fin 8192) : kK x a b = kR x a b := by
  unfold kK kR
  rw [mul_negInv512]

/-! ### Symmetry -/

theorem gram_symm (a b : Fin 8192) : gram x a b = gram x b a := by
  unfold gram
  exact Finset.sum_congr rfl fun k _ => mul_comm _ _

theorem d2_symm (a b : Fin 8192) : d2 x a b = d2 x b a := by
  unfold d2
  rw [gram_symm x a b, add_comm (sq x a) (sq x b)]

theorem kK_symm (a b : Fin 8192) : kK x a b = kK x b a := by
  unfold kK
  rw [d2_symm]

theorem kR_symm (a b : Fin 8192) : kR x a b = kR x b a := by
  rw [← kK_eq_kR, ← kK_eq_kR, kK_symm]

/-! ### Regrouping the tiles -/

/-- Tile `n`, lane `l` ↦ column `1024·n + l` is a bijection onto the 8192 columns. -/
def colEquiv : Fin 8 × Fin 1024 ≃ Fin 8192 where
  toFun p := col p.1 p.2
  invFun j := (⟨j.val / 1024, by omega⟩, ⟨j.val % 1024, by omega⟩)
  left_inv := by
    rintro ⟨⟨n, hn⟩, ⟨l, hl⟩⟩
    refine Prod.ext (Fin.ext ?_) (Fin.ext ?_)
    · show (1024 * n + l) / 1024 = n
      omega
    · show (1024 * n + l) % 1024 = l
      omega
  right_inv := by
    rintro ⟨j, hj⟩
    refine Fin.ext ?_
    show 1024 * (j / 1024) + j % 1024 = j
    omega

/-- The accumulation over the first `n` tiles is the sum of those tiles. -/
theorem accK_eq_sum (a : Fin 8192) (n : ℕ) :
    accK x a n = ∑ i ∈ Finset.range n, (if h : i < 8 then tileSum x a ⟨i, h⟩ else 0) := by
  induction n with
  | zero => simp [accK]
  | succ n ih => rw [accK, ih, Finset.sum_range_succ]

/-- The eight tiles accumulated in order are the sum over all columns. -/
theorem degK_eq_sum (a : Fin 8192) : degK x a = ∑ j : Fin 8192, kK x a j := by
  unfold degK
  rw [accK_eq_sum, Finset.sum_range]
  have h1 : ∀ i : Fin 8, (if h : (i : ℕ) < 8 then tileSum x a ⟨i, h⟩ else 0) = tileSum x a i := by
    intro i
    rw [dif_pos i.isLt]
  rw [Finset.sum_congr rfl fun i _ => h1 i]
  unfold tileSum
  rw [← Fintype.sum_prod_type']
  exact Equiv.sum_comp colEquiv (fun j => kK x a j)

theorem degK_eq_degR (a : Fin 8192) : degK x a = degR x a := by
  rw [degK_eq_sum]
  unfold degR
  exact Finset.sum_congr rfl fun j _ => by rw [kK_symm, kK_eq_kR]

theorem dsK_eq_dsR (a : Fin 8192) : dsK x a = dsR x a := by
  unfold dsK dsR
  rw [degK_eq_degR]

/-! ### The result -/

theorem GK_eq_GR (a b : Fin 8192) : GK x a b = GR x a b := by
  unfold GK GR
  rw [kK_eq_kR, dsK_eq_dsR, dsK_eq_dsR, mul_assoc]

end Cert.Spec

end
-- ==== Proof.Bridge.lean ====
/-
  The kernel program's result, read through the whole run, is the degree-normalised Gaussian matrix of the
  input's rows.

  Write x for the launch contents of the input and follow the four segments. The first host stretch leaves the
  rows' squared norms as a column and as a row. The degree kernel leaves, in row a of the degrees' array, the
  eight tiles of row a's weights accumulated in order. The second host stretch turns each degree into
  1 / √degree, as a column and as a row. The normalising kernel leaves at (a, b) the weight of (a, b) scaled by
  row a's factor and then by row b's. That is the matrix in the kernel's arrangement; it equals the reference's
  arrangement because the weight is symmetric, a finite sum may be regrouped, −d/512 = d·(−1/512) on every
  extended real, and the product is associative.
-/
import proofs.«143705_j41875931136544_2_alg».proof.Proof.Frames
import proofs.«143705_j41875931136544_2_alg».proof.Proof.NormValue
import proofs.«143705_j41875931136544_2_alg».proof.Proof.DegreeValue
import proofs.«143705_j41875931136544_2_alg».proof.Proof.HostValues
import proofs.«143705_j41875931136544_2_alg».proof.Proof.SpecAlgebra

noncomputable section

namespace Cert.KernelIdeal.Hand

open Cert.KernelIdeal Cert.KernelIdeal.Gen
open Idealize.ShloMosaic Idealize.ShloMosaic.TcCoe Idealize.ShloMosaic.ValueIdx Idealize.SL.Sem

/-! ## The arrays' arrangement against the rows' -/

/-- The rows of an 8192 × 128 array. -/
abbrev rowsOf (x : S8192x128.Idx → EReal) : Fin 8192 → Fin 128 → EReal := fun a k => x (ix2 a k)

section Pure
variable (x : S8192x128.Idx → EReal) (s4 : S8192x1.Idx → EReal) (s5 : S1x8192.Idx → EReal)
  (hs4 : ∀ a : Fin 8192, s4 (ix2 a 0) = Cert.Spec.sq (rowsOf x) a) (hs5 : ∀ b : Fin 8192, s5 (ix2 0 b) = Cert.Spec.sq (rowsOf x) b)
include hs4 hs5

/-- With the squared norms in place, the weight over the arrays is the weight of the rows. -/
theorem pairWeight_eq (a b : Fin 8192) : pairWeight x s4 s5 a b = Cert.Spec.kK (rowsOf x) a b := by
  unfold pairWeight Cert.Spec.kK Cert.Spec.d2 Cert.Spec.gram
  rw [hs4, hs5]

/-- The tiles accumulated over the arrays are the tiles accumulated over the rows. -/
theorem tileAcc_eq (a : Fin 8192) (n : ℕ) : tileAcc x s4 s5 a n = Cert.Spec.accK (rowsOf x) a n := by
  induction n with
  | zero => rfl
  | succ n ih =>
    rw [tileAcc, Cert.Spec.accK, ih]
    congr 1
    by_cases h : n < 8
    · rw [dif_pos h, dif_pos h]; unfold Cert.Spec.tileSum
      exact Finset.sum_congr rfl fun l _ => pairWeight_eq x s4 s5 hs4 hs5 a _
    · rw [dif_neg h, dif_neg h]

theorem degAcc_eq (a : Fin 8192) : degAcc x s4 s5 a = Cert.Spec.degK (rowsOf x) a := tileAcc_eq x s4 s5 hs4 hs5 a 8

/-- With the scale factors in place too, the normalised weight over the arrays is the matrix in the kernel's arrangement. -/
theorem normWeight_eq (d9 : S8192x1.Idx → EReal) (d10 : S1x8192.Idx → EReal)
    (hd9 : ∀ a : Fin 8192, d9 (ix2 a 0) = Cert.Spec.dsK (rowsOf x) a) (hd10 : ∀ b : Fin 8192, d10 (ix2 0 b) = Cert.Spec.dsK (rowsOf x) b)
    (a b : Fin 8192) : normWeight x s4 s5 d9 d10 a b = Cert.Spec.GK (rowsOf x) a b := by
  unfold normWeight Cert.Spec.GK Cert.Spec.kK Cert.Spec.d2 Cert.Spec.gram
  rw [hs4, hs5, hd9, hd10]
end Pure

/-! ## The run's buffers, segment by segment -/

variable (m : (ℓ : Loc nD τ sig) → Buf (Elt Ideal) ℓ) (c : Dev nD)

/-- The launch contents of the input. -/
abbrev xin : S8192x128.Idx → EReal := m ((c : Thread nD τ).loc main_arg0)

theorem T1_arg0 : (T1 m c main_arg0 : S8192x128.Idx → EReal) = xin m c :=
  StableHlo.after_of_writes_sub hostOps0 _ hostOps0_writes (by decide)
theorem T1_v4 (a : Fin 8192) : (T1 m c main_v4 : S8192x1.Idx → EReal) (ix2 a 0) = Cert.Spec.sq (rowsOf (xin m c)) a := V1_v4_apply m c a
theorem T1_v5 (b : Fin 8192) : (T1 m c main_v5 : S1x8192.Idx → EReal) (ix2 0 b) = Cert.Spec.sq (rowsOf (xin m c)) b := V1_v5_apply m c b

/-- The degrees' array after the degree kernel holds each row's degree, in the kernel's arrangement. -/
theorem X0_apply (a : Fin 8192) : (X0 m body0 c : S8192x1.Idx → EReal) (ix2 a 0) = Cert.Spec.degK (rowsOf (xin m c)) a := by
  show ((dat0 (F := Ideal) (T1 m) q0 c).arrAt 4 cfg0.N : S8192x1.Idx → EReal) (ix2 a 0) = _
  rw [final0]
  show degAcc (T1 m c main_arg0) (T1 m c main_v4) (T1 m c main_v5) a = _
  rw [T1_arg0]
  exact degAcc_eq _ _ _ (T1_v4 m c) (T1_v5 m c) a

theorem T3_arg0 : (T3 m body0 c main_arg0 : S8192x128.Idx → EReal) = xin m c :=
  (StableHlo.after_of_writes_sub hostOps1 _ hostOps1_writes (by decide)).trans ((W2_of_ne m body0 c main_arg0 (by decide)).trans (T1_arg0 m c))
theorem T3_v4 (a : Fin 8192) : (T3 m body0 c main_v4 : S8192x1.Idx → EReal) (ix2 a 0) = Cert.Spec.sq (rowsOf (xin m c)) a := by
  rw [show (T3 m body0 c main_v4 : S8192x1.Idx → EReal) = T1 m c main_v4 from
    (StableHlo.after_of_writes_sub hostOps1 _ hostOps1_writes (by decide)).trans (W2_of_ne m body0 c main_v4 (by decide))]
  exact T1_v4 m c a
theorem T3_v5 (b : Fin 8192) : (T3 m body0 c main_v5 : S1x8192.Idx → EReal) (ix2 0 b) = Cert.Spec.sq (rowsOf (xin m c)) b := by
  rw [show (T3 m body0 c main_v5 : S1x8192.Idx → EReal) = T1 m c main_v5 from
    (StableHlo.after_of_writes_sub hostOps1 _ hostOps1_writes (by decide)).trans (W2_of_ne m body0 c main_v5 (by decide))]
  exact T1_v5 m c b
theorem T3_v9 (a : Fin 8192) : (T3 m body0 c main_v9 : S8192x1.Idx → EReal) (ix2 a 0) = Cert.Spec.dsK (rowsOf (xin m c)) a := by
  refine (after1_v9_apply (W2 m body0 c) a).trans ?_
  rw [W2_v6, X0_apply]; rfl
theorem T3_v10 (b : Fin 8192) : (T3 m body0 c main_v10 : S1x8192.Idx → EReal) (ix2 0 b) = Cert.Spec.dsK (rowsOf (xin m c)) b := by
  refine (after1_v10_apply (W2 m body0 c) b).trans ?_
  rw [W2_v6, X0_apply]; rfl

/-- THE RESULT: the array the normalising kernel leaves is the reference's matrix of the input's rows. -/
theorem X1_eq : (X1 m body0 c : S8192x8192.Idx → EReal) = fun i => Cert.Spec.GR (rowsOf (xin m c)) (i 0) (i 1) := by
  show ((dat1 (F := Ideal) (T3 m body0) q1 c).arrAt 6 cfg1.N : S8192x8192.Idx → EReal) = _
  rw [final1]
  refine funext fun (i : S8192x8192.Idx) => ?_
  show normWeight (T3 m body0 c main_arg0) (T3 m body0 c main_v4) (T3 m body0 c main_v5) (T3 m body0 c main_v9) (T3 m body0 c main_v10) (i 0) (i 1)
    = Cert.Spec.GR (rowsOf (xin m c)) (i 0) (i 1)
  rw [T3_arg0]
  exact (normWeight_eq _ _ _ (T3_v4 m c) (T3_v5 m c) _ _ (T3_v9 m c) (T3_v10 m c) (i 0) (i 1)).trans (Cert.Spec.GK_eq_GR _ (i 0) (i 1))

end Cert.KernelIdeal.Hand

end
-- ==== Proof.RefSpec.lean ====
/-
  The reference's result, at the ideal values, is the normalised Gaussian matrix `Spec.GR` of the rows of its argument.

  Each stage of the reference is read at an index built from literal coordinates:
    the row sums of squares        at a         are  sq a,
    their outer sum                at (a, b)    is   sq a + sq b,
    the product with the transpose at (a, b)    is   gram a b,
    the clamped difference         at (a, b)    is   d2 a b,
    the exponential                at (a, b)    is   kR a b,
    its column sums                at a         are  degR a,
    one over their square roots    at a         is   dsR a,
  and the last stage at (a, b) is kR a b · (dsR a · dsR b).
-/
import proofs.«143705_j41875931136544_2_alg».proof.Proof.Spec
import proofs.«143705_j41875931136544_2_alg».proof.Proof.Gen.ReferenceIdeal.Read

noncomputable section

namespace Cert.ReferenceIdeal.RefValue

open Cert Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-- The rows of the argument array as a function of the two coordinates. -/
abbrev rows (X : (⟨S8192x128, .f32⟩ : BufTy).Contents (Elt Ideal)) : Fin 8192 → Fin 128 → EReal :=
  fun a k => X (ix2 a k)

variable (X : (⟨S8192x128, .f32⟩ : BufTy).Contents (Elt Ideal))

/-! ### The indices the stages read at -/

theorem idx_v1 (a : Fin 8192) (k : Fin 128) : idx_main_v1 (ix1 a) k = ix2 a k :=
  funext fun d => Fin.ext (by match d with | ⟨0, _⟩ => rfl | ⟨1, _⟩ => rfl)

theorem idx_v4 (a b : Fin 8192) : idx_main_v2 (idx_main_v4 (ix2 a b)) = ix1 a :=
  funext fun d => Fin.ext (by match d with | ⟨0, _⟩ => rfl)

theorem idx_v5 (a b : Fin 8192) : idx_main_v3 (idx_main_v5 (ix2 a b)) = ix1 b :=
  funext fun d => Fin.ext (by match d with | ⟨0, _⟩ => rfl)

theorem lidx_v8 (a b : Fin 8192) (k : Fin 128) : lidx_main_v8 (ix2 a b) k = ix2 a k :=
  funext fun d => Fin.ext (by match d with | ⟨0, _⟩ => rfl | ⟨1, _⟩ => rfl)

theorem ridx_v8 (a b : Fin 8192) (k : Fin 128) : idx_main_v7 (ridx_main_v8 (ix2 a b) k) = ix2 b k :=
  funext fun d => Fin.ext (by match d with | ⟨0, _⟩ => rfl | ⟨1, _⟩ => rfl)

theorem idx_v18 (a : Fin 8192) (k : Fin 8192) : idx_main_v18 (ix1 a) k = ix2 k a :=
  funext fun d => Fin.ext (by match d with | ⟨0, _⟩ => rfl | ⟨1, _⟩ => rfl)

theorem idx_v24 (a b : Fin 8192) : idx_main_v22 (idx_main_v24 (ix2 a b)) = ix1 a :=
  funext fun d => Fin.ext (by match d with | ⟨0, _⟩ => rfl)

theorem idx_v25 (a b : Fin 8192) : idx_main_v23 (idx_main_v25 (ix2 a b)) = ix1 b :=
  funext fun d => Fin.ext (by match d with | ⟨0, _⟩ => rfl)

/-! ### The stages -/

/-- The row sums of squares. -/
theorem v1_eq (a : Fin 8192) : val_main_v1 (F := Ideal) X (ix1 a) = Spec.sq (rows X) a := by
  rw [val_main_v1_apply]
  simp only [val_main_cst_apply, val_main_v0_apply, idx_v1, Ideal.ofBits_def, Ideal.ofBits_zero_f32, zero_add,
    Ideal.mulf_def]
  rfl

/-- The outer sum of the squared norms. -/
theorem v6_eq (a b : Fin 8192) :
    val_main_v6 (F := Ideal) X (ix2 a b) = Spec.sq (rows X) a + Spec.sq (rows X) b := by
  rw [val_main_v6_apply, val_main_v4_apply, val_main_v2_apply, val_main_v5_apply, val_main_v3_apply, idx_v4, idx_v5,
    v1_eq, v1_eq]
  rfl

/-- The product with the transpose is the inner product of two rows. -/
theorem v8_eq (a b : Fin 8192) : val_main_v8 (F := Ideal) X (ix2 a b) = Spec.gram (rows X) a b := by
  rw [val_main_v8_apply]
  simp only [val_main_v7_apply, lidx_v8, ridx_v8]
  rfl

/-- The clamped squared distance. -/
theorem v13_eq (a b : Fin 8192) : val_main_v13 (F := Ideal) X (ix2 a b) = Spec.d2 (rows X) a b := by
  rw [val_main_v13_apply, val_main_v11_apply, val_main_v10_apply, val_main_v9_apply, val_main_cst_0_apply,
    val_main_v12_apply, val_main_cst_1_apply, v6_eq, v8_eq]
  simp only [Ideal.ofBits_def, Ideal.ofBits_zero_f32, Ideal.maximumf_def, Ideal.subf_def, Ideal.mulf_def]
  rfl

/-- The Gaussian weight. -/
theorem v17_eq (a b : Fin 8192) : val_main_v17 (F := Ideal) X (ix2 a b) = Spec.kR (rows X) a b := by
  rw [val_main_v17_apply, val_main_v16_apply, val_main_v14_apply, val_main_v15_apply, val_main_cst_2_apply, v13_eq]
  simp only [Ideal.ofBits_def, Ideal.hostUnary_exp_def, Ideal.hostDivf_def, Ideal.hostNegf_def, Ideal.negf_def]
  rfl

/-- The column sums of the weights. -/
theorem v18_eq (a : Fin 8192) : val_main_v18 (F := Ideal) X (ix1 a) = Spec.degR (rows X) a := by
  rw [val_main_v18_apply]
  simp only [val_main_cst_3_apply, idx_v18, v17_eq, Ideal.ofBits_def, Ideal.ofBits_zero_f32, zero_add]
  rfl

/-- One over the square root of the degree. -/
theorem v21_eq (a : Fin 8192) : val_main_v21 (F := Ideal) X (ix1 a) = Spec.dsR (rows X) a := by
  rw [val_main_v21_apply, val_main_v20_apply, val_main_cst_4_apply, val_main_v19_apply, v18_eq]
  simp only [Ideal.ofBits_def, Ideal.hostDivf_def, Ideal.hostUnary_sqrt_def]
  rfl

/-- The reference's last stage at the coordinates `(a, b)`. -/
theorem v27_eq (a b : Fin 8192) : val_main_v27 (F := Ideal) X (ix2 a b) = Spec.GR (rows X) a b := by
  rw [val_main_v27_apply, val_main_v26_apply, val_main_v24_apply, val_main_v22_apply, val_main_v25_apply,
    val_main_v23_apply, idx_v24, idx_v25, v17_eq, v21_eq, v21_eq]
  rfl

/-- The reference's result is `GR` of the rows of its argument. -/
theorem ref_is_GR :
    val_main_v27 (F := Ideal) X = fun i => Spec.GR (fun a k => X (ix2 a k)) (i 0) (i 1) := by
  funext i
  obtain ⟨a, b, rfl⟩ : ∃ (a : Fin 8192) (b : Fin 8192), i = ix2 a b := ⟨i 0, i 1, eq_ix2 i⟩
  exact v27_eq X a b

end Cert.ReferenceIdeal.RefValue

end
-- ==== Proof.lean ====
/-
  A Pallas program that forms the degree-normalised Gaussian (RBF) kernel matrix of 8192 points in 128
  dimensions — K[a,b] = exp(−max(|x_a|² + |x_b|² − 2 x_a·x_b, 0) / 512), degree d_a = Σ_b K[a,b], result
  K[a,b] / (√d_a · √d_b) — against the plain array program for the same matrix.

  The kernel program runs two grids of 8 × 8 tiles. The first accumulates, tile by tile along each row, the
  row sums of K into a column of degrees without ever storing K; the second recomputes each tile of K and
  scales it by the row's and the column's 1/√degree. The reference forms K whole, sums it down its columns,
  and scales by the product of the two factors.

  At exact (extended real) arithmetic the two agree entry by entry:
    · −d/512 and d·(−2⁻⁹) are the same extended real for every d;
    · K is symmetric (sums and products commute), so a row sum is the column sum;
    · eight tiles of 1024 accumulated in order are the one sum over 8192 (a finite sum may be regrouped);
    · (k·u)·v = k·(u·v).
  None of these needs the inputs to be finite.

  The three frames say that each program runs to its end, faults nowhere, and leaves the input as it found it.
  For the kernel program — read at words and read at extended reals, the same text — this is the run of its
  four segments (host operations, the degree kernel, host operations, the normalising kernel), each kernel
  entered with the input's buffer split in two halves for its two windows onto it. The idealised kernel program
  is the word-level program's own text (no rewrite was applied), so there is nothing to preserve.
-/
import proofs.«143705_j41875931136544_2_alg».proof.Defs
import proofs.«143705_j41875931136544_2_alg».proof.Proof.Gen.Kernel
import proofs.«143705_j41875931136544_2_alg».proof.Proof.Gen.KernelIdeal
import proofs.«143705_j41875931136544_2_alg».proof.Proof.Gen.ReferenceIdeal
import proofs.«143705_j41875931136544_2_alg».proof.Proof.Gen.ReferenceIdeal.Run
import proofs.«143705_j41875931136544_2_alg».proof.Proof.Gen.ReferenceIdeal.Read
import proofs.«143705_j41875931136544_2_alg».proof.Proof.Gen.Pre_finite_inputs
import proofs.«143705_j41875931136544_2_alg».proof.Proof.KFrames
import proofs.«143705_j41875931136544_2_alg».proof.Proof.Frames
import proofs.«143705_j41875931136544_2_alg».proof.Proof.Bridge
import proofs.«143705_j41875931136544_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel program runs and leaves the input as launched. -/
theorem frame_k : Cert.frame_Kernel := fun m ρ _ => Cert.Kernel.Hand.frame_main m ρ

/-- The same text read at extended reals runs and leaves the input as launched. -/
theorem frame_ki : Cert.frame_KernelIdeal := fun m ρ _ => Cert.KernelIdeal.Hand.frame_main m ρ

/-- The reference runs and leaves the input as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel program was rewritten on the way to its reading at extended reals. -/
theorem preserves : Cert.preserves_Kernel_KernelIdeal := trivial

/-- From inputs that agree, both programs end at the reference's matrix of the input's rows: the kernel program by
    its run read segment by segment, the reference by its stages read index by index. -/
theorem algebraic : Cert.algebraic_KernelIdeal_ReferenceIdeal := by
  intro m ρ m' ρ' _ hagree
  refine ⟨fun c => (fun i => Cert.Spec.GR (Cert.KernelIdeal.Hand.rowsOf (Cert.KernelIdeal.Hand.xin m c)) (i 0) (i 1)), ?_, ?_⟩
  · exact (θ_run Cert.KernelIdeal.defs _ _).mono
      (fun r h c => ⟨(h c).1.trans (Cert.KernelIdeal.Hand.X1_eq m c), (h c).2⟩)
      (Cert.KernelIdeal.Hand.run_result m ρ Cert.KernelIdeal.Hand.body0)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v27_eq, Cert.ReferenceIdeal.RefValue.ref_is_GR, hagree c]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
